-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512 : Shape := ⟨3, ![8, 512, 512]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel

variable [Facts]

def fn {F : FTy → Type} [FloatOps F] (main_arg0 : FVec F S8x512x512 .f32) (main_arg1 : FVec F S8x512x512 .f32) : IVec S_ 1 :=
  let main_v0 : FVec F S8x512x512 .f32 := Host.absf main_arg0
  let main_cst : FVec F S_ .f32 := constant S_ .f32 0x7F800000#32
  let main_v1 : FVec F S8x512x512 .f32 := broadcastInDim S8x512x512 ![] bcast_S_S8x512x512 main_cst
  let main_v2 : IVec S8x512x512 1 := cmpf .olt main_v0 main_v1
  let main_c : IVec S_ 1 := constantI S_ 1 1#1
  let main_v3 : IVec S_ 1 := (fun x v => Host.reduce IntOp.andi x v reducesTo_S8x512x512_S_d0_1_2 h_S_) main_v2 main_c
  let main_v4 : FVec F S8x512x512 .f32 := Host.absf main_arg1
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  main_v8
-- ==== Kernel.lean ====
abbrev S8x512x512 : Shape := ⟨3, ![8, 512, 512]⟩
abbrev S1x1 : Shape := ⟨2, ![1, 1]⟩
abbrev S1x384x512 : Shape := ⟨3, ![1, 384, 512]⟩
abbrev S384x512 : Shape := ⟨2, ![384, 512]⟩
abbrev S1 : Shape := ⟨1, ![1]⟩
abbrev S1x1x1 : Shape := ⟨3, ![1, 1, 1]⟩
abbrev S32x2x16 : Shape := ⟨3, ![32, 2, 16]⟩
abbrev S32x512 : Shape := ⟨2, ![32, 512]⟩
abbrev S2x16 : Shape := ⟨2, ![2, 16]⟩
abbrev S_ : Shape := ⟨0, ![]⟩
abbrev S1x32x512 : Shape := ⟨3, ![1, 32, 512]⟩
abbrev S16 : Shape := ⟨1, ![16]⟩
abbrev S1x16 : Shape := ⟨2, ![1, 16]⟩
abbrev S1x2x16 : Shape := ⟨3, ![1, 2, 16]⟩
abbrev S32x1x16 : Shape := ⟨3, ![32, 1, 16]⟩
abbrev S32x16 : Shape := ⟨2, ![32, 16]⟩

abbrev nBuf : Table → Nat
  | .hbm => 18
  | .local .tc .vmem => 4
  | .local .tc .smem => 2
  | .local .scVector .vmem => 3
  | _ => 0

abbrev bufTy : (tb : Table) → Fin (nBuf tb) → BufTy
  | .hbm, ⟨0, _⟩ => ⟨S8x512x512, .f32⟩
  | .hbm, ⟨1, _⟩ => ⟨S8x512x512, .f32⟩
  | .hbm, ⟨2, _⟩ => ⟨S1x1, .f32⟩
  | .hbm, ⟨3, _⟩ => ⟨S1x1, .f32⟩
  | .hbm, ⟨4, _⟩ => ⟨S32x2x16, .f32⟩
  | .hbm, ⟨5, _⟩ => ⟨S_, .f32⟩
  | .hbm, ⟨6, _⟩ => ⟨S32x1x16, .f32⟩
  | .hbm, ⟨7, _⟩ => ⟨S32x16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32x1x16, .f32⟩
  | .hbm, ⟨13, _⟩ => ⟨S32x16, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local .tc .vmem, ⟨0, _⟩ => ⟨S1x384x512, .f32⟩
  | .local .tc .vmem, ⟨1, _⟩ => ⟨S1x384x512, .f32⟩
  | .local .tc .vmem, ⟨2, _⟩ => ⟨S1x384x512, .f32⟩
  | .local .tc .vmem, ⟨3, _⟩ => ⟨S1x384x512, .f32⟩
  | .local .tc .smem, ⟨0, _⟩ => ⟨S1x1, .f32⟩
  | .local .tc .smem, ⟨1, _⟩ => ⟨S1x1, .f32⟩
  | .local .scVector .vmem, ⟨0, _⟩ => ⟨S32x512, .f32⟩
  | .local .scVector .vmem, ⟨1, _⟩ => ⟨S32x512, .f32⟩
  | .local .scVector .vmem, ⟨2, _⟩ => ⟨S2x16, .f32⟩
  | _, _ => ⟨S8x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_arg0_scv : Ref sig .scVector := ⟨.hbm, 0, rfl⟩
abbrev main_arg1_scv : Ref sig .scVector := ⟨.hbm, 1, rfl⟩
abbrev main_v1_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_stg3_0 : Ref sig .tc := ⟨.smem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c384_i32 : BitVec 32 := 384#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c32_i32 : BitVec 32 := 32#32
  let v29 : BitVec 32 := Scalar.muli v28 c32_i32
  let v30 : BitVec 32 := Scalar.addi c384_i32 v29
  let c0_i32_10 : BitVec 32 := 0#32
  ![v18.toNat, v30.toNat, 0]
@[reducible] def k1_t1_loop : Scf.Loop 32 :=
  let c0_i32_18 : BitVec 32 := 0#32
  let c512_i32 : BitVec 32 := 512#32
  let v48 : BitVec 32 := Scalar.addi c0_i32_18 c512_i32
  let c1_i32_19 : BitVec 32 := 1#32
  ⟨c0_i32_18, v48, c1_i32_19⟩
def k1_off2 (k1_t1 : Fin k1_t1_loop.trips) (c0_i32_25 : BitVec 32) : Fin 2 → Nat :=
  let c0_i32_18 : BitVec 32 := 0#32
  let c1_i32_19 : BitVec 32 := 1#32
  let arg9 : BitVec 32 := Scf.iv c0_i32_18 c1_i32_19 k1_t1
  let c32_i32_24 : BitVec 32 := 32#32
  let v60 : BitVec 32 := Scalar.muli arg9 c32_i32_24
  let v61 : BitVec 32 := Scalar.addi v60 c0_i32_25
  let c0_i32_27 : BitVec 32 := 0#32
  let v63 : BitVec 1 := Scalar.cmpi .sgt v61 c0_i32_27
  let v64 : BitVec 32 := Scalar.extui v63
  let c0_i32_28 : BitVec 32 := 0#32
  let v65 : BitVec 1 := Scalar.cmpi .slt v61 c0_i32_28
  let v66 : BitVec 32 := Scalar.extui v65
  let v67 : BitVec 32 := Scalar.subi v64 v66
  let c512_i32_26 : BitVec 32 := 512#32
  let c0_i32_29 : BitVec 32 := 0#32
  let v68 : BitVec 1 := Scalar.cmpi .sgt c512_i32_26 c0_i32_29
  let v69 : BitVec 32 := Scalar.extui v68
  let c0_i32_30 : BitVec 32 := 0#32
  let v70 : BitVec 1 := Scalar.cmpi .slt c512_i32_26 c0_i32_30
  let v71 : BitVec 32 := Scalar.extui v70
  let v72 : BitVec 32 := Scalar.subi v69 v71
  let v73 : BitVec 1 := Scalar.cmpi .ne v67 v72
  let v74 : BitVec 32 := Scalar.remsi v61 c512_i32_26
  let c0_i32_31 : BitVec 32 := 0#32
  let v75 : BitVec 1 := Scalar.cmpi .ne v74 c0_i32_31
  let v76 : BitVec 1 := Scalar.andi v73 v75
  let v62 : BitVec 32 := Scalar.divsi v61 c512_i32_26
  let c1_i32_32 : BitVec 32 := 1#32
  let v77 : BitVec 32 := Scalar.subi v62 c1_i32_32
  let v78 : BitVec 32 := Scalar.select v76 v77 v62
  let v89 : Index := Scalar.indexCast v78
  let c512_i32_33 : BitVec 32 := 512#32
  let c0_i32_34 : BitVec 32 := 0#32
  let v79 : BitVec 1 := Scalar.cmpi .eq c512_i32_33 c0_i32_34
  let c1_i32_35 : BitVec 32 := 1#32
  let v80 : BitVec 32 := Scalar.select v79 c1_i32_35 c512_i32_33
  let v81 : BitVec 32 := Scalar.remsi v61 v80
  let c0_i32_37 : BitVec 32 := 0#32
  let v83 : BitVec 1 := Scalar.cmpi .slt v81 c0_i32_37
  let c0_i32_38 : BitVec 32 := 0#32
  let v84 : BitVec 1 := Scalar.cmpi .slt v80 c0_i32_38
  let v85 : BitVec 1 := Scalar.xori v83 v84
  let c0_i32_36 : BitVec 32 := 0#32
  let v82 : BitVec 1 := Scalar.cmpi .ne v81 c0_i32_36
  let v86 : BitVec 1 := Scalar.andi v85 v82
  let v87 : BitVec 32 := Scalar.addi v81 v80
  let v88 : BitVec 32 := Scalar.select v86 v87 v81
  let v90 : Index := Scalar.indexCast v88
  ![v89.toNat, v90.toNat]
def k1_off3 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_24_r0 : BitVec 32 := 0#32
  let c0_i32_25_r0 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S1x384x512_S1x384x512_0_0_0 : ∀ a, (![0, 0, 0] : Fin 3 → Nat) a + S1x384x512.size a ≤ S1x384x512.size a
  h_S1x384x512 : 0 < S1x384x512.numel
  shapeCasts_S1x384x512_S384x512 : S1x384x512.ShapeCasts S384x512
  inb_S1x1_S1x1_0_0 : ∀ a, (![0, 0] : Fin 2 → Nat) a + S1x1.size a ≤ S1x1.size a
  numel1_S1x1 : S1x1.numel = 1
  shapeCasts_S384x512_S1x384x512 : S384x512.ShapeCasts S1x384x512
  reduces_S1x384x512_S1 : S1x384x512.Reduces [1, 2] S1
  shapeCasts_S1_S1x1x1 : S1.ShapeCasts S1x1x1
  inpos_S1x1x1_p0_0_0 : ∀ a, (![0, 0, 0] : Fin 3 → Nat) a < S1x1x1.size a
  squeezes_S1x32x512_S32x512 : S1x32x512.Squeezes S32x512
  h_S1x16 : 0 < S1x16.numel
  shapeCasts_S1x16_S16 : S1x16.ShapeCasts S16
  inb_S2x16_S1x16_0_0 : ∀ a, (![0, 0] : Fin 2 → Nat) a + S1x16.size a ≤ S2x16.size a
  shapeCasts_S16_S1x16 : S16.ShapeCasts S1x16
  inb_S2x16_S1x16_1_0 : ∀ a, (![1, 0] : Fin 2 → Nat) a + S1x16.size a ≤ S2x16.size a
  squeezes_S1x2x16_S2x16 : S1x2x16.Squeezes S2x16
  shapeCasts_S1x1_S_ : S1x1.ShapeCasts S_
  slices_S32x2x16_S32x1x16_0_0_0 : S32x2x16.Slices ![0, 0, 0] S32x1x16
  shapeCasts_S32x1x16_S32x16 : S32x1x16.ShapeCasts S32x16
  reducesTo_S32x16_S_d0_1 : S32x16.ReducesTo [0, 1] S_
  h_S_ : 0 < S_.numel
  slices_S32x2x16_S32x1x16_0_1_0 : S32x2x16.Slices ![0, 1, 0] S32x1x16
  hcc1_scratch3 : 6 + S_.numel ≤ 8
  hcc1_scoped0 : 7 + S_.numel ≤ 8
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x384x512.size a < S8x512x512.size a
  hwx0_0 : ∀ i : grid0.Coords, EltTy.bits .f32 = 32 ∨ (Rect.unit (s := S8x512x512) (fun a => cc0_transform_0 i a * S1x384x512.size a) (fun a => (Pipeline.Clip.of (cc0_transform_0 i a) (S1x384x512.size a) (S8x512x512.size a)).extent (S1x384x512.size a)) fun a => Pipeline.Clip.inb (Pipeline.Clip.ok_of (hstart0_0 i a))).WholeWords (EltTy.packing .f32)
  hwxs0_0 : ∀ i : grid0.Coords, EltTy.bits .f32 = 32 ∨ (Rect.unit (s := S1x384x512) (fun _ => 0) (fun a => (Pipeline.Clip.of (cc0_transform_0 i a) (S1x384x512.size a) (S8x512x512.size a)).extent (S1x384x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x384x512.size a < S8x512x512.size a
  hwx0_1 : ∀ i : grid0.Coords, EltTy.bits .f32 = 32 ∨ (Rect.unit (s := S8x512x512) (fun a => cc0_transform_1 i a * S1x384x512.size a) (fun a => (Pipeline.Clip.of (cc0_transform_1 i a) (S1x384x512.size a) (S8x512x512.size a)).extent (S1x384x512.size a)) fun a => Pipeline.Clip.inb (Pipeline.Clip.ok_of (hstart0_1 i a))).WholeWords (EltTy.packing .f32)
  hwxs0_1 : ∀ i : grid0.Coords, EltTy.bits .f32 = 32 ∨ (Rect.unit (s := S1x384x512) (fun _ => 0) (fun a => (Pipeline.Clip.of (cc0_transform_1 i a) (S1x384x512.size a) (S8x512x512.size a)).extent (S1x384x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hcore1 : grid1.bound 0 ≤ τ.nSC
  hsub1 : grid1.bound 1 ≤ τ.nSub
  k1_off1_inb : ∀ i : grid1.Coords, ∀ a, (k1_off1 i) a + S1x32x512.size a ≤ S8x512x512.size a
  k1_t1_ok : k1_t1_loop.OK
  k1_off2_inb : ∀ k1_t1 : Fin k1_t1_loop.trips, ∀ (r : Fin 2), ∀ a, (k1_off2 k1_t1 (BitVec.ofNat 32 (16 * r.val))) a + S1x16.size a ≤ S32x512.size a
  k1_off3_inb : ∀ i : grid1.Coords, ∀ a, (k1_off3 i) a + S1x2x16.size a ≤ S32x2x16.size a

variable [Facts₀]

abbrev cc1_scratch3 : DmaSems sig S_ := SemArray.consecutive 6 S_ hcc1_scratch3
abbrev cc1_scoped0 : DmaSems sig S_ := SemArray.consecutive 7 S_ hcc1_scoped0

abbrev win0_0 : Pipeline.Window sig grid0 :=
  Pipeline.Window.ofSpecClip (Memref.whole main_arg0) S1x384x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S1x384x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0_0) S1x1.size cc0_transform_2 reads0_2 true false 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true false 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x512x512 : Shape := ⟨3, ![8, 512, 512]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x512x512, .f32⟩
  | .hbm, ⟨1, _⟩ => ⟨S8x512x512, .f32⟩
  | .hbm, ⟨2, _⟩ => ⟨S_, .f32⟩
  | .hbm, ⟨3, _⟩ => ⟨S8x512x512, .f32⟩
  | .hbm, ⟨4, _⟩ => ⟨S8x512x512, .i1⟩
  | .hbm, ⟨5, _⟩ => ⟨S8x512x512, .f32⟩
  | .hbm, ⟨6, _⟩ => ⟨S8x512x512, .f32⟩
  | .hbm, ⟨7, _⟩ => ⟨S_, .f32⟩
  | .hbm, ⟨8, _⟩ => ⟨S_, .f32⟩
  | .hbm, ⟨9, _⟩ => ⟨S8x512x512, .f32⟩
  | .hbm, ⟨10, _⟩ => ⟨S8x512x512, .f32⟩
  | .hbm, ⟨11, _⟩ => ⟨S8x512x512, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel

variable [Facts₀]

class Facts : Prop extends Facts₀ where

variable [Facts]
-- ==== Proof.Spec.lean ====
/-
  The scalar content of the loss: for one element, with target `t` and output `o`, the masked absolute error
  `if t > 0 then |t - o| else 0` and the mask's indicator `if t > 0 then 1 else 0`, written with the float
  operations of an arbitrary instance `F`. The loss is the quotient of the sum of the first over all elements by the sum of
  the second. Both the kernel (vector lanes on either processor) and the reference compute these two numbers element by element;
  the lemmas below identify a lane of the vector expressions with them.
-/
import Idealize.ShloMosaic.PureOps

noncomputable section

namespace Cert.Spec

open Idealize.ShloMosaic

variable {F : FTy → Type} [FloatOps F]

/-- The float zero and one, as their IEEE words. -/
abbrev zero : F .f32 := FloatOps.ofBits .f32 0x00000000#32
abbrev one : F .f32 := FloatOps.ofBits .f32 0x3F800000#32

/-- The masked absolute error of one element: `|t - o|` where the target is positive, zero elsewhere. -/
def e1 (t o : F .f32) : F .f32 := Scalar.select (FloatOps.cmpf .ogt t zero) (FloatOps.absf (FloatOps.subf t o)) zero

/-- The indicator of the mask at one element: one where the target is positive, zero elsewhere. -/
def p1 (t : F .f32) : F .f32 := Scalar.select (FloatOps.cmpf .ogt t zero) one zero

/-- A lane of the vector expression for the masked error is `e1` of the lane's two entries. -/
theorem e_lane {s : Shape} (t o : FVec F s .f32) (i : s.Idx) :
    select (cmpf .ogt t (broadcast s (Scalar.ofBits .f32 0x00000000#32))) (absf (subf t o)) (broadcast s (Scalar.ofBits .f32 0x00000000#32)) i
      = e1 (t i) (o i) := rfl

/-- A lane of the vector expression for the indicator is `p1` of the lane's target entry. -/
theorem p_lane {s : Shape} (t : FVec F s .f32) (i : s.Idx) :
    select (cmpf .ogt t (broadcast s (Scalar.ofBits .f32 0x00000000#32))) (broadcast s (Scalar.ofBits .f32 0x3F800000#32))
      (broadcast s (Scalar.ofBits .f32 0x00000000#32)) i = p1 (t i) := rfl

end Cert.Spec

end
-- ==== Proof.Common.lean ====
/-
  What the parts of this certificate share: the program as the SparseCore launch theorem sees it (the calls `K`, the body
  table `D` lifted through the one TensorCore pipeline, the variants), the resource algebra — the launch handshakes'
  rounds, the pipeline's staging cells' rounds, and the counters of the tiles' own transfers, side by side —, and the
  names of the arrays: the two arguments, the two scalar partial sums the TensorCore call leaves, and the 32 x 2 x 16 array of
  per-tile lane sums the SparseCore call leaves. A tile is numbered `2 * subcore + core`; tile `w` works on batch `w / 4`,
  rows `384 + 32 * (w % 4)` to `384 + 32 * (w % 4) + 31`.
-/
import proofs.«207045_g69415261438402_cont_9to1_m_695_13_alg».proof.KernelIdeal
import proofs.«207045_g69415261438402_cont_9to1_m_695_13_alg».proof.Proof.Gen.KernelIdeal
import proofs.«207045_g69415261438402_cont_9to1_m_695_13_alg».proof.Proof.Gen.KernelIdeal.Skeleton
import proofs.«207045_g69415261438402_cont_9to1_m_695_13_alg».proof.Proof.Gen.KernelIdeal.Launch
import proofs.«207045_g69415261438402_cont_9to1_m_695_13_alg».proof.Proof.Gen.KernelIdeal.Points
import proofs.«207045_g69415261438402_cont_9to1_m_695_13_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The kernels' label signature, lifted through the one TensorCore pipeline. -/
abbrev ΛP : Labels := Pipeline.Sig Λ₀ (Fin 1) fun p => (pcfgs (F := F) p).Adm
/-- The SparseCore calls: one, the vector-subcore kernel on 2 x 16 tiles. -/
abbrev K : SparseCore.Cfg τ sig (ΛP (F := F)) 1 := sc (F := F)
theorem nCore_zero : (K (F := F)).nCore 0 = 2 := rfl
theorem nSub_zero : (K (F := F)).nSub 0 = 16 := rfl
/-- The kernels' body table with the pipeline's region and point labels. -/
abbrev D [FloatOps F] : Defs nD τ sig (Elt F) (ΛP (F := F)) := Pipeline.defs pcfgs defs₀
/-- The kernels make no call of their own: no variant below the pipeline's. -/
abbrev 𝒱₀ : Variants := Variants.none
abbrev 𝒱 : Variants := 𝒱₀.lift
abbrev v₀ : 𝒱.V := Sum.inl none

/-- The facts about the launch semaphores and the SparseCores' buffers the launch theorem takes, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, the pipeline's staging cells' rounds, the tiles' transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' copy: the left factor. -/
abbrev EH : Emb UH (MT nD τ sig (HIx 1) (Elt F) ℕ UU ℕ) := embL
/-- The pipeline's copy: the left factor of the right factor. The counters are found by instance in what is left. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The arrays -/

/-- The arguments (outputs, target), the TensorCore call's two scalars, the SparseCore call's lane sums, the result. -/
abbrev a0Loc (d : Dev nD) : Loc nD τ sig := (SparseCore.T d).loc main_arg0
abbrev a1Loc (d : Dev nD) : Loc nD τ sig := (SparseCore.T d).loc main_arg1
abbrev nLoc (d : Dev nD) : Loc nD τ sig := (SparseCore.T d).loc main_v0_0
abbrev cLoc (d : Dev nD) : Loc nD τ sig := (SparseCore.T d).loc main_v0_1
abbrev pLoc (d : Dev nD) : Loc nD τ sig := (SparseCore.T d).loc main_v1
abbrev rLoc (d : Dev nD) : Loc nD τ sig := (SparseCore.T d).loc main_v12

/-- The SparseCore and the vector subcore of a grid point of the tiles' call, and the tile's number. -/
abbrev cV (L : grid1.Coords) : Fin τ.nSC := (L 0).castLE hcore1
abbrev jV (L : grid1.Coords) : Fin τ.nSub := (L 1).castLE hsub1
abbrev wid (L : grid1.Coords) : ℕ := 2 * (L 1).val + (L 0).val

/-- The arrays as a tile names them (whole), its three scratch buffers, its two semaphore arrays. -/
abbrev a0V : Memref sig .scVector .hbm S8x512x512 .f32 := Memref.whole main_arg0_scv
abbrev a1V : Memref sig .scVector .hbm S8x512x512 .f32 := Memref.whole main_arg1_scv
abbrev pV : Memref sig .scVector .hbm S32x2x16 .f32 := Memref.whole main_v1_scv
abbrev sO : Memref sig .scVector .vmem S32x512 .f32 := Memref.whole cc1_scratch0
abbrev sT : Memref sig .scVector .vmem S32x512 .f32 := Memref.whole cc1_scratch1
abbrev sR : Memref sig .scVector .vmem S2x16 .f32 := Memref.whole cc1_scratch2

end Cert.KernelIdeal.Hand

end
-- ==== Proof.Rows.lean ====
/-
  How the arrays are dealt to the 32 tiles. Tile `w = 2 i + c` (vector subcore `i` of SparseCore `c`) writes row `w` of the
  32 x 2 x 16 array of lane sums: the 32 rows are pairwise disjoint and cover the array, so the array whole is the rows side by
  side. The two argument arrays are only read: each tile is lent one of 32 read shares of each array whole.
-/
import proofs.«207045_g69415261438402_cont_9to1_m_695_13_alg».proof.Proof.Common
import Idealize.ShloMosaic.Lib.Transfers

noncomputable section

namespace Cert.KernelIdeal.Hand

open Cert.KernelIdeal

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Tiles by number -/

/-- The tile's number `2 i + c` of subcore `i` of SparseCore `c`, as a bijection of the 2 x 16 grid with `Fin 32`. -/
def tileEquiv : Fin 2 × Fin 16 ≃ Fin 32 := (Equiv.prodComm (Fin 2) (Fin 16)).trans finProdFinEquiv

theorem tileEquiv_val (c : Fin 2) (i : Fin 16) : (tileEquiv (c, i)).val = 2 * i.val + c.val := by
  show (finProdFinEquiv (i, c)).val = _
  simp [finProdFinEquiv]; omega

/-- The number of the tile at SparseCore `c`, subcore `i`. -/
abbrev tileNo (c : Fin 2) (i : Fin 16) : Fin 32 := tileEquiv (c, i)

/-- A family over the 32 tiles, by SparseCore and subcore. -/
theorem bigSep_tiles (Φ : Fin 32 → sProp 𝕄) :
    bigSep Finset.univ Φ = bigSep Finset.univ fun c : Fin 2 => bigSep Finset.univ fun i : Fin 16 => Φ (tileNo c i) := by
  rw [bigSep_univ_equiv tileEquiv Φ, bigSep_univ_prod]

/-! ## The rows of the lane-sum array -/

theorem hdiv32 : 32 ∣ S32x2x16.size 0 := ⟨1, rfl⟩
/-- Row `w` of the 32 x 2 x 16 array: the `w`-th of 32 parts along axis 0. -/
abbrev prow (w : Fin 32) : Rect S32x2x16 := Rect.part (s := S32x2x16) (a₀ := 0) hdiv32 w
/-- Its elements. -/
abbrev prowSet (w : Fin 32) : Finset S32x2x16.Idx := (prow w).set

theorem prows_disjoint : ∀ i ∈ (Finset.univ : Finset (Fin 32)), ∀ j ∈ (Finset.univ : Finset (Fin 32)), i ≠ j → Disjoint (prowSet i) (prowSet j) :=
  fun i _ j _ h => Rect.part_disjoint hdiv32 h
theorem prows_cover : (Finset.univ : Finset (Fin 32)).biUnion prowSet = Finset.univ := Rect.biUnion_part hdiv32

/-- The array whole is its 32 rows. -/
theorem pPts_rows (d : Dev nD) (f : Buf (Elt F) (pLoc d)) :
    (pLoc d ↦{fullShare} f : sProp 𝕄) = bigSep Finset.univ fun w : Fin 32 => pLoc d ↦[prowSet w]{fullShare} f := by
  rw [← pointsTo_biUnion Finset.univ (ℓ := pLoc d) prowSet prows_disjoint, prows_cover]; try rfl

/-! ## The read shares of the arguments -/

/-- Tile `w`'s read share. -/
abbrev tshare (w : Fin 32) : PosShare TreeShare := Transfers.shareTok fullShare 32 w
/-- What is left with the TensorCore while the tiles read. -/
abbrev tdrop : PosShare TreeShare := Transfers.shareDrop fullShare 32

theorem arg_split (ℓ : Loc nD τ sig) (f : Buf (Elt F) ℓ) :
    (ℓ ↦{fullShare} f : sProp 𝕄) ⊣⊢ iprop((ℓ ↦{tdrop} f) ∗ bigSep Finset.univ fun w : Fin 32 => ℓ ↦{tshare w} f) :=
  Transfers.pointsTo_toks fullShare 32

end Cert.KernelIdeal.Hand

end
-- ==== Proof.Tile.lean ====
/-
  One vector subcore's task, at a symbolic tile. The tile copies its 32 x 512 slabs of the two arguments into its own
  memory (two copies counted on one semaphore, both waited for before either slab is read), folds the 1024 sixteen-lane
  pieces of the slabs into four sixteen-lane accumulators (two pieces a trip: the even pieces into the first error and count
  accumulators, the odd pieces into the second), adds the accumulators pairwise into a 2 x 16 block and copies that block
  to the tile's row of the array of per-tile lane sums. `tileOut` is that block as a pure function of the two arguments.
-/
import proofs.«207045_g69415261438402_cont_9to1_m_695_13_alg».proof.Proof.Common
import Idealize.ShloMosaic.Lib.Batch

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's views of the arrays -/

/-- The 32 x 512 slab of the first argument the tile copies, as the program slices it; -/
abbrev slab0 (L : grid1.Coords) : Memref sig .scVector .hbm S32x512 .f32 :=
  ((a0V).slice (Rect.unit (s := S8x512x512) (k1_off1 L) S1x32x512.size (k1_off1_inb L)) (fun _ => rfl)).squeeze S32x512 squeezes_S1x32x512_S32x512
/-- of the second; -/
abbrev slab1 (L : grid1.Coords) : Memref sig .scVector .hbm S32x512 .f32 :=
  ((a1V).slice (Rect.unit (s := S8x512x512) (k1_off1 L) S1x32x512.size (k1_off1_inb L)) (fun _ => rfl)).squeeze S32x512 squeezes_S1x32x512_S32x512
/-- the tile's 2 x 16 row of the array of lane sums. -/
abbrev pRow (L : grid1.Coords) : Memref sig .scVector .hbm S2x16 .f32 :=
  ((pV).slice (Rect.unit (s := S32x2x16) (k1_off3 L) S1x2x16.size (k1_off3_inb L)) (fun _ => rfl)).squeeze S2x16 squeezes_S1x2x16_S2x16

/-! ## The value: the loop's fold over the two slabs -/

section Value

variable [FloatOps F]

/-- The four accumulators: first and second error sums, first and second counts. -/
abbrev Acc (F : FTy → Type) : Type := FVec F S16 .f32 × FVec F S16 .f32 × FVec F S16 .f32 × FVec F S16 .f32

/-- Piece `r` (0 or 1) of trip `k`, read off a slab held in the tile's first scratch buffer; -/
def ldO (A : FVec F S32x512 .f32) (k : Fin k1_t1_loop.trips) (r : Fin 2) : Vec F S1x16 .f32 :=
  (sO).view.readAt (Elt F) (Rect.unit (s := S32x512) (k1_off2 k (BitVec.ofNat 32 (16 * r.val))) S1x16.size (k1_off2_inb k r)).toLoadRect A
/-- in its second. -/
def ldT (B : FVec F S32x512 .f32) (k : Fin k1_t1_loop.trips) (r : Fin 2) : Vec F S1x16 .f32 :=
  (sT).view.readAt (Elt F) (Rect.unit (s := S32x512) (k1_off2 k (BitVec.ofNat 32 (16 * r.val))) S1x16.size (k1_off2_inb k r)).toLoadRect B

/-- One trip: pieces `2k` and `2k + 1` of the slabs `A` (outputs) and `B` (target) added to the accumulators. -/
def tStep (A B : FVec F S32x512 .f32) (k : Fin k1_t1_loop.trips) (acc : Acc F) : Acc F :=
  (k1_pay5 acc.1 (k1_pay2 (ldT B k 0)) (k1_pay3 (ldT B k 0) (ldO A k 0)) (k1_pay4 (F := F)),
   k1_pay12 acc.2.1 (k1_pay7 (ldT B k 1)) (k1_pay8 (ldO A k 1)) (k1_pay9 (F := F)),
   k1_pay6 acc.2.2.1 (k1_pay2 (ldT B k 0)),
   k1_pay13 acc.2.2.2 (k1_pay7 (ldT B k 1)) (k1_pay9 (F := F)))

/-- The accumulators before trip `n`. -/
def tAcc (A B : FVec F S32x512 .f32) : ℕ → Acc F
  | 0 => (k1_pay10 (F := F), k1_pay10 (F := F), k1_pay10 (F := F), k1_pay10 (F := F))
  | n + 1 => if h : n < k1_t1_loop.trips then tStep A B ⟨n, h⟩ (tAcc A B n) else tAcc A B n

/-- A lane of the 2 x 16 block as an index of one of its 1 x 16 rows. -/
def laneOf (j : S2x16.Idx) : S1x16.Idx := fun a => match a with
  | 0 => ⟨0, by decide⟩
  | 1 => j 1

/-- The block a tile leaves in its row of the lane sums: row 0 the two error accumulators added, row 1 the two counts,
    after all the trips over the tile's slabs of `X` (outputs) and `T` (target). -/
def tileOut (X T : FVec F S8x512x512 .f32) (L : grid1.Coords) : FVec F S2x16 .f32 := fun j =>
  if (j 0).val = 0 then
    k1_pay14 (tAcc ((slab0 L).view.read (Elt F) X) ((slab1 L).view.read (Elt F) T) k1_t1_loop.trips).1
      (tAcc ((slab0 L).view.read (Elt F) X) ((slab1 L).view.read (Elt F) T) k1_t1_loop.trips).2.1 (laneOf j)
  else
    k1_pay15 (tAcc ((slab0 L).view.read (Elt F) X) ((slab1 L).view.read (Elt F) T) k1_t1_loop.trips).2.2.1
      (tAcc ((slab0 L).view.read (Elt F) X) ((slab1 L).view.read (Elt F) T) k1_t1_loop.trips).2.2.2 (laneOf j)

end Value

/-! ## The task -/

section Tile

variable (m : (ℓ : Loc nD τ sig) → Buf (Elt F) ℓ)
variable [FloatOps F]
variable (d : Dev nD) (L : grid1.Coords)

/-- A read share of the whole of each argument, as the tile addresses it. -/
abbrev argShare0 (q : PosShare TreeShare) : sProp 𝕄 := (a0V).view.loc (V d (cV L) (jV L)) ↦{q} m (a0Loc d)
abbrev argShare1 (q : PosShare TreeShare) : sProp 𝕄 := (a1V).view.loc (V d (cV L) (jV L)) ↦{q} m (a1Loc d)
/-- The tile's row of the lane sums, held by exactly its own elements. -/
abbrev rowHeld (f : Buf (Elt F) (pLoc d)) : sProp 𝕄 := (pRow L).view.loc (V d (cV L) (jV L)) ↦[(pRow L).view.set]{fullShare} f

/-- The tile's two semaphore cells: the one both slab copies complete on, the one the write-out completes on. -/
abbrev cAcell (c : Fin τ.nSC) (i : Fin τ.nSub) : GSem nD τ sig := (V d c i, .dma cc1_scratch3.sem)
abbrev cBcell (c : Fin τ.nSC) (i : Fin τ.nSub) : GSem nD τ sig := (V d c i, .dma cc1_scoped0.sem)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc1_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped0.sem : SemLoc sig).isScoped .scVector = true; decide⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

omit [FloatOps F] in
theorem pts_sO (f : Buf (Elt F) ((V d (cV L) (jV L)).loc cc1_scratch0)) :
    ((sO).view.loc (V d (cV L) (jV L)) ↦[(sO).view.set]{fullShare} f : sProp 𝕄) = (V d (cV L) (jV L)).loc cc1_scratch0 ↦{fullShare} f := by
  simp only [Memref.view_whole, View.set_whole]
omit [FloatOps F] in
theorem pts_sT (f : Buf (Elt F) ((V d (cV L) (jV L)).loc cc1_scratch1)) :
    ((sT).view.loc (V d (cV L) (jV L)) ↦[(sT).view.set]{fullShare} f : sProp 𝕄) = (V d (cV L) (jV L)).loc cc1_scratch1 ↦{fullShare} f := by
  simp only [Memref.view_whole, View.set_whole]
omit [FloatOps F] in
theorem pts_sR (f : Buf (Elt F) ((V d (cV L) (jV L)).loc cc1_scratch2)) :
    ((sR).view.loc (V d (cV L) (jV L)) ↦[(sR).view.set]{fullShare} f : sProp 𝕄) = (V d (cV L) (jV L)).loc cc1_scratch2 ↦{fullShare} f := by
  simp only [Memref.view_whole, View.set_whole]

/-- One slab's credit on the copies' semaphore. -/
abbrev NA : ℕ := (sO).view.amount (SemLoc.dma (sig := sig) cc1_scratch3.sem)

/-- The two copies' deliveries: each scratch buffer holding its slab (one listed write of the whole over what it held), and the
    lent elements of the argument back. -/
abbrev deliv (q : PosShare TreeShare) (fO : Buf (Elt F) ((sO).view.loc (V d (cV L) (jV L)))) (fT : Buf (Elt F) ((sT).view.loc (V d (cV L) (jV L)))) :
    Fin 2 → sProp 𝕄 := fun t => match t with
  | ⟨0, _⟩ => iprop(((sO).view.loc (V d (cV L) (jV L)) ↦[(sO).view.set]{fullShare}
        (sO).view.writes (Elt F) fO [⟨Rect.whole S32x512, ReadAs.same.apply ((slab0 L).view.read (Elt F) (m (a0Loc d)))⟩])
      ∗ ((slab0 L).view.loc (V d (cV L) (jV L)) ↦[(slab0 L).view.set]{q} m (a0Loc d)))
  | ⟨_ + 1, _⟩ => iprop(((sT).view.loc (V d (cV L) (jV L)) ↦[(sT).view.set]{fullShare}
        (sT).view.writes (Elt F) fT [⟨Rect.whole S32x512, ReadAs.same.apply ((slab1 L).view.read (Elt F) (m (a1Loc d)))⟩])
      ∗ ((slab1 L).view.loc (V d (cV L) (jV L)) ↦[(slab1 L).view.set]{q} m (a1Loc d)))

instance deliv_storable (q : PosShare TreeShare) (fO : Buf (Elt F) ((sO).view.loc (V d (cV L) (jV L)))) (fT : Buf (Elt F) ((sT).view.loc (V d (cV L) (jV L))))
    (t : Fin 2) : BI.Storable (upEmb : UEmb _ 𝕄) (deliv m d L q fO fT t) := by
  match t with
  | ⟨0, _⟩ => unfold deliv; infer_instance
  | ⟨_ + 1, _⟩ => unfold deliv; infer_instance

omit [FloatOps F] in
/-- A whole buffer after one listed write of the whole holds the payload. -/
theorem writes_whole_eq {κ : Kind} (b : Ref sig κ) (g w : b.ty.Contents (Elt F)) :
    (View.whole b).writes (Elt F) g [⟨Rect.whole b.ty.shape, ReadAs.same.apply w⟩] = w := by
  rw [ReadAs.apply_same, ← View.write_univ_eq_writes_whole (View.whole b) g [] w, View.writes_nil, View.write_whole_univ]

omit [FloatOps F] in
theorem landed_sO (g : Buf (Elt F) ((sO).view.loc (V d (cV L) (jV L)))) (w : FVec F S32x512 .f32) :
    (sO).view.writes (Elt F) g [⟨Rect.whole S32x512, ReadAs.same.apply w⟩] = w := writes_whole_eq cc1_scratch0 g w
omit [FloatOps F] in
theorem landed_sT (g : Buf (Elt F) ((sT).view.loc (V d (cV L) (jV L)))) (w : FVec F S32x512 .f32) :
    (sT).view.writes (Elt F) g [⟨Rect.whole S32x512, ReadAs.same.apply w⟩] = w := writes_whole_eq cc1_scratch1 g w

/-- The loop's invariant: the accumulators are the fold over the trips done, the two scratch buffers hold the slabs. -/
def inv (A B : FVec F S32x512 .f32) (k : ℕ) (acc : Acc F) : sProp 𝕄 :=
  iprop(⌜acc = tAcc A B k⌝
    ∗ ((sO).view.loc (V d (cV L) (jV L)) ↦[(sO).view.set]{fullShare} A)
    ∗ ((sT).view.loc (V d (cV L) (jV L)) ↦[(sT).view.set]{fullShare} B))

omit [FloatOps F] in
/-- A view read back after one listed write of the whole reads the payload. -/
theorem read_writes_whole {κ : Kind} {sp : Space} {s : Shape} {e : EltTy} (v : View sig κ sp s e) (f : v.ty.Contents (Elt F)) (w : s.Idx → Elt F e) :
    v.read (Elt F) (v.writes (Elt F) f [⟨Rect.whole s, w⟩]) = w := by
  rw [← View.write_univ_eq_writes_whole v f [] w, View.writes_nil, View.read_write_univ]

omit [FloatOps F] in
theorem laneOf_zero (j : S2x16.Idx) : ((laneOf j) 0).val = 0 := rfl
omit [FloatOps F] in
theorem laneOf_one (j : S2x16.Idx) : ((laneOf j) 1).val = (j 1).val := rfl

omit [FloatOps F] in
/-- A lane of row 0 of the block is its lane of the row's rectangle; -/
theorem emb_row0 (j : S2x16.Idx) (h : (j 0).val = 0) :
    (Rect.unit (s := S2x16) ![0, 0] S1x16.size inb_S2x16_S1x16_0_0).emb (laneOf j) = j := by
  funext a
  apply Fin.ext
  rw [Rect.emb_apply]
  match a with
  | ⟨0, _⟩ => show 0 + 1 * ((laneOf j) 0).val = (j 0).val; rw [laneOf_zero, h]
  | ⟨1, _⟩ => show 0 + 1 * ((laneOf j) 1).val = (j 1).val; rw [laneOf_one]; omega
omit [FloatOps F] in
/-- of row 1. -/
theorem emb_row1 (j : S2x16.Idx) (h : (j 0).val = 1) :
    (Rect.unit (s := S2x16) ![1, 0] S1x16.size inb_S2x16_S1x16_1_0).emb (laneOf j) = j := by
  funext a
  apply Fin.ext
  rw [Rect.emb_apply]
  match a with
  | ⟨0, _⟩ => show 1 + 1 * ((laneOf j) 0).val = (j 0).val; rw [laneOf_zero, h]
  | ⟨1, _⟩ => show 0 + 1 * ((laneOf j) 1).val = (j 1).val; rw [laneOf_one]; omega

omit [FloatOps F] in
/-- The 2 x 16 scratch after its two row stores, read whole: row 0 the first payload, row 1 the second. -/
theorem block_eq (fR : Buf (Elt F) ((sR).view.loc (V d (cV L) (jV L)))) (w0 w1 : FVec F S1x16 .f32) :
    (sR).view.read (Elt F) ((sR).view.writes (Elt F) fR
        [⟨Rect.unit (s := S2x16) ![1, 0] S1x16.size inb_S2x16_S1x16_1_0, w1⟩, ⟨Rect.unit (s := S2x16) ![0, 0] S1x16.size inb_S2x16_S1x16_0_0, w0⟩])
      = fun j => if (j 0).val = 0 then w0 (laneOf j) else w1 (laneOf j) := by
  funext j
  by_cases h : (j 0).val = 0
  · rw [if_pos h, View.writes_cons]
    rw [View.read_slice_write_of_not_mem _ _ _ _ (by
      rw [Rect.map_emb_univ, Rect.mem_set_unit]
      intro hh
      have := (hh 0).1
      have h1 : ((![1, 0] : Fin 2 → ℕ) 0) = 1 := rfl
      omega)]
    have := View.read_writes_cons_emb (sR).view fR (Rect.unit (s := S2x16) ![0, 0] S1x16.size inb_S2x16_S1x16_0_0) w0 [] (laneOf j)
    rw [emb_row0 j h] at this
    exact this
  · have h1 : (j 0).val = 1 := by have := (j 0).isLt; have h2 : S2x16.size 0 = 2 := rfl; omega
    rw [if_neg h]
    have := View.read_writes_cons_emb (sR).view fR (Rect.unit (s := S2x16) ![1, 0] S1x16.size inb_S2x16_S1x16_1_0) w1
      [⟨Rect.unit (s := S2x16) ![0, 0] S1x16.size inb_S2x16_S1x16_0_0, w0⟩] (laneOf j)
    rw [emb_row1 j h1] at this
    exact this

/-- The task on vector subcore `(L 0, L 1)` of device `d`. -/
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp
        ∗ (argShare0 m d L q ∗ argShare1 m d L q ∗ ∃ f, rowHeld d L f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L a0V (Memref.isWhole_whole _) a1V (Memref.isWhole_whole _) pV (Memref.isWhole_whole _)
            sO (Memref.isWhole_whole _) sT (Memref.isWhole_whole _) sR (Memref.isWhole_whole _) cc1_scratch3 cc1_scoped0)
          fun _ => iprop((argShare0 m d L q ∗ argShare1 m d L q
              ∗ ∃ f, ⌜(pRow L).view.read (Elt F) f = tileOut (m (a0Loc d)) (m (a1Loc d)) L⌝ ∗ rowHeld d L f)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  iintro ⟨#Hlv, -, ⟨Ha0, Ha1, ⟨%fp, Hp⟩⟩, ⟨⟨%fO, HsO⟩, ⟨%fT, HsT⟩, ⟨%fR, HsR⟩, Hbufs⟩, ⟨HsemA, HsemB, Hsems⟩, HO⟩
  ihave Hmw := ((K (F := F)).mayWaits_none (thr := V d (cV L) (jV L)) hO) $$ Hlv
  ihave HsO' := (Entails.of_eq (pts_sO (F := F) d L _).symm) $$ HsO
  ihave HsT' := (Entails.of_eq (pts_sT (F := F) d L _).symm) $$ HsT
  ihave HsR' := (Entails.of_eq (pts_sR (F := F) d L _).symm) $$ HsR
  imod (Transfers.batch_alloc' (Lvl := ℕ) (countersEmb (U := UU)) (V d (cV L) (jV L)) (none : HIx 1) NA (deliv m d L q fO fT) (sm := .dma cc1_scratch3.sem) (E := Set.univ)) $$ HsemA with HB
  sl_exec
  rw [landed_sO (F := F) d L, landed_sT (F := F) d L]
  sl_for (inv d L ((slab0 L).view.read (Elt F) (m (a0Loc d))) ((slab1 L).view.read (Elt F) (m (a1Loc d)))) $$ [HB_dst0 HB_dst1]
  case region =>
    intro k acc
    obtain ⟨a0, a1, a2, a3⟩ := acc
    unfold inv
    iintro ⟨%hacc, HA, HBb⟩
    sl_exec
    sl_step
    isplitr
    · ipureintro
      show _ = (if h : k.val < k1_t1_loop.trips then tStep _ _ ⟨k.val, h⟩ (tAcc _ _ k.val) else tAcc _ _ k.val)
      rw [dif_pos k.isLt, ← hacc]
      rfl
    isplitl [HA]; · iexact HA
    iexact HBb
  · unfold inv
    isplitr; · ipureintro; rfl
    isplitl [HB_dst0]; · iexact HB_dst0
    iexact HB_dst1
  iintro %acc HI
  unfold inv
  icases HI with ⟨%hacc, HA, HBb⟩
  sl_exec
  sl_step
  subst hacc
  isplitl [Ha0 Ha1 Hp]
  · isplitl [Ha0]; · iexact Ha0
    isplitl [Ha1]; · iexact Ha1
    iexists _; isplitr
    rotate_left
    · iexact Hp
    · ipureintro
      refine (read_writes_whole (pRow L).view fp _).trans ?_
      exact block_eq (F := F) d L fR _ _
  isplitl [HA HBb HsR' Hbufs]
  · isplitl [HA]; · iexists _; iapply (Entails.of_eq (pts_sO (F := F) d L _)); iexact HA
    isplitl [HBb]; · iexists _; iapply (Entails.of_eq (pts_sT (F := F) d L _)); iexact HBb
    isplitl [HsR']; · iexists _; iapply (Entails.of_eq (pts_sR (F := F) d L _)); iexact HsR'
    iexact Hbufs
  isplitl [HB HsemB Hsems]
  · isplitl [HB]; · iexact HB
    isplitl [HsemB]; · iexact HsemB
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

end Cert.KernelIdeal.Hand

end
-- ==== Proof.Pay.lean ====
/-
  What the SparseCore call's handshakes carry, and the two obligations the launch asks about the tiles. Tile number `w`
  (SparseCore `w % 2`, subcore `w / 2`) is lent read share `w` of each argument array whole and its own row `w` of the array
  of lane sums; it gives them back with the row holding the tile's block of sums. A SparseCore's part of the call is its
  sixteen tiles' parts side by side, so the split among the tiles is the identity.
-/
import proofs.«207045_g69415261438402_cont_9to1_m_695_13_alg».proof.Proof.Rows
import proofs.«207045_g69415261438402_cont_9to1_m_695_13_alg».proof.Proof.Tile

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Tiles as grid points -/

/-- The grid point of SparseCore `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The grid point of tile number `w`. -/
def Lof (w : Fin 32) : grid1.Coords := coordsV ⟨w.val % 2, Nat.mod_lt _ (by decide)⟩ ⟨w.val / 2, by have := w.isLt; show _ < 16; omega⟩

theorem wid_Lof (w : Fin 32) : wid (Lof w) = w.val := by
  show 2 * (w.val / 2) + w.val % 2 = w.val; omega

theorem wid_lt (L : grid1.Coords) : wid L < 32 := by
  have h0 : (L 0).val < 2 := (L 0).isLt
  have h1 : (L 1).val < 16 := (L 1).isLt
  show 2 * (L 1).val + (L 0).val < 32; omega

/-- The number of the tile at a grid point. -/
abbrev widF (L : grid1.Coords) : Fin 32 := ⟨wid L, wid_lt L⟩

theorem Lof_widF (L : grid1.Coords) : Lof (widF L) = L := by
  have h0 : (L 0).val < 2 := (L 0).isLt
  funext a
  match a with
  | 0 => exact Fin.ext (by show (2 * (L 1).val + (L 0).val) % 2 = (L 0).val; omega)
  | 1 => exact Fin.ext (by show (2 * (L 1).val + (L 0).val) / 2 = (L 1).val; omega)

theorem widF_Lof (w : Fin 32) : widF (Lof w) = w := Fin.ext (wid_Lof w)

/-! ## The tile's row, by number -/

/-- The rectangle the tile slices out of the array of lane sums is row number `wid L`. -/
theorem pRect_eq (L : grid1.Coords) :
    Rect.unit (s := S32x2x16) (k1_off3 L) S1x2x16.size (k1_off3_inb L) = prow (widF L) := by
  unfold prow Rect.part Rect.block
  congr 1 <;> funext a
  · rw [k1_off3_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

/-- The elements of the tile's row, as the tile's memref names them, are row `wid L`'s. -/
theorem set_pRow (L : grid1.Coords) : (pRow L).view.set = prowSet (widF L) := by
  show (((pV : Memref sig .scVector .hbm S32x2x16 .f32).view.slice (Rect.unit (s := S32x2x16) (k1_off3 L) S1x2x16.size (k1_off3_inb L))).reshape S2x16
      squeezes_S1x2x16_S2x16.numel_eq).set = (prow (widF L)).set
  rw [View.set_reshape, View.set_slice]
  refine (congrArg (fun r : Rect S32x2x16 => Finset.map (pV : Memref sig .scVector .hbm S32x2x16 .f32).view.emb r.set) (pRect_eq L)).trans ?_
  exact Finset.map_refl

/-! ## The payloads -/

section Payloads

variable (m : (ℓ : Loc nD τ sig) → Buf (Elt F) ℓ) [FloatOps F]

/-- What tile `w` is lent: its read shares of the two arguments, and its row of the lane sums at any contents. -/
def goW (d : Dev nD) (w : Fin 32) : sProp 𝕄 :=
  iprop((a0Loc d ↦{tshare w} m (a0Loc d)) ∗ (a1Loc d ↦{tshare w} m (a1Loc d)) ∗ ∃ f, pLoc d ↦[prowSet w]{fullShare} f)

/-- Row `w` of `f` is the block of sums tile `w` computes from the launch contents of the arguments. -/
def RowVal (d : Dev nD) (w : Fin 32) (f : Buf (Elt F) (pLoc d)) : Prop :=
  (pRow (Lof w)).view.read (Elt F) f = tileOut (m (a0Loc d)) (m (a1Loc d)) (Lof w)

/-- What tile `w` gives back: the shares, and its row holding its block of sums. -/
def tdW (d : Dev nD) (w : Fin 32) : sProp 𝕄 :=
  iprop((a0Loc d ↦{tshare w} m (a0Loc d)) ∗ (a1Loc d ↦{tshare w} m (a1Loc d)) ∗ ∃ f, ⌜RowVal m d w f⌝ ∗ pLoc d ↦[prowSet w]{fullShare} f)

instance goW_storable (d : Dev nD) (w : Fin 32) : BI.Storable (upEmb : UEmb _ 𝕄) (goW m d w) := by unfold goW; infer_instance
instance tdW_storable (d : Dev nD) (w : Fin 32) : BI.Storable (upEmb : UEmb _ 𝕄) (tdW m d w) := by unfold tdW; infer_instance

/-- The call's payloads: a SparseCore's part is its sixteen tiles' parts; nothing of the launch's is consumed. -/
def P : (K (F := F)).Pay (nD := nD) (Val := Elt F) (Name := ℕ) (U := UU) where
  st := fun q d c => match q with | 0 => bigSep Finset.univ fun i : Fin 16 => goW m d (tileNo (Fin.cast nCore_zero c) i)
  dn := fun q d c => match q with | 0 => bigSep Finset.univ fun i : Fin 16 => tdW m d (tileNo (Fin.cast nCore_zero c) i)
  go := fun q d c i => match q with | 0 => goW m d (tileNo (Fin.cast nCore_zero c) (Fin.cast nSub_zero i))
  td := fun q d c i => match q with | 0 => tdW m d (tileNo (Fin.cast nCore_zero c) (Fin.cast nSub_zero i))
  x := fun _ _ => iprop(emp)

instance P_storable : (P (F := F) m).IsStorable where
  st q d c := match q with | 0 => (inferInstance : BI.Storable (upEmb : UEmb _ 𝕄) (bigSep Finset.univ fun i : Fin 16 => goW m d (tileNo (Fin.cast nCore_zero c) i)))
  dn q d c := match q with | 0 => (inferInstance : BI.Storable (upEmb : UEmb _ 𝕄) (bigSep Finset.univ fun i : Fin 16 => tdW m d (tileNo (Fin.cast nCore_zero c) i)))
  go q d c i := match q with | 0 => (inferInstance : BI.Storable (upEmb : UEmb _ 𝕄) (goW m d (tileNo (Fin.cast nCore_zero c) (Fin.cast nSub_zero i))))
  td q d c i := match q with | 0 => (inferInstance : BI.Storable (upEmb : UEmb _ 𝕄) (tdW m d (tileNo (Fin.cast nCore_zero c) (Fin.cast nSub_zero i))))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The split of a SparseCore's part among its tiles, and back: the identity. -/
theorem vecSplit : (K (F := F)).VecSplit' (P m) 0 := by
  intro d c
  show (bigSep Finset.univ fun i : Fin 16 => goW m d (tileNo (Fin.cast nCore_zero c) i)) ⊢ |={Set.univ}=> iprop(
      (bigSep Finset.univ fun i : Fin ((K (F := F)).nSub 0) => goW m d (tileNo (Fin.cast nCore_zero c) (Fin.cast nSub_zero i)))
      ∗ ((bigSep Finset.univ fun i : Fin ((K (F := F)).nSub 0) => tdW m d (tileNo (Fin.cast nCore_zero c) (Fin.cast nSub_zero i)))
          -∗ bigSep Finset.univ fun i : Fin 16 => tdW m d (tileNo (Fin.cast nCore_zero c) i)))
  rw [bigSep_tasks (F := F) (fun i => goW m d (tileNo (Fin.cast nCore_zero c) i)),
    bigSep_tasks (F := F) (fun i => tdW m d (tileNo (Fin.cast nCore_zero c) i))]
  iintro H; imodintro
  isplitl [H]; · iexact H
  iintro H; iexact H

end Payloads

/-! ## The tile's obligation -/

section Obl

variable (m : (ℓ : Loc nD τ sig) → Buf (Elt F) ℓ) [FloatOps F]

theorem defs₀_vector (c : Fin τ.nSC) (s : Fin τ.nSub) :
    defs₀ (F := F) (.scVector c s) 1 ()
      = SparseCore.onTile hcore1 hsub1 (fun c s => cc1__sc_body (coordsV c s)
          a0V (Memref.isWhole_whole _) a1V (Memref.isWhole_whole _) pV (Memref.isWhole_whole _)
          sO (Memref.isWhole_whole _) sT (Memref.isWhole_whole _) sR (Memref.isWhole_whole _) cc1_scratch3 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- What the tile at `L` is lent, in the tile's own spelling of the arrays. -/
theorem goW_eq (d : Dev nD) (L : grid1.Coords) :
    goW m d (widF L) = iprop(argShare0 m d L (tshare (widF L)) ∗ argShare1 m d L (tshare (widF L)) ∗ ∃ f, rowHeld d L f) := by
  unfold goW rowHeld argShare0 argShare1
  rw [set_pRow]
  try rfl

/-- What it gives back. -/
theorem tdW_eq (d : Dev nD) (L : grid1.Coords) :
    tdW m d (widF L) = iprop(argShare0 m d L (tshare (widF L)) ∗ argShare1 m d L (tshare (widF L))
      ∗ ∃ f, ⌜(pRow L).view.read (Elt F) f = tileOut (m (a0Loc d)) (m (a1Loc d)) L⌝ ∗ rowHeld d L f) := by
  unfold tdW RowVal rowHeld argShare0 argShare1
  rw [set_pRow, Lof_widF]
  try rfl

/-- The task of the tile at grid point `L`, over the payloads by number. -/
theorem tile_task (d : Dev nD) (L : grid1.Coords) (O : CellTallies nD τ sig (HIx 1)) (W : Waits sig (HIx 1)) (hO : ∀ g, O g none = 0) :
    iprop(levAts (K (F := F)).L (K (F := F)).lev ∗ emp ∗ goW m d (widF L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L a0V (Memref.isWhole_whole _) a1V (Memref.isWhole_whole _) pV (Memref.isWhole_whole _)
            sO (Memref.isWhole_whole _) sT (Memref.isWhole_whole _) sR (Memref.isWhole_whole _) cc1_scratch3 cc1_scoped0)
          fun _ => iprop(tdW m d (widF L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [goW_eq, tdW_eq]
  exact tile_body m d L facts (tshare (widF L)) O W hO

omit [FloatOps F] in
theorem tileNo_coords (c : Fin ((K (F := F)).nCore 0)) (i : Fin ((K (F := F)).nSub 0))
    (h0 : ((K (F := F)).core 0 c).val < grid1.bound 0) (h1 : ((K (F := F)).sub 0 i).val < grid1.bound 1) :
    tileNo (Fin.cast nCore_zero c) (Fin.cast nSub_zero i) = widF (coordsV ⟨_, h0⟩ ⟨_, h1⟩) :=
  Fin.ext ((tileEquiv_val _ _).trans rfl)

theorem tileObl : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  show iprop(_ ∗ _ ∗ goW m d (tileNo (Fin.cast nCore_zero c) (Fin.cast nSub_zero i)) ∗ _) ⊢ wp _ _ _ _
      (fun _ => iprop(tdW m d (tileNo (Fin.cast nCore_zero c) (Fin.cast nSub_zero i)) ∗ _))
  rw [tileNo_coords c i hc.1 hc.2]
  exact (tile_task m d (coordsV ⟨_, hc.1⟩ ⟨_, hc.2⟩) O W hO).trans (wp_mono frame _ _ fun _ => obl_post)

end Obl

/-! ## The rows back into the array -/

section Join

variable (m : (ℓ : Loc nD τ sig) → Buf (Elt F) ℓ) [FloatOps F]

/-- Every row of `g` is the block its tile computes. -/
def PHolds (d : Dev nD) (g : Buf (Elt F) (pLoc d)) : Prop := ∀ w : Fin 32, RowVal m d w g

/-- The 32 rows, each holding its tile's block, are the array whole holding every tile's block in its row. -/
theorem rows_join (d : Dev nD) :
    (bigSep Finset.univ fun w : Fin 32 => iprop(∃ f, ⌜RowVal m d w f⌝ ∗ pLoc d ↦[prowSet w]{fullShare} f))
      ⊢ (iprop(∃ g, ⌜PHolds m d g⌝ ∗ pLoc d ↦{fullShare} g) : sProp 𝕄) := by
  refine (bigSep_exists_pi Finset.univ (fun w (f : Buf (Elt F) (pLoc d)) => iprop(⌜RowVal m d w f⌝ ∗ pLoc d ↦[prowSet w]{fullShare} f))).trans ?_
  iintro ⟨%fs, H⟩
  ihave H' := (bigSep_pure_sep Finset.univ (fun w => RowVal m d w (fs w)) (fun w => iprop(pLoc d ↦[prowSet w]{fullShare} (fs w)))) $$ H
  icases H' with ⟨%hv, H⟩
  ihave H'' := (pointsTo_biUnion_join Finset.univ prowSet fs (fs 0) prows_disjoint) $$ H
  icases H'' with ⟨%g, %hg, Hg⟩
  rw [prows_cover]
  iexists g; isplitr
  · ipureintro
    intro w
    have h1 : RowVal m d w (fs w) := hv w (Finset.mem_univ w)
    unfold RowVal at h1 ⊢
    rw [← h1]
    funext j
    rw [View.read_apply, View.read_apply]
    congr 1
    refine hg w (Finset.mem_univ w) _ ?_
    have hmem := View.emb_mem_set (v := (pRow (Lof w)).view) j
    rw [set_pRow, widF_Lof] at hmem
    exact hmem
  · iexact Hg

end Join

end Cert.KernelIdeal.Hand

end
-- ==== Proof.Region.lean ====
/-
  The TensorCore call's region: the pipeline over the eight batches, each point loading the first 384 rows of the two
  arrays' batch and adding the two masked sums of that block to two scalars kept in SMEM across the points, zeroed at the
  first point and written back to the two (1, 1) results after the last.
-/
import proofs.«207045_g69415261438402_cont_9to1_m_695_13_alg».proof.Proof.Common
import Idealize.ShloMosaic.Lib.Pipeline.RegionsLoop
import Idealize.ShloMosaic.Lib.Pipeline.Frame
import Idealize.ShloMosaic.Lib.Pipeline.Value
import Idealize.ShloMosaic.Lib.WritesUnit

set_option maxRecDepth 16384

noncomputable section

namespace Cert.KernelIdeal.Hand.Region

open Cert.KernelIdeal Cert.KernelIdeal.Gen Cert.KernelIdeal.Hand

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-- The TensorCore's thread on device `d`. -/
abbrev Td (d : Dev nD) : Thread nD τ := SparseCore.T d

/-! ## The values -/

/-- An argument array's contents, and a (1, 1) result's. -/
abbrev Arr (F : FTy → Type) : Type := (⟨S8x512x512, .f32⟩ : BufTy).Contents (Elt F)
abbrev Cell (F : FTy → Type) : Type := (⟨S1x1, .f32⟩ : BufTy).Contents (Elt F)

/-- The zero word. -/
abbrev z32 : F .f32 := Scalar.ofBits .f32 0x00000000#32

/-- The block of the first array the pipeline stages at point `t`: rows 0 to 383 of batch `t`. -/
def oblk (X : Arr F) (t : Fin grid0.N) : Vec F S1x384x512 .f32 :=
  win0_0.fill (grid0.coords t) (fun _ => z32) ((win0_0.blk t).view.read (Elt F) X)
/-- The second array's. -/
def tblk (Y : Arr F) (t : Fin grid0.N) : Vec F S1x384x512 .f32 :=
  win0_1.fill (grid0.coords t) (fun _ => z32) ((win0_1.blk t).view.read (Elt F) Y)

/-- The same by the point's number (past the grid: anything). -/
def oblkN (X : Arr F) (n : ℕ) : Vec F S1x384x512 .f32 := if h : n < grid0.N then oblk X ⟨n, h⟩ else fun _ => z32
def tblkN (Y : Arr F) (n : ℕ) : Vec F S1x384x512 .f32 := if h : n < grid0.N then tblk Y ⟨n, h⟩ else fun _ => z32

/-- The first scalar after the body at point `n`: zero plus the first block's masked sum of distances, then each
    further block's added in the grid's order. -/
def accN (X Y : Arr F) : ℕ → F .f32
  | 0 => k0_pay3 (tblkN Y 0) (oblkN X 0) z32
  | n + 1 => k0_pay3 (tblkN Y (n + 1)) (oblkN X (n + 1)) (accN X Y n)
/-- The second: the counts of the positive entries likewise. -/
def accD (Y : Arr F) : ℕ → F .f32
  | 0 => k0_pay4 (tblkN Y 0) z32
  | n + 1 => k0_pay4 (tblkN Y (n + 1)) (accD Y n)

/-- What the region leaves in the two (1, 1) results. -/
def tcNum (X Y : Arr F) : Cell F := fun _ => accN X Y 7
def tcDen (Y : Arr F) : Cell F := fun _ => accD Y 7

/-! ## The pipeline's proof data -/

variable (m : (ℓ : Loc nD τ sig) → Buf (Elt F) ℓ)

/-- The tables admitted: none. -/
abbrev adm : (p : Fin 1) → (pcfgs (F := F) p).Adm := fun p => (cfgs p).toPCfg_adm

/-- The proof data on device `d`'s TensorCore: the four arrays at the launch contents; after the body at point `t` the
    two input buffers at the point's blocks and the two SMEM words at the running sums; no invariant; the core owes the
    sequencers their start signals throughout, and has recorded waits at the kernels' own index only. -/
def dats (_ : Fin 1) (d : Dev nD) : Dat τ (Elt F) (HIx 1) ℕ UU ℕ cfg0 d where
  A w := m ((cfg0.win w).arr.view.loc (Td d))
  after w t := match w with
    | ⟨0, _⟩ => oblk (m (a0Loc d)) t
    | ⟨1, _⟩ => tblk (m (a1Loc d)) t
    | ⟨2, _⟩ => fun _ => accN (m (a0Loc d)) (m (a1Loc d)) t.val
    | ⟨3, _⟩ => fun _ => accD (m (a1Loc d)) t.val
  Φ _ := iprop(emp)
  q _ := fullShare
  owed _ := (K (F := F)).Otc d 0
  recorded _ := {p | p.2 = none}

/-- Every unscoped buffer after the region: the two results at the sums, the rest as launched. -/
def Vp (d : Dev nD) : (b : Ref sig .tc) → Buf (Elt F) ((Td d).loc b) :=
  Function.update (Function.update (fun b => m ((Td d).loc b)) main_v0_0 (tcNum (m (a0Loc d)) (m (a1Loc d)) : Buf (Elt F) ((Td d).loc main_v0_0))) main_v0_1 (tcDen (m (a1Loc d)) : Buf (Elt F) ((Td d).loc main_v0_1))

theorem Vp_arg0 (d : Dev nD) : Vp m d main_arg0 = m ((Td d).loc main_arg0) := by
  unfold Vp; rw [Function.update_of_ne (by decide), Function.update_of_ne (by decide)]
theorem Vp_arg1 (d : Dev nD) : Vp m d main_arg1 = m ((Td d).loc main_arg1) := by
  unfold Vp; rw [Function.update_of_ne (by decide), Function.update_of_ne (by decide)]
theorem Vp_num (d : Dev nD) : Vp m d main_v0_0 = tcNum (m (a0Loc d)) (m (a1Loc d)) := by
  unfold Vp; rw [Function.update_of_ne (by decide), Function.update_self]
theorem Vp_den (d : Dev nD) : Vp m d main_v0_1 = tcDen (m (a1Loc d)) := by
  unfold Vp; rw [Function.update_self]

/-- What the core owes, with its recorded waits at the kernels' own index. -/
abbrev Owes (d : Dev nD) : sProp 𝕄 := iprop(∃ W, ⌜(K (F := F)).WBelow (Td d) W (8 * 0)⌝ ∗ owes (Td d) ((K (F := F)).Otc d 0) W)

/-- The core owes nothing at the kernels' own index. -/
theorem Otc_none (d : Dev nD) (g : GSem nD τ sig) : (K (F := F)).Otc d 0 g none = 0 := by
  by_contra h
  have := (K (F := F)).lev_of_Otc_pos (Nat.pos_of_ne_zero h)
  simp at this

/-- Recorded waits at level zero are those at the kernels' own index. -/
theorem wbelow_iff (d : Dev nD) (W : Waits sig (HIx 1)) :
    (K (F := F)).WBelow (Td d) W (8 * 0) ↔ ∀ p ∈ W, p.2 = none := by
  unfold SparseCore.Cfg.WBelow
  refine forall₂_congr fun p _ => ?_
  rcases p with ⟨s, _ | q⟩
  · simp
  · have := (K (F := F)).lev_some_pos (Td d, s) q
    constructor
    · intro h; exact absurd (Nat.lt_of_lt_of_le this h) (Nat.lt_irrefl 0)
    · intro h; cases h

theorem bound_none (d : Dev nD) (t : Fin (cfg0.N + 1)) (p : SemLoc sig × HIx 1) :
    p ∈ (dats m 0 d).bound none t ↔ p.2 = none := by
  unfold Dat.bound
  constructor
  · rintro (h | ⟨w, s, rfl⟩)
    · exact h
    · rfl
  · intro h; exact Or.inl h

/-! ## The running sums, point by point -/

theorem oblkN_val (X : Arr F) (t : Fin grid0.N) : oblkN X t.val = oblk X t := by unfold oblkN; rw [dif_pos t.isLt]
theorem tblkN_val (Y : Arr F) (t : Fin grid0.N) : tblkN Y t.val = tblk Y t := by unfold tblkN; rw [dif_pos t.isLt]

theorem accN_zero (X Y : Arr F) (t : Fin grid0.N) (h : t.val = 0) : accN X Y t.val = k0_pay3 (tblk Y t) (oblk X t) z32 := by
  rw [← oblkN_val, ← tblkN_val, h]; rfl
theorem accN_succ (X Y : Arr F) (t : Fin grid0.N) (h : t.val ≠ 0) :
    accN X Y t.val = k0_pay3 (tblk Y t) (oblk X t) (accN X Y (t.val - 1)) := by
  rw [← oblkN_val, ← tblkN_val]
  obtain ⟨n, hn⟩ := t
  cases n with
  | zero => exact absurd rfl h
  | succ n => rfl
theorem accD_zero (Y : Arr F) (t : Fin grid0.N) (h : t.val = 0) : accD Y t.val = k0_pay4 (tblk Y t) z32 := by
  rw [← tblkN_val, h]; rfl
theorem accD_succ (Y : Arr F) (t : Fin grid0.N) (h : t.val ≠ 0) : accD Y t.val = k0_pay4 (tblk Y t) (accD Y (t.val - 1)) := by
  rw [← tblkN_val]
  obtain ⟨n, hn⟩ := t
  cases n with
  | zero => exact absurd rfl h
  | succ n => rfl

/-! ## What the body finds in the staging buffers -/

/-- No block of the two arguments overhangs its array: the transfers move whole blocks. -/
theorem xsize0_0 : ∀ (t : Fin grid0.N) (a : Fin 3), win0_0.xsize (grid0.coords t) a = win0_0.size a := by decide +kernel
theorem xsize0_1 : ∀ (t : Fin grid0.N) (a : Fin 3), win0_1.xsize (grid0.coords t) a = win0_1.size a := by decide +kernel

/-- So a fetched buffer holds the block whatever it held before. -/
theorem fill_all0 {α : Type} (t : Fin grid0.N) (e e' : win0_0.block.Idx → α) (g : (win0_0.xblock (grid0.coords t)).Idx → α) :
    win0_0.fill (grid0.coords t) e g = win0_0.fill (grid0.coords t) e' g := by
  funext j
  have hm : win0_0.moved (grid0.coords t) j = true := (win0_0.moved_iff _ j).mpr fun a => by rw [xsize0_0]; exact (j a).isLt
  unfold Window.fill; rw [dif_pos hm, dif_pos hm]
theorem fill_all1 {α : Type} (t : Fin grid0.N) (e e' : win0_1.block.Idx → α) (g : (win0_1.xblock (grid0.coords t)).Idx → α) :
    win0_1.fill (grid0.coords t) e g = win0_1.fill (grid0.coords t) e' g := by
  funext j
  have hm : win0_1.moved (grid0.coords t) j = true := (win0_1.moved_iff _ j).mpr fun a => by rw [xsize0_1]; exact (j a).isLt
  unfold Window.fill; rw [dif_pos hm, dif_pos hm]

theorem after_0 (d : Dev nD) (t : Fin cfg0.N) : (dats m 0 d).after 0 t = oblk (m (a0Loc d)) t := by dsimp only [dats]
theorem after_1 (d : Dev nD) (t : Fin cfg0.N) : (dats m 0 d).after 1 t = tblk (m (a1Loc d)) t := by dsimp only [dats]
theorem after_2 (d : Dev nD) (t : Fin cfg0.N) : (dats m 0 d).after 2 t = fun _ => accN (m (a0Loc d)) (m (a1Loc d)) t.val := by dsimp only [dats]
theorem after_3 (d : Dev nD) (t : Fin cfg0.N) : (dats m 0 d).after 3 t = fun _ => accD (m (a1Loc d)) t.val := by dsimp only [dats]

/-- The two inputs' buffers, just fetched, hold the point's blocks. -/
theorem before_0 (d : Dev nD) (t : Fin cfg0.N) (e) : (dats m 0 d).before 0 t e = oblk (m (a0Loc d)) t := by
  unfold Dat.before; rw [if_pos (fetch0_0 t)]
  exact fill_all0 t _ _ _
theorem before_1 (d : Dev nD) (t : Fin cfg0.N) (e) : (dats m 0 d).before 1 t e = tblk (m (a1Loc d)) t := by
  unfold Dat.before; rw [if_pos (fetch0_1 t)]
  exact fill_all1 t _ _ _
/-- The two SMEM words hold anything at the first point, -/
theorem before_2_first (d : Dev nD) (t : Fin cfg0.N) (h0 : t.val = 0) (e) : (dats m 0 d).before 2 t e = e :=
  (dats m 0 d).before_out_reset 2 rfl t (.inl h0) e
theorem before_3_first (d : Dev nD) (t : Fin cfg0.N) (h0 : t.val = 0) (e) : (dats m 0 d).before 3 t e = e :=
  (dats m 0 d).before_out_reset 3 rfl t (.inl h0) e
/-- and at a later point what the point before left: they are written back after the last point only. -/
theorem before_2_later (d : Dev nD) (t : Fin cfg0.N) (h0 : t.val ≠ 0) (e) :
    (dats m 0 d).before 2 t e = fun _ => accN (m (a0Loc d)) (m (a1Loc d)) (t.val - 1) := by
  have hN : t.val < 8 := lt_of_lt_of_eq t.isLt (show cfg0.N = 8 from N_0)
  rw [Dat.before_out_kept _ 2 rfl t h0 (Bool.eq_false_iff.mpr fun h => by have := (flush0_2 _).mp h; dsimp only at this; omega)
    (fun _ => rfl) (fun _ _ => rfl)]
  dsimp only [dats]
theorem before_3_later (d : Dev nD) (t : Fin cfg0.N) (h0 : t.val ≠ 0) (e) :
    (dats m 0 d).before 3 t e = fun _ => accD (m (a1Loc d)) (t.val - 1) := by
  have hN : t.val < 8 := lt_of_lt_of_eq t.isLt (show cfg0.N = 8 from N_0)
  rw [Dat.before_out_kept _ 3 rfl t h0 (Bool.eq_false_iff.mpr fun h => by have := (flush0_3 _).mp h; dsimp only at this; omega)
    (fun _ => rfl) (fun _ _ => rfl)]
  dsimp only [dats]

/-! ## The body -/

/-- The body's conditional, from the grid coordinate: taken at the first point only. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

theorem hz3 : (![0, 0, 0] : Fin 3 → Nat) = fun _ => 0 := funext fun a => by fin_cases a <;> rfl

/-- A (1, 1) buffer whose last store wrote `val` reads `val`. -/
theorem read_one {sp : Space} (v : View sig .tc sp S1x1 .f32) (f : v.ty.Contents (Elt F)) (val : F .f32) (L : List (View.Piece (Elt F) S1x1 .f32)) :
    v.read (Elt F) (v.writes (Elt F) f (⟨Rect.unit ![0, 0] S1x1.size inb_S1x1_S1x1_0_0, fun _ => val⟩ :: L)) = fun _ => val :=
  funext fun y => View.read_writes_cons_unit_of_mem v f _ (fun _ => val) L y y rfl
    (Fin.forall_fin_two.mpr ⟨(Nat.zero_add _).symm, (Nat.zero_add _).symm⟩)

set_option maxHeartbeats 1000000 in
/-- The body at the first point, on any whole staging buffers: the two scalars are zeroed, then each is added its block's sum. -/
theorem bodyA (d : Dev nD) (E : Set ℕ) (i : grid0.Coords) (arg1 : Memref sig .tc .vmem S1x384x512 .f32) (harg1 : arg1.IsWhole) (arg2 : Memref sig .tc .vmem S1x384x512 .f32) (harg2 : arg2.IsWhole) (arg3 : Memref sig .tc .smem S1x1 .f32) (harg3 : arg3.IsWhole) (arg4 : Memref sig .tc .smem S1x1 .f32) (harg4 : arg4.IsWhole)
    (hc : cond0 i) (x y : Vec F S1x384x512 .f32) (a b : Vec F S1x1 .f32) (K : PUnit → sProp 𝕄) :
    iprop(owns (Td d) arg1 fullShare x ∗ owns (Td d) arg2 fullShare y ∗ owns (Td d) arg3 fullShare a ∗ owns (Td d) arg4 fullShare b
        ∗ (iprop(owns (Td d) arg1 fullShare x ∗ owns (Td d) arg2 fullShare y ∗ owns (Td d) arg3 fullShare (fun _ => k0_pay3 y x z32)
            ∗ owns (Td d) arg4 fullShare (fun _ => k0_pay4 y z32)) -∗ K ⟨⟩))
      ⊢ wp frame (wpE (defs₀ (F := F)) 𝒱₀ (Td d) none) E (cc0__tc_body i arg1 harg1 arg2 harg2 arg3 harg3 arg4 harg4) K := by
  simp only [cc0__tc_body_eq_skeleton]; unfold cc0__tc_body_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2
  obtain rfl := harg3.eq_unread hf3; obtain rfl := harg4.eq_unread hf4
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; swap; · iexact H3
    ipureintro
    rw [read_one]
    sl_unfold_words
    simp only [View.readAt_eq_ld, harg1.read_unread, harg2.read_unread, View.ld_unit_zero (S := S1x384x512) hz3]
  · iexists _; isplitr; swap; · iexact H4
    ipureintro
    rw [read_one]
    sl_unfold_words
    simp only [View.readAt_eq_ld, harg2.read_unread, View.ld_unit_zero (S := S1x384x512) hz3]

set_option maxHeartbeats 1000000 in
/-- The body at a later point: each scalar is added its block's sum. -/
theorem bodyB (d : Dev nD) (E : Set ℕ) (i : grid0.Coords) (arg1 : Memref sig .tc .vmem S1x384x512 .f32) (harg1 : arg1.IsWhole) (arg2 : Memref sig .tc .vmem S1x384x512 .f32) (harg2 : arg2.IsWhole) (arg3 : Memref sig .tc .smem S1x1 .f32) (harg3 : arg3.IsWhole) (arg4 : Memref sig .tc .smem S1x1 .f32) (harg4 : arg4.IsWhole)
    (hc : ¬cond0 i) (x y : Vec F S1x384x512 .f32) (a b : F .f32) (K : PUnit → sProp 𝕄) :
    iprop(owns (Td d) arg1 fullShare x ∗ owns (Td d) arg2 fullShare y ∗ owns (Td d) arg3 fullShare (fun _ => a) ∗ owns (Td d) arg4 fullShare (fun _ => b)
        ∗ (iprop(owns (Td d) arg1 fullShare x ∗ owns (Td d) arg2 fullShare y ∗ owns (Td d) arg3 fullShare (fun _ => k0_pay3 y x a)
            ∗ owns (Td d) arg4 fullShare (fun _ => k0_pay4 y b)) -∗ K ⟨⟩))
      ⊢ wp frame (wpE (defs₀ (F := F)) 𝒱₀ (Td d) none) E (cc0__tc_body i arg1 harg1 arg2 harg2 arg3 harg3 arg4 harg4) K := by
  simp only [cc0__tc_body_eq_skeleton]; unfold cc0__tc_body_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2
  obtain rfl := harg3.eq_unread hf3; obtain rfl := harg4.eq_unread hf4
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; swap; · iexact H3
    ipureintro
    rw [read_one]
    sl_unfold_words
    simp only [View.readAt_eq_ld, harg1.read_unread, harg2.read_unread, harg3.read_unread, View.ld_unit_zero (S := S1x384x512) hz3]
  · iexists _; isplitr; swap; · iexact H4
    ipureintro
    rw [read_one]
    sl_unfold_words
    simp only [View.readAt_eq_ld, harg2.read_unread, harg4.read_unread, View.ld_unit_zero (S := S1x384x512) hz3]

set_option maxHeartbeats 800000 in
/-- The body at any point, on what the pipeline calls it with. -/
theorem sound_body (d : Dev nD) (t : Fin cfg0.N) :
    iprop((dats m 0 d).Φ t.castSucc ∗ (dats m 0 d).owesAt none t.castSucc
        ∗ (∃ e, owns (Td d) (st0_0 t) fullShare ((dats m 0 d).before 0 t e))
        ∗ (∃ e, owns (Td d) (st0_1 t) fullShare ((dats m 0 d).before 1 t e))
        ∗ (∃ e, owns (Td d) (st0_2 t) fullShare ((dats m 0 d).before 2 t e))
        ∗ (∃ e, owns (Td d) (st0_3 t) fullShare ((dats m 0 d).before 3 t e)))
      ⊢ wp frame (wpE (defs₀ (F := F)) 𝒱₀ (Td d) none) Set.univ (bodyAt0 t) (fun _ =>
          iprop((dats m 0 d).Φ t.succ ∗ (dats m 0 d).owesAt none t.succ
            ∗ owns (Td d) (st0_0 t) fullShare ((dats m 0 d).after 0 t)
            ∗ owns (Td d) (st0_1 t) fullShare ((dats m 0 d).after 1 t)
            ∗ owns (Td d) (st0_2 t) fullShare ((dats m 0 d).after 2 t)
            ∗ owns (Td d) (st0_3 t) fullShare ((dats m 0 d).after 3 t))) := by
  unfold bodyAt0
  simp only [before_0, before_1]
  rw [show (dats m 0 d).Φ t.succ = (dats m 0 d).Φ t.castSucc from rfl,
    show (dats m 0 d).owesAt none t.succ = (dats m 0 d).owesAt none t.castSucc from rfl,
    after_0, after_1, after_2, after_3]
  by_cases h0 : t.val = 0
  · simp only [before_2_first m d t h0, before_3_first m d t h0]
    rw [accN_zero _ _ t h0, accD_zero _ t h0]
    iintro ⟨HΦ, Ho, ⟨%e0, H0⟩, ⟨%e1, H1⟩, ⟨%e2, H2⟩, ⟨%e3, H3⟩⟩
    iapply (bodyA d Set.univ (grid0.coords t) _ _ _ _ _ _ _ _ ((hcond0 t).mpr h0) _ _ e2 e3 _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before_2_later m d t h0, before_3_later m d t h0]
    rw [accN_succ _ _ t h0, accD_succ _ t h0]
    iintro ⟨HΦ, Ho, ⟨%e0, H0⟩, ⟨%e1, H1⟩, ⟨%e2, H2⟩, ⟨%e3, H3⟩⟩
    iapply (bodyB d Set.univ (grid0.coords t) _ _ _ _ _ _ _ _ (fun h => h0 ((hcond0 t).mp h)) _ _ _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-! ## The two results after the region -/

/-- The one write-back of the first scalar, after the last point, writes the whole (1, 1) result. -/
theorem arrAt_num (d : Dev nD) : (dats m 0 d).arrAt 2 cfg0.N = tcNum (m (a0Loc d)) (m (a1Loc d)) :=
  (dats m 0 d).arrAt_eq_of_cover 2 (tcNum (m (a0Loc d)) (m (a1Loc d)))
    (fun t hf => by
      have h7 : t.val = 7 := by have := (flush0_2 t).mp hf; have := lt_of_lt_of_eq t.isLt (show cfg0.N = 8 from N_0); omega
      funext j
      show (dats m 0 d).after 2 t _ = _
      rw [after_2, h7, View.read_apply]; rfl)
    fun i => ⟨t0_7, (flush0_2 t0_7).mpr rfl, by
      show i ∈ ((View.whole main_v0_0).slice (win0_2.rect t0_7)).set
      rw [View.set_slice_whole, Rect.mem_set_unit]
      intro a
      have h1 : ∀ a : Fin 2, win0_2.index t0_7 a * win0_2.size a = 0 ∧ win0_2.xsize (grid0.coords t0_7) a = 1 := by decide +kernel
      obtain ⟨e1, e2⟩ := h1 a
      have hi : (i a : Nat) < 1 := by fin_cases a <;> exact (i _).isLt
      show win0_2.index t0_7 a * win0_2.size a ≤ (i a : Nat) ∧ (i a : Nat) < win0_2.index t0_7 a * win0_2.size a + win0_2.xsize (grid0.coords t0_7) a
      rw [e1, e2]; omega⟩
theorem arrAt_den (d : Dev nD) : (dats m 0 d).arrAt 3 cfg0.N = tcDen (m (a1Loc d)) :=
  (dats m 0 d).arrAt_eq_of_cover 3 (tcDen (m (a1Loc d)))
    (fun t hf => by
      have h7 : t.val = 7 := by have := (flush0_3 t).mp hf; have := lt_of_lt_of_eq t.isLt (show cfg0.N = 8 from N_0); omega
      funext j
      show (dats m 0 d).after 3 t _ = _
      rw [after_3, h7, View.read_apply]; rfl)
    fun i => ⟨t0_7, (flush0_3 t0_7).mpr rfl, by
      show i ∈ ((View.whole main_v0_1).slice (win0_3.rect t0_7)).set
      rw [View.set_slice_whole, Rect.mem_set_unit]
      intro a
      have h1 : ∀ a : Fin 2, win0_3.index t0_7 a * win0_3.size a = 0 ∧ win0_3.xsize (grid0.coords t0_7) a = 1 := by decide +kernel
      obtain ⟨e1, e2⟩ := h1 a
      have hi : (i a : Nat) < 1 := by fin_cases a <;> exact (i _).isLt
      show win0_3.index t0_7 a * win0_3.size a ≤ (i a : Nat) ∧ (i a : Nat) < win0_3.index t0_7 a * win0_3.size a + win0_3.xsize (grid0.coords t0_7) a
      rw [e1, e2]; omega⟩

/-- The library's body obligation, at every point. -/
theorem body_obligation (d : Dev nD) : BodyObligation (dats m 0 d) (defs₀ (F := F)) 𝒱₀ none Set.univ := fun t => by
  rw [bigSep_W0, bigSep_W0]
  exact sound_body m d t

set_option backward.isDefEq.respectTransparency.types false in
/-- The region as the library's record. -/
def reg : Pipeline.RegionSeg (pcfgs (F := F)) adm (dats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (body_obligation m d).loose
  hwaits d := Pipeline.cellsWaits_intro (Pipeline.pin (pcfgs (F := F)) adm) (dats m) none 0 d fun w s t =>
    (K (F := F)).mayWait_none _ (fun g => Otc_none d g)
  pre d := iprop(unscopedBufs d (fun b => m ((Td d).loc b)) ∗ Owes d)
  post d := iprop(unscopedBufs d (Vp m d) ∗ Owes d)
  X _ := BI.emp
  Y _ := BI.emp
  Z d := Pipeline.unscopedRest (Ix := HIx 1) (Name := ℕ) (U := UU) (Lvl := ℕ) spec0 d (fun b => m ((Td d).loc b))
  hentry d := by
    rw [Pipeline.ownSems0_none]
    have hsplit := Pipeline.arrays_of_unscopedBufs (p := 0) (pcfgs (F := F)) adm (dats m) launch0.win launch0.arr_whole d
      ((dats m 0 d).share_full fun _ => rfl) (fun b => m ((Td d).loc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => (bound_none m d _ p).mpr ((wbelow_iff d W).mp hW p hp)
      iexact HO
    isplitr; · iempintro
    iexact Hrest
  hin d := by
    iintro -; rw [show (dats m 0 d).Φ 0 = iprop(emp) from rfl]; iempintro
  hout d := by
    rw [Pipeline.ownSems0_none, scopedRest0_eq]
    iintro -
    isplitr; · iempintro
    isplitr <;> iempintro
  hexit d := by
    have hjoin := Pipeline.unscopedBufs_of_arrays (p := 0) (pcfgs (F := F)) adm (Ix := HIx 1) (Name := ℕ) (U := UU) (Lvl := ℕ) launch0.win launch0.arr_whole d
      (dats m) ((dats m 0 d).share_full fun _ => rfl) (fun b => m ((Td d).loc b)) (Vp m d) ((dats m 0 d).arrAt · cfg0.N)
      (fun
        | 0 => ((dats m 0 d).arrAt_in 0 rfl _).trans (Vp_arg0 m d).symm
        | 1 => ((dats m 0 d).arrAt_in 1 rfl _).trans (Vp_arg1 m d).symm
        | 2 => (arrAt_num m d).trans (Vp_num m d).symm
        | 3 => (arrAt_den m d).trans (Vp_den m d).symm
        | ⟨_ + 4, h⟩ => absurd h (Nat.not_lt.2 (Nat.le_add_left _ _)))
      (fun b hb => by
        have h3 : b ≠ main_v0_1 := fun h => hb (h ▸ Finset.mem_image.mpr ⟨(3 : Fin 4), Finset.mem_univ _, rfl⟩)
        have h2 : b ≠ main_v0_0 := fun h => hb (h ▸ Finset.mem_image.mpr ⟨(2 : Fin 4), Finset.mem_univ _, rfl⟩)
        unfold Vp
        rw [Function.update_of_ne h3, Function.update_of_ne h2])
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; exact (wbelow_iff d W).mpr fun p hp => (bound_none m d _ p).mp (hW hp)
    iexact HO

/-- What the launch funds for the region: the staging cells' ghost state and the transfers' duty tokens. -/
def G (d : Dev nD) : sProp 𝕄 :=
  iprop(Pipeline.cellsGhost (Pipeline.pin (pcfgs (F := F)) adm) EP 0 d ∗ Pipeline.toksInit (Pipeline.pin (pcfgs (F := F)) adm) EP 0 d)

/-- What the region hands on. -/
def post (g : Dev nD → PrngReg) (P : (K (F := F)).Pay (nD := nD) (Val := Elt F) (Name := ℕ) (U := UU)) (d : Dev nD) : sProp 𝕄 :=
  iprop((K (F := F)).tcSt EH d 0 ∗ boundary (Td d) ∗ unscopedBufs d (Vp m d) ∗ (K (F := F)).tcSems0 d ∗ prngReg d (g d))

set_option backward.isDefEq.respectTransparency.types false in
theorem region_wp (g : Dev nD → PrngReg) (P : (K (F := F)).Pay (nD := nD) (Val := Elt F) (Name := ℕ) (U := UU)) (κ : GSem nD τ sig → ℕ) (d : Dev nD)
    (Φ : PUnit → sProp 𝕄) :
    iprop((K (F := F)).ctx EH P κ ∗ (K (F := F)).tcSt EH d 0 ∗ (K (F := F)).tcRes m g d ∗ G d ∗ (post m g P d -∗ Φ ⟨⟩))
      ⊢ wp frame (wpE ((K (F := F)).defs D) 𝒱 (Td d) none) Set.univ
          (Prog.lift (.customCall (SparseCore.inner (Pipeline.entry 0)) ())) Φ := by
  have hprog : (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) fun _ => .ret ⟨⟩) := rfl
  rw [hprog]
  refine BIBase.Entails.trans ?_ ((K (F := F)).wp_liftProg D 𝒱 (Td d) Set.univ none _ Φ)
  unfold post G SparseCore.Cfg.tcRes SparseCore.Cfg.tcSt
  iintro ⟨#Hctx, ⟨HO, Hst⟩, ⟨Hbd, Hub, Hs0, Hprng⟩, ⟨Hg, Htok⟩, Hk⟩
  have hpost : (reg m).post d = iprop(unscopedBufs d (Vp m d) ∗ Owes (F := F) d) := rfl
  have hpre : (reg m).pre d = iprop(unscopedBufs d (fun b => m ((Td d).loc b)) ∗ Owes (F := F) d) := rfl
  have key := Pipeline.RegionSeg.wp (pcfgs (F := F)) adm (dats m) none cellOf_inj EP defs₀ 𝒱₀ (K (F := F)).L (K (F := F)).lev (reg m) d none
    (fun _ h => nomatch h) (fun _ => .ret ⟨⟩) Φ
  rw [hpost, hpre] at key
  iapply key
  isplitl [Hk Hst Hs0 Hprng]
  · iintro ⟨Hbd, Hub, HO⟩
    rw [wp_ret]; imodintro; iapply Hk
    isplitl [HO Hst]
    · isplitl [HO]; · iexact HO
      iexact Hst
    isplitl [Hbd]; · iexact Hbd
    isplitl [Hub]; · iexact Hub
    isplitl [Hs0] <;> iassumption
  isplitl [Hbd]; · iexact Hbd
  isplitl [Hub HO]
  · isplitl [Hub]; · iexact Hub
    iexact HO
  isplitr
  · iapply (SparseCore.Cfg.ctx_levAts κ); iexact Hctx
  isplitl [Hg] <;> iassumption

end Cert.KernelIdeal.Hand.Region

end
-- ==== Proof.Host.lean ====
/-
  @main after the two kernel calls: thirteen host operations. The two scalars the TensorCore call left are reshaped to
  rank 0; the two planes of the tiles' 32 x 2 x 16 array (plane 0: lane sums of the masked errors, plane 1: lane counts of the
  mask) are sliced out, reshaped to 32 x 16 and summed over both axes from zero; each scalar is added to its plane's sum;
  the result is the quotient of the two.
-/
import proofs.«207045_g69415261438402_cont_9to1_m_695_13_alg».proof.Proof.Common

noncomputable section

namespace Cert.KernelIdeal.Hand

open Cert.KernelIdeal

open Idealize.ShloMosaic
open Idealize.ShloMosaic.SparseCore (S V T)
open Idealize.SL Idealize.SL.Sem
open Facts₀ Facts

variable {F : FTy → Type} [FloatOps F]

/-- The host operations after the SparseCore call, in order. -/
def tailOps : List (HloOp τ sig (Elt F)) :=
  [ StableHlo.reshape main_v0_0 main_v2 rfl shapeCasts_S1x1_S_,
    StableHlo.unary main_v1 main_v3 ((extractStridedSlice S32x1x16 ![0, 0, 0] · slices_S32x2x16_S32x1x16_0_0_0) : (⟨S32x2x16, .f32⟩ : BufTy).Contents (Elt F) → (⟨S32x1x16, .f32⟩ : BufTy).Contents (Elt F)),
    StableHlo.reshape main_v3 main_v4 rfl shapeCasts_S32x1x16_S32x16,
    StableHlo.nullary main_cst (constant S_ .f32 0x00000000#32),
    StableHlo.binary main_v4 main_cst main_v5 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.binary main_v2 main_v5 main_v6 (addf : (⟨S_, .f32⟩ : BufTy).Contents (Elt F) → (⟨S_, .f32⟩ : BufTy).Contents (Elt F) → (⟨S_, .f32⟩ : BufTy).Contents (Elt F)),
    StableHlo.reshape main_v0_1 main_v7 rfl shapeCasts_S1x1_S_,
    StableHlo.unary main_v1 main_v8 ((extractStridedSlice S32x1x16 ![0, 1, 0] · slices_S32x2x16_S32x1x16_0_1_0) : (⟨S32x2x16, .f32⟩ : BufTy).Contents (Elt F) → (⟨S32x1x16, .f32⟩ : BufTy).Contents (Elt F)),
    StableHlo.reshape main_v8 main_v9 rfl shapeCasts_S32x1x16_S32x16,
    StableHlo.nullary main_cst_0 (constant S_ .f32 0x00000000#32),
    StableHlo.binary main_v9 main_cst_0 main_v10 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.binary main_v7 main_v10 main_v11 (addf : (⟨S_, .f32⟩ : BufTy).Contents (Elt F) → (⟨S_, .f32⟩ : BufTy).Contents (Elt F) → (⟨S_, .f32⟩ : BufTy).Contents (Elt F)),
    StableHlo.binary main_v6 main_v11 main_v12 (Host.divf : (⟨S_, .f32⟩ : BufTy).Contents (Elt F) → (⟨S_, .f32⟩ : BufTy).Contents (Elt F) → (⟨S_, .f32⟩ : BufTy).Contents (Elt F)) ]

/-- @main is the TensorCore call, the SparseCore call, then that line of host operations. -/
theorem main_eq (d : Dev nD) :
    main (F := F) d
      = (Prog.lift (.customCall (SparseCore.inner (Pipeline.entry 0)) ()) >>= fun _ =>
          (sc (F := F)).run d 0 >>= fun _ => StableHlo.seq (tailOps (F := F)) >>= fun _ => pure ⟨⟩) := by
  rfl

/-- The loss as the host operations compute it from the two scalars `n`, `c` and the tiles' array `p`. -/
def lossOf (n c : FVec F S1x1 .f32) (p : FVec F S32x2x16 .f32) : FVec F S_ .f32 :=
  Host.divf
    (addf (shapeCast S_ n shapeCasts_S1x1_S_)
      (Host.reduceAdd (shapeCast S32x16 (extractStridedSlice S32x1x16 ![0, 0, 0] p slices_S32x2x16_S32x1x16_0_0_0) shapeCasts_S32x1x16_S32x16)
        (constant S_ .f32 0x00000000#32) reducesTo_S32x16_S_d0_1 h_S_))
    (addf (shapeCast S_ c shapeCasts_S1x1_S_)
      (Host.reduceAdd (shapeCast S32x16 (extractStridedSlice S32x1x16 ![0, 1, 0] p slices_S32x2x16_S32x1x16_0_1_0) shapeCasts_S32x1x16_S32x16)
        (constant S_ .f32 0x00000000#32) reducesTo_S32x16_S_d0_1 h_S_))

end Cert.KernelIdeal.Hand

end
-- ==== Proof.Launch.lean ====
/-
  The launch of the whole program. The launch element funds the SparseCore handshakes and the TensorCore pipeline's staging
  cells; the tiles' own transfers need no schedule. @main on the TensorCore: the pipelined call leaves the two scalars; the
  SparseCore call is entered with the two arguments split into 32 read shares and the array of lane sums into its 32 rows, and
  gives them back joined, each row holding its tile's block; the host operations then compute the quotient. What is read off the
  final memory: the arguments unchanged, and the result the host operations' term of the two scalars and an array every row of
  which is its tile's block.
-/
import proofs.«207045_g69415261438402_cont_9to1_m_695_13_alg».proof.Proof.Pay
import proofs.«207045_g69415261438402_cont_9to1_m_695_13_alg».proof.Proof.Region
import proofs.«207045_g69415261438402_cont_9to1_m_695_13_alg».proof.Proof.Host
import Idealize.ShloMosaic.Lib.Pipeline.Frame

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq)
open Idealize.ShloMosaic.Pipeline (ucRefs unscopedBufs_held)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch element -/

/-- The handshakes' rounds, the pipeline's staging cells' rounds with their launch tokens, no counter yet. -/
def u₀ : UU :=
  (initOf (K (F := F)).hsCells (K (F := F)).hsToks,
    (initOf (Pipeline.cells (Pipeline.pin (pcfgs (F := F)) Region.adm) cellOf_inj) (Pipeline.launchToks (Pipeline.pin (pcfgs (F := F)) Region.adm) cellOf_inj), 1))

omit [FloatOps F] in
theorem bigSep_emp' {I : Type} (s : Finset I) : (bigSep s fun _ => iprop(emp)) = (iprop(emp) : sProp 𝕄) := bigSep_emp_const s

omit [FloatOps F] in
/-- A family over the one pipeline is its one member. -/
theorem fin1_bigSep (X : Fin 1 → Dev nD → sProp 𝕄) :
    (bigSep Finset.univ fun c : Dev nD => bigSep Finset.univ fun p : Fin 1 => X p c) = bigSep Finset.univ fun c : Dev nD => X 0 c :=
  bigSep_congr fun c _ => bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => Region.G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb embR _ _) $$ HR
  icases HR' with ⟨HP, -⟩
  rw [show ((Emb.inl : Emb UP (UP × Counters)).trans embR : Emb UP (MT nD τ sig (HIx 1) (Elt F) ℕ UU ℕ)) = EP from rfl]
  imod (Pipeline.fund_ghost (Pipeline.pin (pcfgs (F := F)) Region.adm) EP cellOf_inj) $$ HP with ⟨Hc, Ht⟩
  imodintro
  isplitl [HH]; · iexact HH
  isplitl [Hc Ht]
  · unfold Region.G
    rw [bigSep_sep']
    isplitl [Hc]
    · ihave Hc' := (Entails.of_eq (fin1_bigSep (F := F) (fun p c => Pipeline.cellsGhost (Pipeline.pin (pcfgs (F := F)) Region.adm) EP p c))) $$ Hc
      iexact Hc'
    · ihave Ht' := (Entails.of_eq (fin1_bigSep (F := F) (fun p c => Pipeline.toksInit (Pipeline.pin (pcfgs (F := F)) Region.adm) EP p c))) $$ Ht
      iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The buffers after the TensorCore call, as a valuation -/

/-- The two arguments, the two scalars, the array of lane sums and the result, as device buffers. -/
abbrev a0' : DevRef τ sig := Proc.devRef .tc (main_arg0 : Ref sig .tc)
abbrev a1' : DevRef τ sig := Proc.devRef .tc (main_arg1 : Ref sig .tc)
abbrev n' : DevRef τ sig := Proc.devRef .tc (main_v0_0 : Ref sig .tc)
abbrev c' : DevRef τ sig := Proc.devRef .tc (main_v0_1 : Ref sig .tc)
abbrev p' : DevRef τ sig := Proc.devRef .tc (main_v1 : Ref sig .tc)
abbrev r' : DevRef τ sig := Proc.devRef .tc (main_v12 : Ref sig .tc)

/-- The TensorCore call's two scalars, of the launch contents. -/
abbrev nVal (d : Dev nD) : FVec F S1x1 .f32 := Region.tcNum (m (a0Loc d)) (m (a1Loc d))
abbrev cVal (d : Dev nD) : FVec F S1x1 .f32 := Region.tcDen (m (a1Loc d))

/-- The device's buffers after the TensorCore call: the launch contents but for the two scalars. -/
def W1 (d : Dev nD) : Valuation τ sig (Elt F) :=
  Function.update (Function.update (StableHlo.launchContents m d) n' (nVal m d)) c' (cVal m d)

/-- After the SparseCore call: the array of lane sums at `g` besides. -/
def W2 (d : Dev nD) (g : Buf (Elt F) (pLoc d)) : Valuation τ sig (Elt F) := Function.update (W1 m d) p' g

theorem W1_Vp (d : Dev nD) : (fun b : Ref sig .tc => W1 m d (Proc.devRef .tc b)) = Region.Vp m d := by
  funext b
  unfold W1 Region.Vp
  by_cases h1 : b = main_v0_1
  · subst h1; rw [Function.update_self, Function.update_self]
  · rw [Function.update_of_ne (fun e => h1 (Proc.devRef_injective _ e)), Function.update_of_ne h1]
    by_cases h0 : b = main_v0_0
    · subst h0; rw [Function.update_self, Function.update_self]
    · rw [Function.update_of_ne (fun e => h0 (Proc.devRef_injective _ e)), Function.update_of_ne h0]

theorem W1_a0 (d : Dev nD) : W1 m d a0' = m (a0Loc d) := by
  unfold W1; rw [Function.update_of_ne (by decide), Function.update_of_ne (by decide)]
theorem W1_a1 (d : Dev nD) : W1 m d a1' = m (a1Loc d) := by
  unfold W1; rw [Function.update_of_ne (by decide), Function.update_of_ne (by decide)]
theorem W1_n (d : Dev nD) : W1 m d n' = nVal m d := by
  unfold W1; rw [Function.update_of_ne (by decide), Function.update_self]
theorem W1_c (d : Dev nD) : W1 m d c' = cVal m d := by
  unfold W1; rw [Function.update_self]

/-! ## The host operations' buffers -/

theorem tail_sub : ∀ op ∈ (tailOps : List (HloOp τ sig (Elt F))), op.bufs ⊆ ucRefs τ sig := by
  intro op hop
  refine Pipeline.sub_ucRefs op ?_
  simp only [tailOps, List.mem_cons, List.mem_singleton, List.not_mem_nil, or_false] at hop
  rcases hop with rfl | rfl | rfl | rfl | rfl | rfl | rfl | rfl | rfl | rfl | rfl | rfl | rfl <;> simp

theorem tail_fresh : ∀ op ∈ (tailOps : List (HloOp τ sig (Elt F))), op.fresh = ∅ := by
  intro op hop
  simp only [tailOps, List.mem_cons, List.mem_singleton, List.not_mem_nil, or_false] at hop
  rcases hop with rfl | rfl | rfl | rfl | rfl | rfl | rfl | rfl | rfl | rfl | rfl | rfl | rfl <;> rfl

/-! ## The arrays of the SparseCore call, whole and dealt -/

/-- The three arrays the SparseCore call works on. -/
abbrev S3 : Finset (DevRef τ sig) := {a0', a1', p'}

omit [FloatOps F] in
theorem held_S3 (d : Dev nD) (W : Valuation τ sig (Elt F)) :
    (held (T d) S3 W : sProp 𝕄) = iprop((a0Loc d ↦{fullShare} W a0') ∗ (a1Loc d ↦{fullShare} W a1') ∗ pLoc d ↦{fullShare} W p') := by
  unfold held S3
  rw [SparseCore.bigSep_insert' (by decide), SparseCore.bigSep_insert' (by decide), bigSep_singleton]

theorem S3_sub : S3 ⊆ ucRefs τ sig := by decide

/-- Both SparseCores' parts are the 32 tiles' parts. -/
theorem st_eq (d : Dev nD) :
    (bigSep Finset.univ fun c : Fin ((K (F := F)).nCore 0) => (P m).st 0 d c) = bigSep Finset.univ fun w : Fin 32 => goW m d w := by
  rw [bigSep_tiles]; rfl
theorem dn_eq (d : Dev nD) :
    (bigSep Finset.univ fun c : Fin ((K (F := F)).nCore 0) => (P m).dn 0 d c) = bigSep Finset.univ fun w : Fin 32 => tdW m d w := by
  rw [bigSep_tiles]; rfl

omit [FloatOps F] in
theorem goW_all (d : Dev nD) : (bigSep Finset.univ fun w : Fin 32 => goW m d w)
    = iprop((bigSep Finset.univ fun w : Fin 32 => a0Loc d ↦{tshare w} m (a0Loc d)) ∗ (bigSep Finset.univ fun w : Fin 32 => a1Loc d ↦{tshare w} m (a1Loc d))
        ∗ bigSep Finset.univ fun w : Fin 32 => iprop(∃ f, pLoc d ↦[prowSet w]{fullShare} f)) := by
  unfold goW; rw [bigSep_sep', bigSep_sep']
theorem tdW_all (d : Dev nD) : (bigSep Finset.univ fun w : Fin 32 => tdW m d w)
    = iprop((bigSep Finset.univ fun w : Fin 32 => a0Loc d ↦{tshare w} m (a0Loc d)) ∗ (bigSep Finset.univ fun w : Fin 32 => a1Loc d ↦{tshare w} m (a1Loc d))
        ∗ bigSep Finset.univ fun w : Fin 32 => iprop(∃ f, ⌜RowVal m d w f⌝ ∗ pLoc d ↦[prowSet w]{fullShare} f)) := by
  unfold tdW; rw [bigSep_sep', bigSep_sep']

/-! ## The values at the end of the line of host operations -/

theorem W2_n (d : Dev nD) (g : Buf (Elt F) (pLoc d)) : W2 m d g n' = nVal m d := by
  unfold W2; rw [Function.update_of_ne (by decide), W1_n]
theorem W2_c (d : Dev nD) (g : Buf (Elt F) (pLoc d)) : W2 m d g c' = cVal m d := by
  unfold W2; rw [Function.update_of_ne (by decide), W1_c]
theorem W2_p (d : Dev nD) (g : Buf (Elt F) (pLoc d)) : W2 m d g p' = g := by
  unfold W2; rw [Function.update_self]
theorem W2_a0 (d : Dev nD) (g : Buf (Elt F) (pLoc d)) : W2 m d g a0' = m (a0Loc d) := by
  unfold W2; rw [Function.update_of_ne (by decide), W1_a0]
theorem W2_a1 (d : Dev nD) (g : Buf (Elt F) (pLoc d)) : W2 m d g a1' = m (a1Loc d) := by
  unfold W2; rw [Function.update_of_ne (by decide), W1_a1]

/-- The result buffer after the host operations holds the loss of the two scalars and the array of lane sums. -/
theorem after_r (d : Dev nD) (g : Buf (Elt F) (pLoc d)) :
    StableHlo.after (tailOps (F := F)) (W2 m d g) r' = lossOf (nVal m d) (cVal m d) g := by
  unfold tailOps lossOf
  after_results
  rw [W2_n, W2_c, W2_p]
  rfl

/-- No host operation writes an argument. -/
theorem after_a0 (d : Dev nD) (g : Buf (Elt F) (pLoc d)) : StableHlo.after (tailOps (F := F)) (W2 m d g) a0' = m (a0Loc d) := by
  unfold tailOps
  after_results
  exact W2_a0 m d g
theorem after_a1 (d : Dev nD) (g : Buf (Elt F) (pLoc d)) : StableHlo.after (tailOps (F := F)) (W2 m d g) a1' = m (a1Loc d) := by
  unfold tailOps
  after_results
  exact W2_a1 m d g

/-! ## @main on the TensorCore -/

/-- The three buffers read off the final memory. -/
abbrev S3r : Finset (DevRef τ sig) := {a0', a1', r'}
omit [FloatOps F] in
theorem held_S3r (d : Dev nD) (W : Valuation τ sig (Elt F)) :
    (held (T d) S3r W : sProp 𝕄) = iprop((a0Loc d ↦{fullShare} W a0') ∗ (a1Loc d ↦{fullShare} W a1') ∗ rLoc d ↦{fullShare} W r') := by
  unfold held S3r
  rw [SparseCore.bigSep_insert' (by decide), SparseCore.bigSep_insert' (by decide), bigSep_singleton]
theorem S3r_sub : S3r ⊆ ucRefs τ sig := by decide

/-- Outside the call's three arrays nothing changed over the call. -/
theorem held_rest_W2 (d : Dev nD) (g : Buf (Elt F) (pLoc d)) :
    (held (T d) (ucRefs τ sig \ S3) (W2 m d g) : sProp 𝕄) = held (T d) (ucRefs τ sig \ S3) (W1 m d) :=
  held_congr (T d) fun b hb => Function.update_of_ne (fun e => (Finset.mem_sdiff.mp hb).2 (by subst e; decide)) _ _

/-- What @main leaves: the arguments at their launch contents, the result at the loss of the two scalars and an array
    whose every row is its tile's block. -/
def FIN (d : Dev nD) : sProp 𝕄 :=
  iprop(∃ g, ⌜PHolds m d g⌝ ∗ (a0Loc d ↦{fullShare} m (a0Loc d)) ∗ (a1Loc d ↦{fullShare} m (a1Loc d))
    ∗ rLoc d ↦{fullShare} (lossOf (nVal m d) (cVal m d) g : Buf (Elt F) (rLoc d)))

omit [FloatOps F] in
/-- Rows at known contents are rows at some contents. -/
theorem rows_any (d : Dev nD) (f : Buf (Elt F) (pLoc d)) :
    (bigSep Finset.univ fun w : Fin 32 => pLoc d ↦[prowSet w]{fullShare} f)
      ⊢ (bigSep Finset.univ fun w : Fin 32 => iprop(∃ f, pLoc d ↦[prowSet w]{fullShare} f) : sProp 𝕄) :=
  bigSep_mono fun w _ => (show (pLoc d ↦[prowSet w]{fullShare} f : sProp 𝕄) ⊢ iprop(∃ f, pLoc d ↦[prowSet w]{fullShare} f) from by
    iintro H; iexists _; iexact H)

set_option maxHeartbeats 1600000 in
set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ Region.G (F := F) d)
      ⊢ wp frame (wpE ((K (F := F)).defs (D (F := F))) 𝒱 (SparseCore.T d) none) Set.univ (main d)
          fun _ => iprop((K (F := F)).tcSt EH d 1 ∗ FIN m d) := by
  rw [main_eq, wp_bind]
  iintro ⟨#Hctx, Hst, Hres, HG⟩
  iapply (Region.region_wp m ρ (P m) κ d _) $$ [Hst Hres HG]
  isplitr; · iexact Hctx
  isplitl [Hst]; · iexact Hst
  isplitl [Hres]; · iexact Hres
  isplitl [HG]; · iexact HG
  unfold Region.post
  iintro ⟨Hst, Hb, Hub, -, -⟩
  -- the unscoped buffers as a held set, the call's three arrays out of it
  ihave Hheld := (Entails.of_eq (show (unscopedBufs d (Region.Vp m d) : sProp 𝕄) = held (T d) (ucRefs τ sig) (W1 m d) from by
    rw [← W1_Vp m d]; exact unscopedBufs_held d (W1 m d))) $$ Hub
  ihave Hh := (Entails.of_eq (held_sub_split (T d) S3_sub (W1 m d))) $$ Hheld
  icases Hh with ⟨H3, Hrest⟩
  ihave H3' := (Entails.of_eq (held_S3 (F := F) d (W1 m d))) $$ H3
  rw [W1_a0, W1_a1]
  icases H3' with ⟨Ha0, Ha1, Hp⟩
  ihave Ha0' := (arg_split (F := F) (a0Loc d) (m (a0Loc d))).1 $$ Ha0
  icases Ha0' with ⟨Hd0, Ht0⟩
  ihave Ha1' := (arg_split (F := F) (a1Loc d) (m (a1Loc d))).1 $$ Ha1
  icases Ha1' with ⟨Hd1, Ht1⟩
  ihave Hp' := (Entails.of_eq (pPts_rows (F := F) d (W1 m d p'))) $$ Hp
  -- the SparseCore call
  rw [wp_bind]
  iapply ((K (F := F)).wp_run (D (F := F)) 𝒱 (EH := EH) (P := P m) κ d 0) $$ [Hst Ht0 Ht1 Hp' Hb Hrest Hd0 Hd1]
  isplitr; · iexact Hctx
  isplitl [Hst]; · iexact Hst
  isplitl [Ht0 Ht1 Hp']
  · rw [st_eq, goW_all]
    isplitl [Ht0]; · iexact Ht0
    isplitl [Ht1]; · iexact Ht1
    iapply (rows_any (F := F) d (W1 m d p'))
    iexact Hp'
  iintro ⟨Hst, Hdn⟩
  ihave Hdn' := (Entails.of_eq ((dn_eq m d).trans (tdW_all m d))) $$ Hdn
  icases Hdn' with ⟨Ht0, Ht1, Hrows⟩
  ihave Hj := (rows_join m d) $$ Hrows
  icases Hj with ⟨%g, %hg, Hp⟩
  ihave Ha0 := (arg_split (F := F) (a0Loc d) (m (a0Loc d))).2 $$ [Hd0 Ht0]
  · isplitl [Hd0] <;> iassumption
  ihave Ha1 := (arg_split (F := F) (a1Loc d) (m (a1Loc d))).2 $$ [Hd1 Ht1]
  · isplitl [Hd1] <;> iassumption
  -- the buffers held again, the array of lane sums at `g`
  ihave Hheld := (Entails.of_eq (show iprop(held (T d) S3 (W2 m d g) ∗ held (T d) (ucRefs τ sig \ S3) (W1 m d)) = (held (T d) (ucRefs τ sig) (W2 m d g) : sProp 𝕄) from by
    rw [held_sub_split (T d) S3_sub (W2 m d g), held_rest_W2 m d g])) $$ [Ha0 Ha1 Hp Hrest]
  · isplitl [Ha0 Ha1 Hp]
    · rw [held_S3, W2_a0, W2_a1, W2_p]
      isplitl [Ha0]; · iexact Ha0
      isplitl [Ha1]; · iexact Ha1
      iexact Hp
    · iexact Hrest
  -- the host operations
  iapply (wp_seq 𝒱 none Set.univ d (ucRefs τ sig) (fun _ => pure ⟨⟩) (tailOps (F := F)) tail_sub tail_fresh (W2 m d g)) $$ [Hb Hheld]
  · isplitl [Hb] <;> iassumption
  iintro ⟨Hb, Hheld⟩
  ihave Hh := (Entails.of_eq (held_sub_split (T d) S3r_sub (StableHlo.after (tailOps (F := F)) (W2 m d g)))) $$ Hheld
  icases Hh with ⟨H3, -⟩
  ihave H3' := (Entails.of_eq (held_S3r (F := F) d _)) $$ H3
  rw [after_a0, after_a1, after_r]
  icases H3' with ⟨Ha0, Ha1, Hr⟩
  rw [wp_pure]
  imodintro
  isplitl [Hst]; · iexact Hst
  unfold FIN
  iexists g
  isplitr; · ipureintro; exact hg
  isplitl [Ha0]; · iexact Ha0
  isplitl [Ha1]; · iexact Ha1
  iexact Hr

/-! ## The final memory -/

def fq (d : Dev nD) (s' : Phys nD τ sig (Elt F)) : Prop :=
  (∃ g, PHolds m d g ∧ s'.mem.mem (rLoc d) = lossOf (nVal m d) (cVal m d) g) ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  unfold FIN
  iintro ⟨⟨%g, %hg, Ha0, Ha1, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := rLoc d) (I := Finset.univ) (q := fullShare) (f := (lossOf (nVal m d) (cVal m d) g : Buf (Elt F) (rLoc d)))) $$ [HSI Hr]
  · isplitl [HSI] <;> iassumption
  icases H with %h2
  ipureintro
  exact ⟨⟨g, hg, funext fun i => h2 i (Finset.mem_univ i)⟩, funext fun i => h0 i (Finset.mem_univ i), funext fun i => h1 i (Finset.mem_univ i)⟩

/-! ## The program's run -/

/-- Every final memory: the result is the loss of the TensorCore's two scalars and an array whose rows are the tiles' blocks;
    the arguments are unchanged. -/
def QC : PUnit × MemSt nD τ sig (Elt F) → Prop := fun r => ∀ c : Dev nD,
  (∃ g, PHolds m c g ∧ r.2.mem (rLoc c) = lossOf (nVal m c) (cVal m c) g) ∧ r.2.mem (a0Loc c) = m (a0Loc c) ∧ r.2.mem (a1Loc c) = m (a1Loc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (fun d => Region.G (F := F) d) (FIN m) (u₀ (F := F)) (sep_elim_left.trans (hu₀ m)) (hmain m ρ) (fq m) (hfin m) (QC m) (fun _ h => h)

end Cert.KernelIdeal.Hand

end
-- ==== Proof.CommonK.lean ====
/-
  What the parts of this certificate share: the program as the SparseCore launch theorem sees it (the calls `K`, the body
  table `D` lifted through the one TensorCore pipeline, the variants), the resource algebra — the launch handshakes'
  rounds, the pipeline's staging cells' rounds, and the counters of the tiles' own transfers, side by side —, and the
  names of the arrays: the two arguments, the two scalar partial sums the TensorCore call leaves, and the 32 x 2 x 16 array of
  per-tile lane sums the SparseCore call leaves. A tile is numbered `2 * subcore + core`; tile `w` works on batch `w / 4`,
  rows `384 + 32 * (w % 4)` to `384 + 32 * (w % 4) + 31`.
-/
import proofs.«207045_g69415261438402_cont_9to1_m_695_13_alg».proof.Kernel
import proofs.«207045_g69415261438402_cont_9to1_m_695_13_alg».proof.Proof.Gen.Kernel
import proofs.«207045_g69415261438402_cont_9to1_m_695_13_alg».proof.Proof.Gen.Kernel.Skeleton
import proofs.«207045_g69415261438402_cont_9to1_m_695_13_alg».proof.Proof.Gen.Kernel.Launch
import proofs.«207045_g69415261438402_cont_9to1_m_695_13_alg».proof.Proof.Gen.Kernel.Points
import proofs.«207045_g69415261438402_cont_9to1_m_695_13_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The kernels' label signature, lifted through the one TensorCore pipeline. -/
abbrev ΛP : Labels := Pipeline.Sig Λ₀ (Fin 1) fun p => (pcfgs (F := F) p).Adm
/-- The SparseCore calls: one, the vector-subcore kernel on 2 x 16 tiles. -/
abbrev K : SparseCore.Cfg τ sig (ΛP (F := F)) 1 := sc (F := F)
theorem nCore_zero : (K (F := F)).nCore 0 = 2 := rfl
theorem nSub_zero : (K (F := F)).nSub 0 = 16 := rfl
/-- The kernels' body table with the pipeline's region and point labels. -/
abbrev D [FloatOps F] : Defs nD τ sig (Elt F) (ΛP (F := F)) := Pipeline.defs pcfgs defs₀
/-- The kernels make no call of their own: no variant below the pipeline's. -/
abbrev 𝒱₀ : Variants := Variants.none
abbrev 𝒱 : Variants := 𝒱₀.lift
abbrev v₀ : 𝒱.V := Sum.inl none

/-- The facts about the launch semaphores and the SparseCores' buffers the launch theorem takes, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, the pipeline's staging cells' rounds, the tiles' transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' copy: the left factor. -/
abbrev EH : Emb UH (MT nD τ sig (HIx 1) (Elt F) ℕ UU ℕ) := embL
/-- The pipeline's copy: the left factor of the right factor. The counters are found by instance in what is left. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The arrays -/

/-- The arguments (outputs, target), the TensorCore call's two scalars, the SparseCore call's lane sums, the result. -/
abbrev a0Loc (d : Dev nD) : Loc nD τ sig := (SparseCore.T d).loc main_arg0
abbrev a1Loc (d : Dev nD) : Loc nD τ sig := (SparseCore.T d).loc main_arg1
abbrev nLoc (d : Dev nD) : Loc nD τ sig := (SparseCore.T d).loc main_v0_0
abbrev cLoc (d : Dev nD) : Loc nD τ sig := (SparseCore.T d).loc main_v0_1
abbrev pLoc (d : Dev nD) : Loc nD τ sig := (SparseCore.T d).loc main_v1
abbrev rLoc (d : Dev nD) : Loc nD τ sig := (SparseCore.T d).loc main_v12

/-- The SparseCore and the vector subcore of a grid point of the tiles' call, and the tile's number. -/
abbrev cV (L : grid1.Coords) : Fin τ.nSC := (L 0).castLE hcore1
abbrev jV (L : grid1.Coords) : Fin τ.nSub := (L 1).castLE hsub1
abbrev wid (L : grid1.Coords) : ℕ := 2 * (L 1).val + (L 0).val

/-- The arrays as a tile names them (whole), its three scratch buffers, its two semaphore arrays. -/
abbrev a0V : Memref sig .scVector .hbm S8x512x512 .f32 := Memref.whole main_arg0_scv
abbrev a1V : Memref sig .scVector .hbm S8x512x512 .f32 := Memref.whole main_arg1_scv
abbrev pV : Memref sig .scVector .hbm S32x2x16 .f32 := Memref.whole main_v1_scv
abbrev sO : Memref sig .scVector .vmem S32x512 .f32 := Memref.whole cc1_scratch0
abbrev sT : Memref sig .scVector .vmem S32x512 .f32 := Memref.whole cc1_scratch1
abbrev sR : Memref sig .scVector .vmem S2x16 .f32 := Memref.whole cc1_scratch2

end Cert.Kernel.Hand

end
-- ==== Proof.RowsK.lean ====
/-
  How the arrays are dealt to the 32 tiles. Tile `w = 2 i + c` (vector subcore `i` of SparseCore `c`) writes row `w` of the
  32 x 2 x 16 array of lane sums: the 32 rows are pairwise disjoint and cover the array, so the array whole is the rows side by
  side. The two argument arrays are only read: each tile is lent one of 32 read shares of each array whole.
-/
import proofs.«207045_g69415261438402_cont_9to1_m_695_13_alg».proof.Proof.CommonK
import Idealize.ShloMosaic.Lib.Transfers

noncomputable section

namespace Cert.Kernel.Hand

open Cert.Kernel

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Tiles by number -/

/-- The tile's number `2 i + c` of subcore `i` of SparseCore `c`, as a bijection of the 2 x 16 grid with `Fin 32`. -/
def tileEquiv : Fin 2 × Fin 16 ≃ Fin 32 := (Equiv.prodComm (Fin 2) (Fin 16)).trans finProdFinEquiv

theorem tileEquiv_val (c : Fin 2) (i : Fin 16) : (tileEquiv (c, i)).val = 2 * i.val + c.val := by
  show (finProdFinEquiv (i, c)).val = _
  simp [finProdFinEquiv]; omega

/-- The number of the tile at SparseCore `c`, subcore `i`. -/
abbrev tileNo (c : Fin 2) (i : Fin 16) : Fin 32 := tileEquiv (c, i)

/-- A family over the 32 tiles, by SparseCore and subcore. -/
theorem bigSep_tiles (Φ : Fin 32 → sProp 𝕄) :
    bigSep Finset.univ Φ = bigSep Finset.univ fun c : Fin 2 => bigSep Finset.univ fun i : Fin 16 => Φ (tileNo c i) := by
  rw [bigSep_univ_equiv tileEquiv Φ, bigSep_univ_prod]

/-! ## The rows of the lane-sum array -/

theorem hdiv32 : 32 ∣ S32x2x16.size 0 := ⟨1, rfl⟩
/-- Row `w` of the 32 x 2 x 16 array: the `w`-th of 32 parts along axis 0. -/
abbrev prow (w : Fin 32) : Rect S32x2x16 := Rect.part (s := S32x2x16) (a₀ := 0) hdiv32 w
/-- Its elements. -/
abbrev prowSet (w : Fin 32) : Finset S32x2x16.Idx := (prow w).set

theorem prows_disjoint : ∀ i ∈ (Finset.univ : Finset (Fin 32)), ∀ j ∈ (Finset.univ : Finset (Fin 32)), i ≠ j → Disjoint (prowSet i) (prowSet j) :=
  fun i _ j _ h => Rect.part_disjoint hdiv32 h
theorem prows_cover : (Finset.univ : Finset (Fin 32)).biUnion prowSet = Finset.univ := Rect.biUnion_part hdiv32

/-- The array whole is its 32 rows. -/
theorem pPts_rows (d : Dev nD) (f : Buf (Elt F) (pLoc d)) :
    (pLoc d ↦{fullShare} f : sProp 𝕄) = bigSep Finset.univ fun w : Fin 32 => pLoc d ↦[prowSet w]{fullShare} f := by
  rw [← pointsTo_biUnion Finset.univ (ℓ := pLoc d) prowSet prows_disjoint, prows_cover]; try rfl

/-! ## The read shares of the arguments -/

/-- Tile `w`'s read share. -/
abbrev tshare (w : Fin 32) : PosShare TreeShare := Transfers.shareTok fullShare 32 w
/-- What is left with the TensorCore while the tiles read. -/
abbrev tdrop : PosShare TreeShare := Transfers.shareDrop fullShare 32

theorem arg_split (ℓ : Loc nD τ sig) (f : Buf (Elt F) ℓ) :
    (ℓ ↦{fullShare} f : sProp 𝕄) ⊣⊢ iprop((ℓ ↦{tdrop} f) ∗ bigSep Finset.univ fun w : Fin 32 => ℓ ↦{tshare w} f) :=
  Transfers.pointsTo_toks fullShare 32

end Cert.Kernel.Hand

end
-- ==== Proof.TileK.lean ====
/-
  One vector subcore's task, at a symbolic tile. The tile copies its 32 x 512 slabs of the two arguments into its own
  memory (two copies counted on one semaphore, both waited for before either slab is read), folds the 1024 sixteen-lane
  pieces of the slabs into four sixteen-lane accumulators (two pieces a trip: the even pieces into the first error and count
  accumulators, the odd pieces into the second), adds the accumulators pairwise into a 2 x 16 block and copies that block
  to the tile's row of the array of per-tile lane sums. `tileOut` is that block as a pure function of the two arguments.
-/
import proofs.«207045_g69415261438402_cont_9to1_m_695_13_alg».proof.Proof.CommonK
import Idealize.ShloMosaic.Lib.Batch

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's views of the arrays -/

/-- The 32 x 512 slab of the first argument the tile copies, as the program slices it; -/
abbrev slab0 (L : grid1.Coords) : Memref sig .scVector .hbm S32x512 .f32 :=
  ((a0V).slice (Rect.unit (s := S8x512x512) (k1_off1 L) S1x32x512.size (k1_off1_inb L)) (fun _ => rfl)).squeeze S32x512 squeezes_S1x32x512_S32x512
/-- of the second; -/
abbrev slab1 (L : grid1.Coords) : Memref sig .scVector .hbm S32x512 .f32 :=
  ((a1V).slice (Rect.unit (s := S8x512x512) (k1_off1 L) S1x32x512.size (k1_off1_inb L)) (fun _ => rfl)).squeeze S32x512 squeezes_S1x32x512_S32x512
/-- the tile's 2 x 16 row of the array of lane sums. -/
abbrev pRow (L : grid1.Coords) : Memref sig .scVector .hbm S2x16 .f32 :=
  ((pV).slice (Rect.unit (s := S32x2x16) (k1_off3 L) S1x2x16.size (k1_off3_inb L)) (fun _ => rfl)).squeeze S2x16 squeezes_S1x2x16_S2x16

/-! ## The value: the loop's fold over the two slabs -/

section Value

variable [FloatOps F]

/-- The four accumulators: first and second error sums, first and second counts. -/
abbrev Acc (F : FTy → Type) : Type := FVec F S16 .f32 × FVec F S16 .f32 × FVec F S16 .f32 × FVec F S16 .f32

/-- Piece `r` (0 or 1) of trip `k`, read off a slab held in the tile's first scratch buffer; -/
def ldO (A : FVec F S32x512 .f32) (k : Fin k1_t1_loop.trips) (r : Fin 2) : Vec F S1x16 .f32 :=
  (sO).view.readAt (Elt F) (Rect.unit (s := S32x512) (k1_off2 k (BitVec.ofNat 32 (16 * r.val))) S1x16.size (k1_off2_inb k r)).toLoadRect A
/-- in its second. -/
def ldT (B : FVec F S32x512 .f32) (k : Fin k1_t1_loop.trips) (r : Fin 2) : Vec F S1x16 .f32 :=
  (sT).view.readAt (Elt F) (Rect.unit (s := S32x512) (k1_off2 k (BitVec.ofNat 32 (16 * r.val))) S1x16.size (k1_off2_inb k r)).toLoadRect B

/-- One trip: pieces `2k` and `2k + 1` of the slabs `A` (outputs) and `B` (target) added to the accumulators. -/
def tStep (A B : FVec F S32x512 .f32) (k : Fin k1_t1_loop.trips) (acc : Acc F) : Acc F :=
  (k1_pay5 acc.1 (k1_pay2 (ldT B k 0)) (k1_pay3 (ldT B k 0) (ldO A k 0)) (k1_pay4 (F := F)),
   k1_pay12 acc.2.1 (k1_pay7 (ldT B k 1)) (k1_pay8 (ldO A k 1)) (k1_pay9 (F := F)),
   k1_pay6 acc.2.2.1 (k1_pay2 (ldT B k 0)),
   k1_pay13 acc.2.2.2 (k1_pay7 (ldT B k 1)) (k1_pay9 (F := F)))

/-- The accumulators before trip `n`. -/
def tAcc (A B : FVec F S32x512 .f32) : ℕ → Acc F
  | 0 => (k1_pay10 (F := F), k1_pay10 (F := F), k1_pay10 (F := F), k1_pay10 (F := F))
  | n + 1 => if h : n < k1_t1_loop.trips then tStep A B ⟨n, h⟩ (tAcc A B n) else tAcc A B n

/-- A lane of the 2 x 16 block as an index of one of its 1 x 16 rows. -/
def laneOf (j : S2x16.Idx) : S1x16.Idx := fun a => match a with
  | 0 => ⟨0, by decide⟩
  | 1 => j 1

/-- The block a tile leaves in its row of the lane sums: row 0 the two error accumulators added, row 1 the two counts,
    after all the trips over the tile's slabs of `X` (outputs) and `T` (target). -/
def tileOut (X T : FVec F S8x512x512 .f32) (L : grid1.Coords) : FVec F S2x16 .f32 := fun j =>
  if (j 0).val = 0 then
    k1_pay14 (tAcc ((slab0 L).view.read (Elt F) X) ((slab1 L).view.read (Elt F) T) k1_t1_loop.trips).1
      (tAcc ((slab0 L).view.read (Elt F) X) ((slab1 L).view.read (Elt F) T) k1_t1_loop.trips).2.1 (laneOf j)
  else
    k1_pay15 (tAcc ((slab0 L).view.read (Elt F) X) ((slab1 L).view.read (Elt F) T) k1_t1_loop.trips).2.2.1
      (tAcc ((slab0 L).view.read (Elt F) X) ((slab1 L).view.read (Elt F) T) k1_t1_loop.trips).2.2.2 (laneOf j)

end Value

/-! ## The task -/

section Tile

variable (m : (ℓ : Loc nD τ sig) → Buf (Elt F) ℓ)
variable [FloatOps F]
variable (d : Dev nD) (L : grid1.Coords)

/-- A read share of the whole of each argument, as the tile addresses it. -/
abbrev argShare0 (q : PosShare TreeShare) : sProp 𝕄 := (a0V).view.loc (V d (cV L) (jV L)) ↦{q} m (a0Loc d)
abbrev argShare1 (q : PosShare TreeShare) : sProp 𝕄 := (a1V).view.loc (V d (cV L) (jV L)) ↦{q} m (a1Loc d)
/-- The tile's row of the lane sums, held by exactly its own elements. -/
abbrev rowHeld (f : Buf (Elt F) (pLoc d)) : sProp 𝕄 := (pRow L).view.loc (V d (cV L) (jV L)) ↦[(pRow L).view.set]{fullShare} f

/-- The tile's two semaphore cells: the one both slab copies complete on, the one the write-out completes on. -/
abbrev cAcell (c : Fin τ.nSC) (i : Fin τ.nSub) : GSem nD τ sig := (V d c i, .dma cc1_scratch3.sem)
abbrev cBcell (c : Fin τ.nSC) (i : Fin τ.nSub) : GSem nD τ sig := (V d c i, .dma cc1_scoped0.sem)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc1_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped0.sem : SemLoc sig).isScoped .scVector = true; decide⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

omit [FloatOps F] in
theorem pts_sO (f : Buf (Elt F) ((V d (cV L) (jV L)).loc cc1_scratch0)) :
    ((sO).view.loc (V d (cV L) (jV L)) ↦[(sO).view.set]{fullShare} f : sProp 𝕄) = (V d (cV L) (jV L)).loc cc1_scratch0 ↦{fullShare} f := by
  simp only [Memref.view_whole, View.set_whole]
omit [FloatOps F] in
theorem pts_sT (f : Buf (Elt F) ((V d (cV L) (jV L)).loc cc1_scratch1)) :
    ((sT).view.loc (V d (cV L) (jV L)) ↦[(sT).view.set]{fullShare} f : sProp 𝕄) = (V d (cV L) (jV L)).loc cc1_scratch1 ↦{fullShare} f := by
  simp only [Memref.view_whole, View.set_whole]
omit [FloatOps F] in
theorem pts_sR (f : Buf (Elt F) ((V d (cV L) (jV L)).loc cc1_scratch2)) :
    ((sR).view.loc (V d (cV L) (jV L)) ↦[(sR).view.set]{fullShare} f : sProp 𝕄) = (V d (cV L) (jV L)).loc cc1_scratch2 ↦{fullShare} f := by
  simp only [Memref.view_whole, View.set_whole]

/-- One slab's credit on the copies' semaphore. -/
abbrev NA : ℕ := (sO).view.amount (SemLoc.dma (sig := sig) cc1_scratch3.sem)

/-- The two copies' deliveries: each scratch buffer holding its slab (one listed write of the whole over what it held), and the
    lent elements of the argument back. -/
abbrev deliv (q : PosShare TreeShare) (fO : Buf (Elt F) ((sO).view.loc (V d (cV L) (jV L)))) (fT : Buf (Elt F) ((sT).view.loc (V d (cV L) (jV L)))) :
    Fin 2 → sProp 𝕄 := fun t => match t with
  | ⟨0, _⟩ => iprop(((sO).view.loc (V d (cV L) (jV L)) ↦[(sO).view.set]{fullShare}
        (sO).view.writes (Elt F) fO [⟨Rect.whole S32x512, ReadAs.same.apply ((slab0 L).view.read (Elt F) (m (a0Loc d)))⟩])
      ∗ ((slab0 L).view.loc (V d (cV L) (jV L)) ↦[(slab0 L).view.set]{q} m (a0Loc d)))
  | ⟨_ + 1, _⟩ => iprop(((sT).view.loc (V d (cV L) (jV L)) ↦[(sT).view.set]{fullShare}
        (sT).view.writes (Elt F) fT [⟨Rect.whole S32x512, ReadAs.same.apply ((slab1 L).view.read (Elt F) (m (a1Loc d)))⟩])
      ∗ ((slab1 L).view.loc (V d (cV L) (jV L)) ↦[(slab1 L).view.set]{q} m (a1Loc d)))

instance deliv_storable (q : PosShare TreeShare) (fO : Buf (Elt F) ((sO).view.loc (V d (cV L) (jV L)))) (fT : Buf (Elt F) ((sT).view.loc (V d (cV L) (jV L))))
    (t : Fin 2) : BI.Storable (upEmb : UEmb _ 𝕄) (deliv m d L q fO fT t) := by
  match t with
  | ⟨0, _⟩ => unfold deliv; infer_instance
  | ⟨_ + 1, _⟩ => unfold deliv; infer_instance

omit [FloatOps F] in
/-- A whole buffer after one listed write of the whole holds the payload. -/
theorem writes_whole_eq {κ : Kind} (b : Ref sig κ) (g w : b.ty.Contents (Elt F)) :
    (View.whole b).writes (Elt F) g [⟨Rect.whole b.ty.shape, ReadAs.same.apply w⟩] = w := by
  rw [ReadAs.apply_same, ← View.write_univ_eq_writes_whole (View.whole b) g [] w, View.writes_nil, View.write_whole_univ]

omit [FloatOps F] in
theorem landed_sO (g : Buf (Elt F) ((sO).view.loc (V d (cV L) (jV L)))) (w : FVec F S32x512 .f32) :
    (sO).view.writes (Elt F) g [⟨Rect.whole S32x512, ReadAs.same.apply w⟩] = w := writes_whole_eq cc1_scratch0 g w
omit [FloatOps F] in
theorem landed_sT (g : Buf (Elt F) ((sT).view.loc (V d (cV L) (jV L)))) (w : FVec F S32x512 .f32) :
    (sT).view.writes (Elt F) g [⟨Rect.whole S32x512, ReadAs.same.apply w⟩] = w := writes_whole_eq cc1_scratch1 g w

/-- The loop's invariant: the accumulators are the fold over the trips done, the two scratch buffers hold the slabs. -/
def inv (A B : FVec F S32x512 .f32) (k : ℕ) (acc : Acc F) : sProp 𝕄 :=
  iprop(⌜acc = tAcc A B k⌝
    ∗ ((sO).view.loc (V d (cV L) (jV L)) ↦[(sO).view.set]{fullShare} A)
    ∗ ((sT).view.loc (V d (cV L) (jV L)) ↦[(sT).view.set]{fullShare} B))

omit [FloatOps F] in
/-- A view read back after one listed write of the whole reads the payload. -/
theorem read_writes_whole {κ : Kind} {sp : Space} {s : Shape} {e : EltTy} (v : View sig κ sp s e) (f : v.ty.Contents (Elt F)) (w : s.Idx → Elt F e) :
    v.read (Elt F) (v.writes (Elt F) f [⟨Rect.whole s, w⟩]) = w := by
  rw [← View.write_univ_eq_writes_whole v f [] w, View.writes_nil, View.read_write_univ]

omit [FloatOps F] in
theorem laneOf_zero (j : S2x16.Idx) : ((laneOf j) 0).val = 0 := rfl
omit [FloatOps F] in
theorem laneOf_one (j : S2x16.Idx) : ((laneOf j) 1).val = (j 1).val := rfl

omit [FloatOps F] in
/-- A lane of row 0 of the block is its lane of the row's rectangle; -/
theorem emb_row0 (j : S2x16.Idx) (h : (j 0).val = 0) :
    (Rect.unit (s := S2x16) ![0, 0] S1x16.size inb_S2x16_S1x16_0_0).emb (laneOf j) = j := by
  funext a
  apply Fin.ext
  rw [Rect.emb_apply]
  match a with
  | ⟨0, _⟩ => show 0 + 1 * ((laneOf j) 0).val = (j 0).val; rw [laneOf_zero, h]
  | ⟨1, _⟩ => show 0 + 1 * ((laneOf j) 1).val = (j 1).val; rw [laneOf_one]; omega
omit [FloatOps F] in
/-- of row 1. -/
theorem emb_row1 (j : S2x16.Idx) (h : (j 0).val = 1) :
    (Rect.unit (s := S2x16) ![1, 0] S1x16.size inb_S2x16_S1x16_1_0).emb (laneOf j) = j := by
  funext a
  apply Fin.ext
  rw [Rect.emb_apply]
  match a with
  | ⟨0, _⟩ => show 1 + 1 * ((laneOf j) 0).val = (j 0).val; rw [laneOf_zero, h]
  | ⟨1, _⟩ => show 0 + 1 * ((laneOf j) 1).val = (j 1).val; rw [laneOf_one]; omega

omit [FloatOps F] in
/-- The 2 x 16 scratch after its two row stores, read whole: row 0 the first payload, row 1 the second. -/
theorem block_eq (fR : Buf (Elt F) ((sR).view.loc (V d (cV L) (jV L)))) (w0 w1 : FVec F S1x16 .f32) :
    (sR).view.read (Elt F) ((sR).view.writes (Elt F) fR
        [⟨Rect.unit (s := S2x16) ![1, 0] S1x16.size inb_S2x16_S1x16_1_0, w1⟩, ⟨Rect.unit (s := S2x16) ![0, 0] S1x16.size inb_S2x16_S1x16_0_0, w0⟩])
      = fun j => if (j 0).val = 0 then w0 (laneOf j) else w1 (laneOf j) := by
  funext j
  by_cases h : (j 0).val = 0
  · rw [if_pos h, View.writes_cons]
    rw [View.read_slice_write_of_not_mem _ _ _ _ (by
      rw [Rect.map_emb_univ, Rect.mem_set_unit]
      intro hh
      have := (hh 0).1
      have h1 : ((![1, 0] : Fin 2 → ℕ) 0) = 1 := rfl
      omega)]
    have := View.read_writes_cons_emb (sR).view fR (Rect.unit (s := S2x16) ![0, 0] S1x16.size inb_S2x16_S1x16_0_0) w0 [] (laneOf j)
    rw [emb_row0 j h] at this
    exact this
  · have h1 : (j 0).val = 1 := by have := (j 0).isLt; have h2 : S2x16.size 0 = 2 := rfl; omega
    rw [if_neg h]
    have := View.read_writes_cons_emb (sR).view fR (Rect.unit (s := S2x16) ![1, 0] S1x16.size inb_S2x16_S1x16_1_0) w1
      [⟨Rect.unit (s := S2x16) ![0, 0] S1x16.size inb_S2x16_S1x16_0_0, w0⟩] (laneOf j)
    rw [emb_row1 j h1] at this
    exact this

/-- The task on vector subcore `(L 0, L 1)` of device `d`. -/
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp
        ∗ (argShare0 m d L q ∗ argShare1 m d L q ∗ ∃ f, rowHeld d L f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L a0V (Memref.isWhole_whole _) a1V (Memref.isWhole_whole _) pV (Memref.isWhole_whole _)
            sO (Memref.isWhole_whole _) sT (Memref.isWhole_whole _) sR (Memref.isWhole_whole _) cc1_scratch3 cc1_scoped0)
          fun _ => iprop((argShare0 m d L q ∗ argShare1 m d L q
              ∗ ∃ f, ⌜(pRow L).view.read (Elt F) f = tileOut (m (a0Loc d)) (m (a1Loc d)) L⌝ ∗ rowHeld d L f)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  iintro ⟨#Hlv, -, ⟨Ha0, Ha1, ⟨%fp, Hp⟩⟩, ⟨⟨%fO, HsO⟩, ⟨%fT, HsT⟩, ⟨%fR, HsR⟩, Hbufs⟩, ⟨HsemA, HsemB, Hsems⟩, HO⟩
  ihave Hmw := ((K (F := F)).mayWaits_none (thr := V d (cV L) (jV L)) hO) $$ Hlv
  ihave HsO' := (Entails.of_eq (pts_sO (F := F) d L _).symm) $$ HsO
  ihave HsT' := (Entails.of_eq (pts_sT (F := F) d L _).symm) $$ HsT
  ihave HsR' := (Entails.of_eq (pts_sR (F := F) d L _).symm) $$ HsR
  imod (Transfers.batch_alloc' (Lvl := ℕ) (countersEmb (U := UU)) (V d (cV L) (jV L)) (none : HIx 1) NA (deliv m d L q fO fT) (sm := .dma cc1_scratch3.sem) (E := Set.univ)) $$ HsemA with HB
  sl_exec
  rw [landed_sO (F := F) d L, landed_sT (F := F) d L]
  sl_for (inv d L ((slab0 L).view.read (Elt F) (m (a0Loc d))) ((slab1 L).view.read (Elt F) (m (a1Loc d)))) $$ [HB_dst0 HB_dst1]
  case region =>
    intro k acc
    obtain ⟨a0, a1, a2, a3⟩ := acc
    unfold inv
    iintro ⟨%hacc, HA, HBb⟩
    sl_exec
    sl_step
    isplitr
    · ipureintro
      show _ = (if h : k.val < k1_t1_loop.trips then tStep _ _ ⟨k.val, h⟩ (tAcc _ _ k.val) else tAcc _ _ k.val)
      rw [dif_pos k.isLt, ← hacc]
      rfl
    isplitl [HA]; · iexact HA
    iexact HBb
  · unfold inv
    isplitr; · ipureintro; rfl
    isplitl [HB_dst0]; · iexact HB_dst0
    iexact HB_dst1
  iintro %acc HI
  unfold inv
  icases HI with ⟨%hacc, HA, HBb⟩
  sl_exec
  sl_step
  subst hacc
  isplitl [Ha0 Ha1 Hp]
  · isplitl [Ha0]; · iexact Ha0
    isplitl [Ha1]; · iexact Ha1
    iexists _; isplitr
    rotate_left
    · iexact Hp
    · ipureintro
      refine (read_writes_whole (pRow L).view fp _).trans ?_
      exact block_eq (F := F) d L fR _ _
  isplitl [HA HBb HsR' Hbufs]
  · isplitl [HA]; · iexists _; iapply (Entails.of_eq (pts_sO (F := F) d L _)); iexact HA
    isplitl [HBb]; · iexists _; iapply (Entails.of_eq (pts_sT (F := F) d L _)); iexact HBb
    isplitl [HsR']; · iexists _; iapply (Entails.of_eq (pts_sR (F := F) d L _)); iexact HsR'
    iexact Hbufs
  isplitl [HB HsemB Hsems]
  · isplitl [HB]; · iexact HB
    isplitl [HsemB]; · iexact HsemB
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

end Cert.Kernel.Hand

end
-- ==== Proof.PayK.lean ====
/-
  What the SparseCore call's handshakes carry, and the two obligations the launch asks about the tiles. Tile number `w`
  (SparseCore `w % 2`, subcore `w / 2`) is lent read share `w` of each argument array whole and its own row `w` of the array
  of lane sums; it gives them back with the row holding the tile's block of sums. A SparseCore's part of the call is its
  sixteen tiles' parts side by side, so the split among the tiles is the identity.
-/
import proofs.«207045_g69415261438402_cont_9to1_m_695_13_alg».proof.Proof.RowsK
import proofs.«207045_g69415261438402_cont_9to1_m_695_13_alg».proof.Proof.TileK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Tiles as grid points -/

/-- The grid point of SparseCore `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The grid point of tile number `w`. -/
def Lof (w : Fin 32) : grid1.Coords := coordsV ⟨w.val % 2, Nat.mod_lt _ (by decide)⟩ ⟨w.val / 2, by have := w.isLt; show _ < 16; omega⟩

theorem wid_Lof (w : Fin 32) : wid (Lof w) = w.val := by
  show 2 * (w.val / 2) + w.val % 2 = w.val; omega

theorem wid_lt (L : grid1.Coords) : wid L < 32 := by
  have h0 : (L 0).val < 2 := (L 0).isLt
  have h1 : (L 1).val < 16 := (L 1).isLt
  show 2 * (L 1).val + (L 0).val < 32; omega

/-- The number of the tile at a grid point. -/
abbrev widF (L : grid1.Coords) : Fin 32 := ⟨wid L, wid_lt L⟩

theorem Lof_widF (L : grid1.Coords) : Lof (widF L) = L := by
  have h0 : (L 0).val < 2 := (L 0).isLt
  funext a
  match a with
  | 0 => exact Fin.ext (by show (2 * (L 1).val + (L 0).val) % 2 = (L 0).val; omega)
  | 1 => exact Fin.ext (by show (2 * (L 1).val + (L 0).val) / 2 = (L 1).val; omega)

theorem widF_Lof (w : Fin 32) : widF (Lof w) = w := Fin.ext (wid_Lof w)

/-! ## The tile's row, by number -/

/-- The rectangle the tile slices out of the array of lane sums is row number `wid L`. -/
theorem pRect_eq (L : grid1.Coords) :
    Rect.unit (s := S32x2x16) (k1_off3 L) S1x2x16.size (k1_off3_inb L) = prow (widF L) := by
  unfold prow Rect.part Rect.block
  congr 1 <;> funext a
  · rw [k1_off3_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

/-- The elements of the tile's row, as the tile's memref names them, are row `wid L`'s. -/
theorem set_pRow (L : grid1.Coords) : (pRow L).view.set = prowSet (widF L) := by
  show (((pV : Memref sig .scVector .hbm S32x2x16 .f32).view.slice (Rect.unit (s := S32x2x16) (k1_off3 L) S1x2x16.size (k1_off3_inb L))).reshape S2x16
      squeezes_S1x2x16_S2x16.numel_eq).set = (prow (widF L)).set
  rw [View.set_reshape, View.set_slice]
  refine (congrArg (fun r : Rect S32x2x16 => Finset.map (pV : Memref sig .scVector .hbm S32x2x16 .f32).view.emb r.set) (pRect_eq L)).trans ?_
  exact Finset.map_refl

/-! ## The payloads -/

section Payloads

variable (m : (ℓ : Loc nD τ sig) → Buf (Elt F) ℓ) [FloatOps F]

/-- What tile `w` is lent: its read shares of the two arguments, and its row of the lane sums at any contents. -/
def goW (d : Dev nD) (w : Fin 32) : sProp 𝕄 :=
  iprop((a0Loc d ↦{tshare w} m (a0Loc d)) ∗ (a1Loc d ↦{tshare w} m (a1Loc d)) ∗ ∃ f, pLoc d ↦[prowSet w]{fullShare} f)

/-- Row `w` of `f` is the block of sums tile `w` computes from the launch contents of the arguments. -/
def RowVal (d : Dev nD) (w : Fin 32) (f : Buf (Elt F) (pLoc d)) : Prop :=
  (pRow (Lof w)).view.read (Elt F) f = tileOut (m (a0Loc d)) (m (a1Loc d)) (Lof w)

/-- What tile `w` gives back: the shares, and its row holding its block of sums. -/
def tdW (d : Dev nD) (w : Fin 32) : sProp 𝕄 :=
  iprop((a0Loc d ↦{tshare w} m (a0Loc d)) ∗ (a1Loc d ↦{tshare w} m (a1Loc d)) ∗ ∃ f, ⌜RowVal m d w f⌝ ∗ pLoc d ↦[prowSet w]{fullShare} f)

instance goW_storable (d : Dev nD) (w : Fin 32) : BI.Storable (upEmb : UEmb _ 𝕄) (goW m d w) := by unfold goW; infer_instance
instance tdW_storable (d : Dev nD) (w : Fin 32) : BI.Storable (upEmb : UEmb _ 𝕄) (tdW m d w) := by unfold tdW; infer_instance

/-- The call's payloads: a SparseCore's part is its sixteen tiles' parts; nothing of the launch's is consumed. -/
def P : (K (F := F)).Pay (nD := nD) (Val := Elt F) (Name := ℕ) (U := UU) where
  st := fun q d c => match q with | 0 => bigSep Finset.univ fun i : Fin 16 => goW m d (tileNo (Fin.cast nCore_zero c) i)
  dn := fun q d c => match q with | 0 => bigSep Finset.univ fun i : Fin 16 => tdW m d (tileNo (Fin.cast nCore_zero c) i)
  go := fun q d c i => match q with | 0 => goW m d (tileNo (Fin.cast nCore_zero c) (Fin.cast nSub_zero i))
  td := fun q d c i => match q with | 0 => tdW m d (tileNo (Fin.cast nCore_zero c) (Fin.cast nSub_zero i))
  x := fun _ _ => iprop(emp)

instance P_storable : (P (F := F) m).IsStorable where
  st q d c := match q with | 0 => (inferInstance : BI.Storable (upEmb : UEmb _ 𝕄) (bigSep Finset.univ fun i : Fin 16 => goW m d (tileNo (Fin.cast nCore_zero c) i)))
  dn q d c := match q with | 0 => (inferInstance : BI.Storable (upEmb : UEmb _ 𝕄) (bigSep Finset.univ fun i : Fin 16 => tdW m d (tileNo (Fin.cast nCore_zero c) i)))
  go q d c i := match q with | 0 => (inferInstance : BI.Storable (upEmb : UEmb _ 𝕄) (goW m d (tileNo (Fin.cast nCore_zero c) (Fin.cast nSub_zero i))))
  td q d c i := match q with | 0 => (inferInstance : BI.Storable (upEmb : UEmb _ 𝕄) (tdW m d (tileNo (Fin.cast nCore_zero c) (Fin.cast nSub_zero i))))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The split of a SparseCore's part among its tiles, and back: the identity. -/
theorem vecSplit : (K (F := F)).VecSplit' (P m) 0 := by
  intro d c
  show (bigSep Finset.univ fun i : Fin 16 => goW m d (tileNo (Fin.cast nCore_zero c) i)) ⊢ |={Set.univ}=> iprop(
      (bigSep Finset.univ fun i : Fin ((K (F := F)).nSub 0) => goW m d (tileNo (Fin.cast nCore_zero c) (Fin.cast nSub_zero i)))
      ∗ ((bigSep Finset.univ fun i : Fin ((K (F := F)).nSub 0) => tdW m d (tileNo (Fin.cast nCore_zero c) (Fin.cast nSub_zero i)))
          -∗ bigSep Finset.univ fun i : Fin 16 => tdW m d (tileNo (Fin.cast nCore_zero c) i)))
  rw [bigSep_tasks (F := F) (fun i => goW m d (tileNo (Fin.cast nCore_zero c) i)),
    bigSep_tasks (F := F) (fun i => tdW m d (tileNo (Fin.cast nCore_zero c) i))]
  iintro H; imodintro
  isplitl [H]; · iexact H
  iintro H; iexact H

end Payloads

/-! ## The tile's obligation -/

section Obl

variable (m : (ℓ : Loc nD τ sig) → Buf (Elt F) ℓ) [FloatOps F]

theorem defs₀_vector (c : Fin τ.nSC) (s : Fin τ.nSub) :
    defs₀ (F := F) (.scVector c s) 1 ()
      = SparseCore.onTile hcore1 hsub1 (fun c s => cc1__sc_body (coordsV c s)
          a0V (Memref.isWhole_whole _) a1V (Memref.isWhole_whole _) pV (Memref.isWhole_whole _)
          sO (Memref.isWhole_whole _) sT (Memref.isWhole_whole _) sR (Memref.isWhole_whole _) cc1_scratch3 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- What the tile at `L` is lent, in the tile's own spelling of the arrays. -/
theorem goW_eq (d : Dev nD) (L : grid1.Coords) :
    goW m d (widF L) = iprop(argShare0 m d L (tshare (widF L)) ∗ argShare1 m d L (tshare (widF L)) ∗ ∃ f, rowHeld d L f) := by
  unfold goW rowHeld argShare0 argShare1
  rw [set_pRow]
  try rfl

/-- What it gives back. -/
theorem tdW_eq (d : Dev nD) (L : grid1.Coords) :
    tdW m d (widF L) = iprop(argShare0 m d L (tshare (widF L)) ∗ argShare1 m d L (tshare (widF L))
      ∗ ∃ f, ⌜(pRow L).view.read (Elt F) f = tileOut (m (a0Loc d)) (m (a1Loc d)) L⌝ ∗ rowHeld d L f) := by
  unfold tdW RowVal rowHeld argShare0 argShare1
  rw [set_pRow, Lof_widF]
  try rfl

/-- The task of the tile at grid point `L`, over the payloads by number. -/
theorem tile_task (d : Dev nD) (L : grid1.Coords) (O : CellTallies nD τ sig (HIx 1)) (W : Waits sig (HIx 1)) (hO : ∀ g, O g none = 0) :
    iprop(levAts (K (F := F)).L (K (F := F)).lev ∗ emp ∗ goW m d (widF L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L a0V (Memref.isWhole_whole _) a1V (Memref.isWhole_whole _) pV (Memref.isWhole_whole _)
            sO (Memref.isWhole_whole _) sT (Memref.isWhole_whole _) sR (Memref.isWhole_whole _) cc1_scratch3 cc1_scoped0)
          fun _ => iprop(tdW m d (widF L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [goW_eq, tdW_eq]
  exact tile_body m d L facts (tshare (widF L)) O W hO

omit [FloatOps F] in
theorem tileNo_coords (c : Fin ((K (F := F)).nCore 0)) (i : Fin ((K (F := F)).nSub 0))
    (h0 : ((K (F := F)).core 0 c).val < grid1.bound 0) (h1 : ((K (F := F)).sub 0 i).val < grid1.bound 1) :
    tileNo (Fin.cast nCore_zero c) (Fin.cast nSub_zero i) = widF (coordsV ⟨_, h0⟩ ⟨_, h1⟩) :=
  Fin.ext ((tileEquiv_val _ _).trans rfl)

theorem tileObl : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  show iprop(_ ∗ _ ∗ goW m d (tileNo (Fin.cast nCore_zero c) (Fin.cast nSub_zero i)) ∗ _) ⊢ wp _ _ _ _
      (fun _ => iprop(tdW m d (tileNo (Fin.cast nCore_zero c) (Fin.cast nSub_zero i)) ∗ _))
  rw [tileNo_coords c i hc.1 hc.2]
  exact (tile_task m d (coordsV ⟨_, hc.1⟩ ⟨_, hc.2⟩) O W hO).trans (wp_mono frame _ _ fun _ => obl_post)

end Obl

/-! ## The rows back into the array -/

section Join

variable (m : (ℓ : Loc nD τ sig) → Buf (Elt F) ℓ) [FloatOps F]

/-- Every row of `g` is the block its tile computes. -/
def PHolds (d : Dev nD) (g : Buf (Elt F) (pLoc d)) : Prop := ∀ w : Fin 32, RowVal m d w g

/-- The 32 rows, each holding its tile's block, are the array whole holding every tile's block in its row. -/
theorem rows_join (d : Dev nD) :
    (bigSep Finset.univ fun w : Fin 32 => iprop(∃ f, ⌜RowVal m d w f⌝ ∗ pLoc d ↦[prowSet w]{fullShare} f))
      ⊢ (iprop(∃ g, ⌜PHolds m d g⌝ ∗ pLoc d ↦{fullShare} g) : sProp 𝕄) := by
  refine (bigSep_exists_pi Finset.univ (fun w (f : Buf (Elt F) (pLoc d)) => iprop(⌜RowVal m d w f⌝ ∗ pLoc d ↦[prowSet w]{fullShare} f))).trans ?_
  iintro ⟨%fs, H⟩
  ihave H' := (bigSep_pure_sep Finset.univ (fun w => RowVal m d w (fs w)) (fun w => iprop(pLoc d ↦[prowSet w]{fullShare} (fs w)))) $$ H
  icases H' with ⟨%hv, H⟩
  ihave H'' := (pointsTo_biUnion_join Finset.univ prowSet fs (fs 0) prows_disjoint) $$ H
  icases H'' with ⟨%g, %hg, Hg⟩
  rw [prows_cover]
  iexists g; isplitr
  · ipureintro
    intro w
    have h1 : RowVal m d w (fs w) := hv w (Finset.mem_univ w)
    unfold RowVal at h1 ⊢
    rw [← h1]
    funext j
    rw [View.read_apply, View.read_apply]
    congr 1
    refine hg w (Finset.mem_univ w) _ ?_
    have hmem := View.emb_mem_set (v := (pRow (Lof w)).view) j
    rw [set_pRow, widF_Lof] at hmem
    exact hmem
  · iexact Hg

end Join

end Cert.Kernel.Hand

end
-- ==== Proof.RegionK.lean ====
/-
  The TensorCore call's region: the pipeline over the eight batches, each point loading the first 384 rows of the two
  arrays' batch and adding the two masked sums of that block to two scalars kept in SMEM across the points, zeroed at the
  first point and written back to the two (1, 1) results after the last.
-/
import proofs.«207045_g69415261438402_cont_9to1_m_695_13_alg».proof.Proof.CommonK
import Idealize.ShloMosaic.Lib.Pipeline.RegionsLoop
import Idealize.ShloMosaic.Lib.Pipeline.Frame
import Idealize.ShloMosaic.Lib.Pipeline.Value
import Idealize.ShloMosaic.Lib.WritesUnit

set_option maxRecDepth 16384

noncomputable section

namespace Cert.Kernel.Hand.Region

open Cert.Kernel Cert.Kernel.Gen Cert.Kernel.Hand

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-- The TensorCore's thread on device `d`. -/
abbrev Td (d : Dev nD) : Thread nD τ := SparseCore.T d

/-! ## The values -/

/-- An argument array's contents, and a (1, 1) result's. -/
abbrev Arr (F : FTy → Type) : Type := (⟨S8x512x512, .f32⟩ : BufTy).Contents (Elt F)
abbrev Cell (F : FTy → Type) : Type := (⟨S1x1, .f32⟩ : BufTy).Contents (Elt F)

/-- The zero word. -/
abbrev z32 : F .f32 := Scalar.ofBits .f32 0x00000000#32

/-- The block of the first array the pipeline stages at point `t`: rows 0 to 383 of batch `t`. -/
def oblk (X : Arr F) (t : Fin grid0.N) : Vec F S1x384x512 .f32 :=
  win0_0.fill (grid0.coords t) (fun _ => z32) ((win0_0.blk t).view.read (Elt F) X)
/-- The second array's. -/
def tblk (Y : Arr F) (t : Fin grid0.N) : Vec F S1x384x512 .f32 :=
  win0_1.fill (grid0.coords t) (fun _ => z32) ((win0_1.blk t).view.read (Elt F) Y)

/-- The same by the point's number (past the grid: anything). -/
def oblkN (X : Arr F) (n : ℕ) : Vec F S1x384x512 .f32 := if h : n < grid0.N then oblk X ⟨n, h⟩ else fun _ => z32
def tblkN (Y : Arr F) (n : ℕ) : Vec F S1x384x512 .f32 := if h : n < grid0.N then tblk Y ⟨n, h⟩ else fun _ => z32

/-- The first scalar after the body at point `n`: zero plus the first block's masked sum of distances, then each
    further block's added in the grid's order. -/
def accN (X Y : Arr F) : ℕ → F .f32
  | 0 => k0_pay3 (tblkN Y 0) (oblkN X 0) z32
  | n + 1 => k0_pay3 (tblkN Y (n + 1)) (oblkN X (n + 1)) (accN X Y n)
/-- The second: the counts of the positive entries likewise. -/
def accD (Y : Arr F) : ℕ → F .f32
  | 0 => k0_pay4 (tblkN Y 0) z32
  | n + 1 => k0_pay4 (tblkN Y (n + 1)) (accD Y n)

/-- What the region leaves in the two (1, 1) results. -/
def tcNum (X Y : Arr F) : Cell F := fun _ => accN X Y 7
def tcDen (Y : Arr F) : Cell F := fun _ => accD Y 7

/-! ## The pipeline's proof data -/

variable (m : (ℓ : Loc nD τ sig) → Buf (Elt F) ℓ)

/-- The tables admitted: none. -/
abbrev adm : (p : Fin 1) → (pcfgs (F := F) p).Adm := fun p => (cfgs p).toPCfg_adm

/-- The proof data on device `d`'s TensorCore: the four arrays at the launch contents; after the body at point `t` the
    two input buffers at the point's blocks and the two SMEM words at the running sums; no invariant; the core owes the
    sequencers their start signals throughout, and has recorded waits at the kernels' own index only. -/
def dats (_ : Fin 1) (d : Dev nD) : Dat τ (Elt F) (HIx 1) ℕ UU ℕ cfg0 d where
  A w := m ((cfg0.win w).arr.view.loc (Td d))
  after w t := match w with
    | ⟨0, _⟩ => oblk (m (a0Loc d)) t
    | ⟨1, _⟩ => tblk (m (a1Loc d)) t
    | ⟨2, _⟩ => fun _ => accN (m (a0Loc d)) (m (a1Loc d)) t.val
    | ⟨3, _⟩ => fun _ => accD (m (a1Loc d)) t.val
  Φ _ := iprop(emp)
  q _ := fullShare
  owed _ := (K (F := F)).Otc d 0
  recorded _ := {p | p.2 = none}

/-- Every unscoped buffer after the region: the two results at the sums, the rest as launched. -/
def Vp (d : Dev nD) : (b : Ref sig .tc) → Buf (Elt F) ((Td d).loc b) :=
  Function.update (Function.update (fun b => m ((Td d).loc b)) main_v0_0 (tcNum (m (a0Loc d)) (m (a1Loc d)) : Buf (Elt F) ((Td d).loc main_v0_0))) main_v0_1 (tcDen (m (a1Loc d)) : Buf (Elt F) ((Td d).loc main_v0_1))

theorem Vp_arg0 (d : Dev nD) : Vp m d main_arg0 = m ((Td d).loc main_arg0) := by
  unfold Vp; rw [Function.update_of_ne (by decide), Function.update_of_ne (by decide)]
theorem Vp_arg1 (d : Dev nD) : Vp m d main_arg1 = m ((Td d).loc main_arg1) := by
  unfold Vp; rw [Function.update_of_ne (by decide), Function.update_of_ne (by decide)]
theorem Vp_num (d : Dev nD) : Vp m d main_v0_0 = tcNum (m (a0Loc d)) (m (a1Loc d)) := by
  unfold Vp; rw [Function.update_of_ne (by decide), Function.update_self]
theorem Vp_den (d : Dev nD) : Vp m d main_v0_1 = tcDen (m (a1Loc d)) := by
  unfold Vp; rw [Function.update_self]

/-- What the core owes, with its recorded waits at the kernels' own index. -/
abbrev Owes (d : Dev nD) : sProp 𝕄 := iprop(∃ W, ⌜(K (F := F)).WBelow (Td d) W (8 * 0)⌝ ∗ owes (Td d) ((K (F := F)).Otc d 0) W)

/-- The core owes nothing at the kernels' own index. -/
theorem Otc_none (d : Dev nD) (g : GSem nD τ sig) : (K (F := F)).Otc d 0 g none = 0 := by
  by_contra h
  have := (K (F := F)).lev_of_Otc_pos (Nat.pos_of_ne_zero h)
  simp at this

/-- Recorded waits at level zero are those at the kernels' own index. -/
theorem wbelow_iff (d : Dev nD) (W : Waits sig (HIx 1)) :
    (K (F := F)).WBelow (Td d) W (8 * 0) ↔ ∀ p ∈ W, p.2 = none := by
  unfold SparseCore.Cfg.WBelow
  refine forall₂_congr fun p _ => ?_
  rcases p with ⟨s, _ | q⟩
  · simp
  · have := (K (F := F)).lev_some_pos (Td d, s) q
    constructor
    · intro h; exact absurd (Nat.lt_of_lt_of_le this h) (Nat.lt_irrefl 0)
    · intro h; cases h

theorem bound_none (d : Dev nD) (t : Fin (cfg0.N + 1)) (p : SemLoc sig × HIx 1) :
    p ∈ (dats m 0 d).bound none t ↔ p.2 = none := by
  unfold Dat.bound
  constructor
  · rintro (h | ⟨w, s, rfl⟩)
    · exact h
    · rfl
  · intro h; exact Or.inl h

/-! ## The running sums, point by point -/

theorem oblkN_val (X : Arr F) (t : Fin grid0.N) : oblkN X t.val = oblk X t := by unfold oblkN; rw [dif_pos t.isLt]
theorem tblkN_val (Y : Arr F) (t : Fin grid0.N) : tblkN Y t.val = tblk Y t := by unfold tblkN; rw [dif_pos t.isLt]

theorem accN_zero (X Y : Arr F) (t : Fin grid0.N) (h : t.val = 0) : accN X Y t.val = k0_pay3 (tblk Y t) (oblk X t) z32 := by
  rw [← oblkN_val, ← tblkN_val, h]; rfl
theorem accN_succ (X Y : Arr F) (t : Fin grid0.N) (h : t.val ≠ 0) :
    accN X Y t.val = k0_pay3 (tblk Y t) (oblk X t) (accN X Y (t.val - 1)) := by
  rw [← oblkN_val, ← tblkN_val]
  obtain ⟨n, hn⟩ := t
  cases n with
  | zero => exact absurd rfl h
  | succ n => rfl
theorem accD_zero (Y : Arr F) (t : Fin grid0.N) (h : t.val = 0) : accD Y t.val = k0_pay4 (tblk Y t) z32 := by
  rw [← tblkN_val, h]; rfl
theorem accD_succ (Y : Arr F) (t : Fin grid0.N) (h : t.val ≠ 0) : accD Y t.val = k0_pay4 (tblk Y t) (accD Y (t.val - 1)) := by
  rw [← tblkN_val]
  obtain ⟨n, hn⟩ := t
  cases n with
  | zero => exact absurd rfl h
  | succ n => rfl

/-! ## What the body finds in the staging buffers -/

/-- No block of the two arguments overhangs its array: the transfers move whole blocks. -/
theorem xsize0_0 : ∀ (t : Fin grid0.N) (a : Fin 3), win0_0.xsize (grid0.coords t) a = win0_0.size a := by decide +kernel
theorem xsize0_1 : ∀ (t : Fin grid0.N) (a : Fin 3), win0_1.xsize (grid0.coords t) a = win0_1.size a := by decide +kernel

/-- So a fetched buffer holds the block whatever it held before. -/
theorem fill_all0 {α : Type} (t : Fin grid0.N) (e e' : win0_0.block.Idx → α) (g : (win0_0.xblock (grid0.coords t)).Idx → α) :
    win0_0.fill (grid0.coords t) e g = win0_0.fill (grid0.coords t) e' g := by
  funext j
  have hm : win0_0.moved (grid0.coords t) j = true := (win0_0.moved_iff _ j).mpr fun a => by rw [xsize0_0]; exact (j a).isLt
  unfold Window.fill; rw [dif_pos hm, dif_pos hm]
theorem fill_all1 {α : Type} (t : Fin grid0.N) (e e' : win0_1.block.Idx → α) (g : (win0_1.xblock (grid0.coords t)).Idx → α) :
    win0_1.fill (grid0.coords t) e g = win0_1.fill (grid0.coords t) e' g := by
  funext j
  have hm : win0_1.moved (grid0.coords t) j = true := (win0_1.moved_iff _ j).mpr fun a => by rw [xsize0_1]; exact (j a).isLt
  unfold Window.fill; rw [dif_pos hm, dif_pos hm]

theorem after_0 (d : Dev nD) (t : Fin cfg0.N) : (dats m 0 d).after 0 t = oblk (m (a0Loc d)) t := by dsimp only [dats]
theorem after_1 (d : Dev nD) (t : Fin cfg0.N) : (dats m 0 d).after 1 t = tblk (m (a1Loc d)) t := by dsimp only [dats]
theorem after_2 (d : Dev nD) (t : Fin cfg0.N) : (dats m 0 d).after 2 t = fun _ => accN (m (a0Loc d)) (m (a1Loc d)) t.val := by dsimp only [dats]
theorem after_3 (d : Dev nD) (t : Fin cfg0.N) : (dats m 0 d).after 3 t = fun _ => accD (m (a1Loc d)) t.val := by dsimp only [dats]

/-- The two inputs' buffers, just fetched, hold the point's blocks. -/
theorem before_0 (d : Dev nD) (t : Fin cfg0.N) (e) : (dats m 0 d).before 0 t e = oblk (m (a0Loc d)) t := by
  unfold Dat.before; rw [if_pos (fetch0_0 t)]
  exact fill_all0 t _ _ _
theorem before_1 (d : Dev nD) (t : Fin cfg0.N) (e) : (dats m 0 d).before 1 t e = tblk (m (a1Loc d)) t := by
  unfold Dat.before; rw [if_pos (fetch0_1 t)]
  exact fill_all1 t _ _ _
/-- The two SMEM words hold anything at the first point, -/
theorem before_2_first (d : Dev nD) (t : Fin cfg0.N) (h0 : t.val = 0) (e) : (dats m 0 d).before 2 t e = e :=
  (dats m 0 d).before_out_reset 2 rfl t (.inl h0) e
theorem before_3_first (d : Dev nD) (t : Fin cfg0.N) (h0 : t.val = 0) (e) : (dats m 0 d).before 3 t e = e :=
  (dats m 0 d).before_out_reset 3 rfl t (.inl h0) e
/-- and at a later point what the point before left: they are written back after the last point only. -/
theorem before_2_later (d : Dev nD) (t : Fin cfg0.N) (h0 : t.val ≠ 0) (e) :
    (dats m 0 d).before 2 t e = fun _ => accN (m (a0Loc d)) (m (a1Loc d)) (t.val - 1) := by
  have hN : t.val < 8 := lt_of_lt_of_eq t.isLt (show cfg0.N = 8 from N_0)
  rw [Dat.before_out_kept _ 2 rfl t h0 (Bool.eq_false_iff.mpr fun h => by have := (flush0_2 _).mp h; dsimp only at this; omega)
    (fun _ => rfl) (fun _ _ => rfl)]
  dsimp only [dats]
theorem before_3_later (d : Dev nD) (t : Fin cfg0.N) (h0 : t.val ≠ 0) (e) :
    (dats m 0 d).before 3 t e = fun _ => accD (m (a1Loc d)) (t.val - 1) := by
  have hN : t.val < 8 := lt_of_lt_of_eq t.isLt (show cfg0.N = 8 from N_0)
  rw [Dat.before_out_kept _ 3 rfl t h0 (Bool.eq_false_iff.mpr fun h => by have := (flush0_3 _).mp h; dsimp only at this; omega)
    (fun _ => rfl) (fun _ _ => rfl)]
  dsimp only [dats]

/-! ## The body -/

/-- The body's conditional, from the grid coordinate: taken at the first point only. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

theorem hz3 : (![0, 0, 0] : Fin 3 → Nat) = fun _ => 0 := funext fun a => by fin_cases a <;> rfl

/-- A (1, 1) buffer whose last store wrote `val` reads `val`. -/
theorem read_one {sp : Space} (v : View sig .tc sp S1x1 .f32) (f : v.ty.Contents (Elt F)) (val : F .f32) (L : List (View.Piece (Elt F) S1x1 .f32)) :
    v.read (Elt F) (v.writes (Elt F) f (⟨Rect.unit ![0, 0] S1x1.size inb_S1x1_S1x1_0_0, fun _ => val⟩ :: L)) = fun _ => val :=
  funext fun y => View.read_writes_cons_unit_of_mem v f _ (fun _ => val) L y y rfl
    (Fin.forall_fin_two.mpr ⟨(Nat.zero_add _).symm, (Nat.zero_add _).symm⟩)

set_option maxHeartbeats 1000000 in
/-- The body at the first point, on any whole staging buffers: the two scalars are zeroed, then each is added its block's sum. -/
theorem bodyA (d : Dev nD) (E : Set ℕ) (i : grid0.Coords) (arg1 : Memref sig .tc .vmem S1x384x512 .f32) (harg1 : arg1.IsWhole) (arg2 : Memref sig .tc .vmem S1x384x512 .f32) (harg2 : arg2.IsWhole) (arg3 : Memref sig .tc .smem S1x1 .f32) (harg3 : arg3.IsWhole) (arg4 : Memref sig .tc .smem S1x1 .f32) (harg4 : arg4.IsWhole)
    (hc : cond0 i) (x y : Vec F S1x384x512 .f32) (a b : Vec F S1x1 .f32) (K : PUnit → sProp 𝕄) :
    iprop(owns (Td d) arg1 fullShare x ∗ owns (Td d) arg2 fullShare y ∗ owns (Td d) arg3 fullShare a ∗ owns (Td d) arg4 fullShare b
        ∗ (iprop(owns (Td d) arg1 fullShare x ∗ owns (Td d) arg2 fullShare y ∗ owns (Td d) arg3 fullShare (fun _ => k0_pay3 y x z32)
            ∗ owns (Td d) arg4 fullShare (fun _ => k0_pay4 y z32)) -∗ K ⟨⟩))
      ⊢ wp frame (wpE (defs₀ (F := F)) 𝒱₀ (Td d) none) E (cc0__tc_body i arg1 harg1 arg2 harg2 arg3 harg3 arg4 harg4) K := by
  simp only [cc0__tc_body_eq_skeleton]; unfold cc0__tc_body_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2
  obtain rfl := harg3.eq_unread hf3; obtain rfl := harg4.eq_unread hf4
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; swap; · iexact H3
    ipureintro
    rw [read_one]
    sl_unfold_words
    simp only [View.readAt_eq_ld, harg1.read_unread, harg2.read_unread, View.ld_unit_zero (S := S1x384x512) hz3]
  · iexists _; isplitr; swap; · iexact H4
    ipureintro
    rw [read_one]
    sl_unfold_words
    simp only [View.readAt_eq_ld, harg2.read_unread, View.ld_unit_zero (S := S1x384x512) hz3]

set_option maxHeartbeats 1000000 in
/-- The body at a later point: each scalar is added its block's sum. -/
theorem bodyB (d : Dev nD) (E : Set ℕ) (i : grid0.Coords) (arg1 : Memref sig .tc .vmem S1x384x512 .f32) (harg1 : arg1.IsWhole) (arg2 : Memref sig .tc .vmem S1x384x512 .f32) (harg2 : arg2.IsWhole) (arg3 : Memref sig .tc .smem S1x1 .f32) (harg3 : arg3.IsWhole) (arg4 : Memref sig .tc .smem S1x1 .f32) (harg4 : arg4.IsWhole)
    (hc : ¬cond0 i) (x y : Vec F S1x384x512 .f32) (a b : F .f32) (K : PUnit → sProp 𝕄) :
    iprop(owns (Td d) arg1 fullShare x ∗ owns (Td d) arg2 fullShare y ∗ owns (Td d) arg3 fullShare (fun _ => a) ∗ owns (Td d) arg4 fullShare (fun _ => b)
        ∗ (iprop(owns (Td d) arg1 fullShare x ∗ owns (Td d) arg2 fullShare y ∗ owns (Td d) arg3 fullShare (fun _ => k0_pay3 y x a)
            ∗ owns (Td d) arg4 fullShare (fun _ => k0_pay4 y b)) -∗ K ⟨⟩))
      ⊢ wp frame (wpE (defs₀ (F := F)) 𝒱₀ (Td d) none) E (cc0__tc_body i arg1 harg1 arg2 harg2 arg3 harg3 arg4 harg4) K := by
  simp only [cc0__tc_body_eq_skeleton]; unfold cc0__tc_body_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2
  obtain rfl := harg3.eq_unread hf3; obtain rfl := harg4.eq_unread hf4
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; swap; · iexact H3
    ipureintro
    rw [read_one]
    sl_unfold_words
    simp only [View.readAt_eq_ld, harg1.read_unread, harg2.read_unread, harg3.read_unread, View.ld_unit_zero (S := S1x384x512) hz3]
  · iexists _; isplitr; swap; · iexact H4
    ipureintro
    rw [read_one]
    sl_unfold_words
    simp only [View.readAt_eq_ld, harg2.read_unread, harg4.read_unread, View.ld_unit_zero (S := S1x384x512) hz3]

set_option maxHeartbeats 800000 in
/-- The body at any point, on what the pipeline calls it with. -/
theorem sound_body (d : Dev nD) (t : Fin cfg0.N) :
    iprop((dats m 0 d).Φ t.castSucc ∗ (dats m 0 d).owesAt none t.castSucc
        ∗ (∃ e, owns (Td d) (st0_0 t) fullShare ((dats m 0 d).before 0 t e))
        ∗ (∃ e, owns (Td d) (st0_1 t) fullShare ((dats m 0 d).before 1 t e))
        ∗ (∃ e, owns (Td d) (st0_2 t) fullShare ((dats m 0 d).before 2 t e))
        ∗ (∃ e, owns (Td d) (st0_3 t) fullShare ((dats m 0 d).before 3 t e)))
      ⊢ wp frame (wpE (defs₀ (F := F)) 𝒱₀ (Td d) none) Set.univ (bodyAt0 t) (fun _ =>
          iprop((dats m 0 d).Φ t.succ ∗ (dats m 0 d).owesAt none t.succ
            ∗ owns (Td d) (st0_0 t) fullShare ((dats m 0 d).after 0 t)
            ∗ owns (Td d) (st0_1 t) fullShare ((dats m 0 d).after 1 t)
            ∗ owns (Td d) (st0_2 t) fullShare ((dats m 0 d).after 2 t)
            ∗ owns (Td d) (st0_3 t) fullShare ((dats m 0 d).after 3 t))) := by
  unfold bodyAt0
  simp only [before_0, before_1]
  rw [show (dats m 0 d).Φ t.succ = (dats m 0 d).Φ t.castSucc from rfl,
    show (dats m 0 d).owesAt none t.succ = (dats m 0 d).owesAt none t.castSucc from rfl,
    after_0, after_1, after_2, after_3]
  by_cases h0 : t.val = 0
  · simp only [before_2_first m d t h0, before_3_first m d t h0]
    rw [accN_zero _ _ t h0, accD_zero _ t h0]
    iintro ⟨HΦ, Ho, ⟨%e0, H0⟩, ⟨%e1, H1⟩, ⟨%e2, H2⟩, ⟨%e3, H3⟩⟩
    iapply (bodyA d Set.univ (grid0.coords t) _ _ _ _ _ _ _ _ ((hcond0 t).mpr h0) _ _ e2 e3 _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before_2_later m d t h0, before_3_later m d t h0]
    rw [accN_succ _ _ t h0, accD_succ _ t h0]
    iintro ⟨HΦ, Ho, ⟨%e0, H0⟩, ⟨%e1, H1⟩, ⟨%e2, H2⟩, ⟨%e3, H3⟩⟩
    iapply (bodyB d Set.univ (grid0.coords t) _ _ _ _ _ _ _ _ (fun h => h0 ((hcond0 t).mp h)) _ _ _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-! ## The two results after the region -/

/-- The one write-back of the first scalar, after the last point, writes the whole (1, 1) result. -/
theorem arrAt_num (d : Dev nD) : (dats m 0 d).arrAt 2 cfg0.N = tcNum (m (a0Loc d)) (m (a1Loc d)) :=
  (dats m 0 d).arrAt_eq_of_cover 2 (tcNum (m (a0Loc d)) (m (a1Loc d)))
    (fun t hf => by
      have h7 : t.val = 7 := by have := (flush0_2 t).mp hf; have := lt_of_lt_of_eq t.isLt (show cfg0.N = 8 from N_0); omega
      funext j
      show (dats m 0 d).after 2 t _ = _
      rw [after_2, h7, View.read_apply]; rfl)
    fun i => ⟨t0_7, (flush0_2 t0_7).mpr rfl, by
      show i ∈ ((View.whole main_v0_0).slice (win0_2.rect t0_7)).set
      rw [View.set_slice_whole, Rect.mem_set_unit]
      intro a
      have h1 : ∀ a : Fin 2, win0_2.index t0_7 a * win0_2.size a = 0 ∧ win0_2.xsize (grid0.coords t0_7) a = 1 := by decide +kernel
      obtain ⟨e1, e2⟩ := h1 a
      have hi : (i a : Nat) < 1 := by fin_cases a <;> exact (i _).isLt
      show win0_2.index t0_7 a * win0_2.size a ≤ (i a : Nat) ∧ (i a : Nat) < win0_2.index t0_7 a * win0_2.size a + win0_2.xsize (grid0.coords t0_7) a
      rw [e1, e2]; omega⟩
theorem arrAt_den (d : Dev nD) : (dats m 0 d).arrAt 3 cfg0.N = tcDen (m (a1Loc d)) :=
  (dats m 0 d).arrAt_eq_of_cover 3 (tcDen (m (a1Loc d)))
    (fun t hf => by
      have h7 : t.val = 7 := by have := (flush0_3 t).mp hf; have := lt_of_lt_of_eq t.isLt (show cfg0.N = 8 from N_0); omega
      funext j
      show (dats m 0 d).after 3 t _ = _
      rw [after_3, h7, View.read_apply]; rfl)
    fun i => ⟨t0_7, (flush0_3 t0_7).mpr rfl, by
      show i ∈ ((View.whole main_v0_1).slice (win0_3.rect t0_7)).set
      rw [View.set_slice_whole, Rect.mem_set_unit]
      intro a
      have h1 : ∀ a : Fin 2, win0_3.index t0_7 a * win0_3.size a = 0 ∧ win0_3.xsize (grid0.coords t0_7) a = 1 := by decide +kernel
      obtain ⟨e1, e2⟩ := h1 a
      have hi : (i a : Nat) < 1 := by fin_cases a <;> exact (i _).isLt
      show win0_3.index t0_7 a * win0_3.size a ≤ (i a : Nat) ∧ (i a : Nat) < win0_3.index t0_7 a * win0_3.size a + win0_3.xsize (grid0.coords t0_7) a
      rw [e1, e2]; omega⟩

/-- The library's body obligation, at every point. -/
theorem body_obligation (d : Dev nD) : BodyObligation (dats m 0 d) (defs₀ (F := F)) 𝒱₀ none Set.univ := fun t => by
  rw [bigSep_W0, bigSep_W0]
  exact sound_body m d t

set_option backward.isDefEq.respectTransparency.types false in
/-- The region as the library's record. -/
def reg : Pipeline.RegionSeg (pcfgs (F := F)) adm (dats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (body_obligation m d).loose
  hwaits d := Pipeline.cellsWaits_intro (Pipeline.pin (pcfgs (F := F)) adm) (dats m) none 0 d fun w s t =>
    (K (F := F)).mayWait_none _ (fun g => Otc_none d g)
  pre d := iprop(unscopedBufs d (fun b => m ((Td d).loc b)) ∗ Owes d)
  post d := iprop(unscopedBufs d (Vp m d) ∗ Owes d)
  X _ := BI.emp
  Y _ := BI.emp
  Z d := Pipeline.unscopedRest (Ix := HIx 1) (Name := ℕ) (U := UU) (Lvl := ℕ) spec0 d (fun b => m ((Td d).loc b))
  hentry d := by
    rw [Pipeline.ownSems0_none]
    have hsplit := Pipeline.arrays_of_unscopedBufs (p := 0) (pcfgs (F := F)) adm (dats m) launch0.win launch0.arr_whole d
      ((dats m 0 d).share_full fun _ => rfl) (fun b => m ((Td d).loc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => (bound_none m d _ p).mpr ((wbelow_iff d W).mp hW p hp)
      iexact HO
    isplitr; · iempintro
    iexact Hrest
  hin d := by
    iintro -; rw [show (dats m 0 d).Φ 0 = iprop(emp) from rfl]; iempintro
  hout d := by
    rw [Pipeline.ownSems0_none, scopedRest0_eq]
    iintro -
    isplitr; · iempintro
    isplitr <;> iempintro
  hexit d := by
    have hjoin := Pipeline.unscopedBufs_of_arrays (p := 0) (pcfgs (F := F)) adm (Ix := HIx 1) (Name := ℕ) (U := UU) (Lvl := ℕ) launch0.win launch0.arr_whole d
      (dats m) ((dats m 0 d).share_full fun _ => rfl) (fun b => m ((Td d).loc b)) (Vp m d) ((dats m 0 d).arrAt · cfg0.N)
      (fun
        | 0 => ((dats m 0 d).arrAt_in 0 rfl _).trans (Vp_arg0 m d).symm
        | 1 => ((dats m 0 d).arrAt_in 1 rfl _).trans (Vp_arg1 m d).symm
        | 2 => (arrAt_num m d).trans (Vp_num m d).symm
        | 3 => (arrAt_den m d).trans (Vp_den m d).symm
        | ⟨_ + 4, h⟩ => absurd h (Nat.not_lt.2 (Nat.le_add_left _ _)))
      (fun b hb => by
        have h3 : b ≠ main_v0_1 := fun h => hb (h ▸ Finset.mem_image.mpr ⟨(3 : Fin 4), Finset.mem_univ _, rfl⟩)
        have h2 : b ≠ main_v0_0 := fun h => hb (h ▸ Finset.mem_image.mpr ⟨(2 : Fin 4), Finset.mem_univ _, rfl⟩)
        unfold Vp
        rw [Function.update_of_ne h3, Function.update_of_ne h2])
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; exact (wbelow_iff d W).mpr fun p hp => (bound_none m d _ p).mp (hW hp)
    iexact HO

/-- What the launch funds for the region: the staging cells' ghost state and the transfers' duty tokens. -/
def G (d : Dev nD) : sProp 𝕄 :=
  iprop(Pipeline.cellsGhost (Pipeline.pin (pcfgs (F := F)) adm) EP 0 d ∗ Pipeline.toksInit (Pipeline.pin (pcfgs (F := F)) adm) EP 0 d)

/-- What the region hands on. -/
def post (g : Dev nD → PrngReg) (P : (K (F := F)).Pay (nD := nD) (Val := Elt F) (Name := ℕ) (U := UU)) (d : Dev nD) : sProp 𝕄 :=
  iprop((K (F := F)).tcSt EH d 0 ∗ boundary (Td d) ∗ unscopedBufs d (Vp m d) ∗ (K (F := F)).tcSems0 d ∗ prngReg d (g d))

set_option backward.isDefEq.respectTransparency.types false in
theorem region_wp (g : Dev nD → PrngReg) (P : (K (F := F)).Pay (nD := nD) (Val := Elt F) (Name := ℕ) (U := UU)) (κ : GSem nD τ sig → ℕ) (d : Dev nD)
    (Φ : PUnit → sProp 𝕄) :
    iprop((K (F := F)).ctx EH P κ ∗ (K (F := F)).tcSt EH d 0 ∗ (K (F := F)).tcRes m g d ∗ G d ∗ (post m g P d -∗ Φ ⟨⟩))
      ⊢ wp frame (wpE ((K (F := F)).defs D) 𝒱 (Td d) none) Set.univ
          (Prog.lift (.customCall (SparseCore.inner (Pipeline.entry 0)) ())) Φ := by
  have hprog : (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) fun _ => .ret ⟨⟩) := rfl
  rw [hprog]
  refine BIBase.Entails.trans ?_ ((K (F := F)).wp_liftProg D 𝒱 (Td d) Set.univ none _ Φ)
  unfold post G SparseCore.Cfg.tcRes SparseCore.Cfg.tcSt
  iintro ⟨#Hctx, ⟨HO, Hst⟩, ⟨Hbd, Hub, Hs0, Hprng⟩, ⟨Hg, Htok⟩, Hk⟩
  have hpost : (reg m).post d = iprop(unscopedBufs d (Vp m d) ∗ Owes (F := F) d) := rfl
  have hpre : (reg m).pre d = iprop(unscopedBufs d (fun b => m ((Td d).loc b)) ∗ Owes (F := F) d) := rfl
  have key := Pipeline.RegionSeg.wp (pcfgs (F := F)) adm (dats m) none cellOf_inj EP defs₀ 𝒱₀ (K (F := F)).L (K (F := F)).lev (reg m) d none
    (fun _ h => nomatch h) (fun _ => .ret ⟨⟩) Φ
  rw [hpost, hpre] at key
  iapply key
  isplitl [Hk Hst Hs0 Hprng]
  · iintro ⟨Hbd, Hub, HO⟩
    rw [wp_ret]; imodintro; iapply Hk
    isplitl [HO Hst]
    · isplitl [HO]; · iexact HO
      iexact Hst
    isplitl [Hbd]; · iexact Hbd
    isplitl [Hub]; · iexact Hub
    isplitl [Hs0] <;> iassumption
  isplitl [Hbd]; · iexact Hbd
  isplitl [Hub HO]
  · isplitl [Hub]; · iexact Hub
    iexact HO
  isplitr
  · iapply (SparseCore.Cfg.ctx_levAts κ); iexact Hctx
  isplitl [Hg] <;> iassumption

end Cert.Kernel.Hand.Region

end
-- ==== Proof.HostK.lean ====
/-
  @main after the two kernel calls: thirteen host operations. The two scalars the TensorCore call left are reshaped to
  rank 0; the two planes of the tiles' 32 x 2 x 16 array (plane 0: lane sums of the masked errors, plane 1: lane counts of the
  mask) are sliced out, reshaped to 32 x 16 and summed over both axes from zero; each scalar is added to its plane's sum;
  the result is the quotient of the two.
-/
import proofs.«207045_g69415261438402_cont_9to1_m_695_13_alg».proof.Proof.CommonK

noncomputable section

namespace Cert.Kernel.Hand

open Cert.Kernel

open Idealize.ShloMosaic
open Idealize.ShloMosaic.SparseCore (S V T)
open Idealize.SL Idealize.SL.Sem
open Facts₀ Facts

variable {F : FTy → Type} [FloatOps F]

/-- The host operations after the SparseCore call, in order. -/
def tailOps : List (HloOp τ sig (Elt F)) :=
  [ StableHlo.reshape main_v0_0 main_v2 rfl shapeCasts_S1x1_S_,
    StableHlo.unary main_v1 main_v3 ((extractStridedSlice S32x1x16 ![0, 0, 0] · slices_S32x2x16_S32x1x16_0_0_0) : (⟨S32x2x16, .f32⟩ : BufTy).Contents (Elt F) → (⟨S32x1x16, .f32⟩ : BufTy).Contents (Elt F)),
    StableHlo.reshape main_v3 main_v4 rfl shapeCasts_S32x1x16_S32x16,
    StableHlo.nullary main_cst (constant S_ .f32 0x00000000#32),
    StableHlo.binary main_v4 main_cst main_v5 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.binary main_v2 main_v5 main_v6 (addf : (⟨S_, .f32⟩ : BufTy).Contents (Elt F) → (⟨S_, .f32⟩ : BufTy).Contents (Elt F) → (⟨S_, .f32⟩ : BufTy).Contents (Elt F)),
    StableHlo.reshape main_v0_1 main_v7 rfl shapeCasts_S1x1_S_,
    StableHlo.unary main_v1 main_v8 ((extractStridedSlice S32x1x16 ![0, 1, 0] · slices_S32x2x16_S32x1x16_0_1_0) : (⟨S32x2x16, .f32⟩ : BufTy).Contents (Elt F) → (⟨S32x1x16, .f32⟩ : BufTy).Contents (Elt F)),
    StableHlo.reshape main_v8 main_v9 rfl shapeCasts_S32x1x16_S32x16,
    StableHlo.nullary main_cst_0 (constant S_ .f32 0x00000000#32),
    StableHlo.binary main_v9 main_cst_0 main_v10 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.binary main_v7 main_v10 main_v11 (addf : (⟨S_, .f32⟩ : BufTy).Contents (Elt F) → (⟨S_, .f32⟩ : BufTy).Contents (Elt F) → (⟨S_, .f32⟩ : BufTy).Contents (Elt F)),
    StableHlo.binary main_v6 main_v11 main_v12 (Host.divf : (⟨S_, .f32⟩ : BufTy).Contents (Elt F) → (⟨S_, .f32⟩ : BufTy).Contents (Elt F) → (⟨S_, .f32⟩ : BufTy).Contents (Elt F)) ]

/-- @main is the TensorCore call, the SparseCore call, then that line of host operations. -/
theorem main_eq (d : Dev nD) :
    main (F := F) d
      = (Prog.lift (.customCall (SparseCore.inner (Pipeline.entry 0)) ()) >>= fun _ =>
          (sc (F := F)).run d 0 >>= fun _ => StableHlo.seq (tailOps (F := F)) >>= fun _ => pure ⟨⟩) := by
  rfl

/-- The loss as the host operations compute it from the two scalars `n`, `c` and the tiles' array `p`. -/
def lossOf (n c : FVec F S1x1 .f32) (p : FVec F S32x2x16 .f32) : FVec F S_ .f32 :=
  Host.divf
    (addf (shapeCast S_ n shapeCasts_S1x1_S_)
      (Host.reduceAdd (shapeCast S32x16 (extractStridedSlice S32x1x16 ![0, 0, 0] p slices_S32x2x16_S32x1x16_0_0_0) shapeCasts_S32x1x16_S32x16)
        (constant S_ .f32 0x00000000#32) reducesTo_S32x16_S_d0_1 h_S_))
    (addf (shapeCast S_ c shapeCasts_S1x1_S_)
      (Host.reduceAdd (shapeCast S32x16 (extractStridedSlice S32x1x16 ![0, 1, 0] p slices_S32x2x16_S32x1x16_0_1_0) shapeCasts_S32x1x16_S32x16)
        (constant S_ .f32 0x00000000#32) reducesTo_S32x16_S_d0_1 h_S_))

end Cert.Kernel.Hand

end
-- ==== Proof.LaunchK.lean ====
/-
  The launch of the whole program. The launch element funds the SparseCore handshakes and the TensorCore pipeline's staging
  cells; the tiles' own transfers need no schedule. @main on the TensorCore: the pipelined call leaves the two scalars; the
  SparseCore call is entered with the two arguments split into 32 read shares and the array of lane sums into its 32 rows, and
  gives them back joined, each row holding its tile's block; the host operations then compute the quotient. What is read off the
  final memory: the arguments unchanged, and the result the host operations' term of the two scalars and an array every row of
  which is its tile's block.
-/
import proofs.«207045_g69415261438402_cont_9to1_m_695_13_alg».proof.Proof.PayK
import proofs.«207045_g69415261438402_cont_9to1_m_695_13_alg».proof.Proof.RegionK
import proofs.«207045_g69415261438402_cont_9to1_m_695_13_alg».proof.Proof.HostK
import Idealize.ShloMosaic.Lib.Pipeline.Frame

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq)
open Idealize.ShloMosaic.Pipeline (ucRefs unscopedBufs_held)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch element -/

/-- The handshakes' rounds, the pipeline's staging cells' rounds with their launch tokens, no counter yet. -/
def u₀ : UU :=
  (initOf (K (F := F)).hsCells (K (F := F)).hsToks,
    (initOf (Pipeline.cells (Pipeline.pin (pcfgs (F := F)) Region.adm) cellOf_inj) (Pipeline.launchToks (Pipeline.pin (pcfgs (F := F)) Region.adm) cellOf_inj), 1))

omit [FloatOps F] in
theorem bigSep_emp' {I : Type} (s : Finset I) : (bigSep s fun _ => iprop(emp)) = (iprop(emp) : sProp 𝕄) := bigSep_emp_const s

omit [FloatOps F] in
/-- A family over the one pipeline is its one member. -/
theorem fin1_bigSep (X : Fin 1 → Dev nD → sProp 𝕄) :
    (bigSep Finset.univ fun c : Dev nD => bigSep Finset.univ fun p : Fin 1 => X p c) = bigSep Finset.univ fun c : Dev nD => X 0 c :=
  bigSep_congr fun c _ => bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => Region.G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb embR _ _) $$ HR
  icases HR' with ⟨HP, -⟩
  rw [show ((Emb.inl : Emb UP (UP × Counters)).trans embR : Emb UP (MT nD τ sig (HIx 1) (Elt F) ℕ UU ℕ)) = EP from rfl]
  imod (Pipeline.fund_ghost (Pipeline.pin (pcfgs (F := F)) Region.adm) EP cellOf_inj) $$ HP with ⟨Hc, Ht⟩
  imodintro
  isplitl [HH]; · iexact HH
  isplitl [Hc Ht]
  · unfold Region.G
    rw [bigSep_sep']
    isplitl [Hc]
    · ihave Hc' := (Entails.of_eq (fin1_bigSep (F := F) (fun p c => Pipeline.cellsGhost (Pipeline.pin (pcfgs (F := F)) Region.adm) EP p c))) $$ Hc
      iexact Hc'
    · ihave Ht' := (Entails.of_eq (fin1_bigSep (F := F) (fun p c => Pipeline.toksInit (Pipeline.pin (pcfgs (F := F)) Region.adm) EP p c))) $$ Ht
      iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The buffers after the TensorCore call, as a valuation -/

/-- The two arguments, the two scalars, the array of lane sums and the result, as device buffers. -/
abbrev a0' : DevRef τ sig := Proc.devRef .tc (main_arg0 : Ref sig .tc)
abbrev a1' : DevRef τ sig := Proc.devRef .tc (main_arg1 : Ref sig .tc)
abbrev n' : DevRef τ sig := Proc.devRef .tc (main_v0_0 : Ref sig .tc)
abbrev c' : DevRef τ sig := Proc.devRef .tc (main_v0_1 : Ref sig .tc)
abbrev p' : DevRef τ sig := Proc.devRef .tc (main_v1 : Ref sig .tc)
abbrev r' : DevRef τ sig := Proc.devRef .tc (main_v12 : Ref sig .tc)

/-- The TensorCore call's two scalars, of the launch contents. -/
abbrev nVal (d : Dev nD) : FVec F S1x1 .f32 := Region.tcNum (m (a0Loc d)) (m (a1Loc d))
abbrev cVal (d : Dev nD) : FVec F S1x1 .f32 := Region.tcDen (m (a1Loc d))

/-- The device's buffers after the TensorCore call: the launch contents but for the two scalars. -/
def W1 (d : Dev nD) : Valuation τ sig (Elt F) :=
  Function.update (Function.update (StableHlo.launchContents m d) n' (nVal m d)) c' (cVal m d)

/-- After the SparseCore call: the array of lane sums at `g` besides. -/
def W2 (d : Dev nD) (g : Buf (Elt F) (pLoc d)) : Valuation τ sig (Elt F) := Function.update (W1 m d) p' g

theorem W1_Vp (d : Dev nD) : (fun b : Ref sig .tc => W1 m d (Proc.devRef .tc b)) = Region.Vp m d := by
  funext b
  unfold W1 Region.Vp
  by_cases h1 : b = main_v0_1
  · subst h1; rw [Function.update_self, Function.update_self]
  · rw [Function.update_of_ne (fun e => h1 (Proc.devRef_injective _ e)), Function.update_of_ne h1]
    by_cases h0 : b = main_v0_0
    · subst h0; rw [Function.update_self, Function.update_self]
    · rw [Function.update_of_ne (fun e => h0 (Proc.devRef_injective _ e)), Function.update_of_ne h0]

theorem W1_a0 (d : Dev nD) : W1 m d a0' = m (a0Loc d) := by
  unfold W1; rw [Function.update_of_ne (by decide), Function.update_of_ne (by decide)]
theorem W1_a1 (d : Dev nD) : W1 m d a1' = m (a1Loc d) := by
  unfold W1; rw [Function.update_of_ne (by decide), Function.update_of_ne (by decide)]
theorem W1_n (d : Dev nD) : W1 m d n' = nVal m d := by
  unfold W1; rw [Function.update_of_ne (by decide), Function.update_self]
theorem W1_c (d : Dev nD) : W1 m d c' = cVal m d := by
  unfold W1; rw [Function.update_self]

/-! ## The host operations' buffers -/

theorem tail_sub : ∀ op ∈ (tailOps : List (HloOp τ sig (Elt F))), op.bufs ⊆ ucRefs τ sig := by
  intro op hop
  refine Pipeline.sub_ucRefs op ?_
  simp only [tailOps, List.mem_cons, List.mem_singleton, List.not_mem_nil, or_false] at hop
  rcases hop with rfl | rfl | rfl | rfl | rfl | rfl | rfl | rfl | rfl | rfl | rfl | rfl | rfl <;> simp

theorem tail_fresh : ∀ op ∈ (tailOps : List (HloOp τ sig (Elt F))), op.fresh = ∅ := by
  intro op hop
  simp only [tailOps, List.mem_cons, List.mem_singleton, List.not_mem_nil, or_false] at hop
  rcases hop with rfl | rfl | rfl | rfl | rfl | rfl | rfl | rfl | rfl | rfl | rfl | rfl | rfl <;> rfl

/-! ## The arrays of the SparseCore call, whole and dealt -/

/-- The three arrays the SparseCore call works on. -/
abbrev S3 : Finset (DevRef τ sig) := {a0', a1', p'}

omit [FloatOps F] in
theorem held_S3 (d : Dev nD) (W : Valuation τ sig (Elt F)) :
    (held (T d) S3 W : sProp 𝕄) = iprop((a0Loc d ↦{fullShare} W a0') ∗ (a1Loc d ↦{fullShare} W a1') ∗ pLoc d ↦{fullShare} W p') := by
  unfold held S3
  rw [SparseCore.bigSep_insert' (by decide), SparseCore.bigSep_insert' (by decide), bigSep_singleton]

theorem S3_sub : S3 ⊆ ucRefs τ sig := by decide

/-- Both SparseCores' parts are the 32 tiles' parts. -/
theorem st_eq (d : Dev nD) :
    (bigSep Finset.univ fun c : Fin ((K (F := F)).nCore 0) => (P m).st 0 d c) = bigSep Finset.univ fun w : Fin 32 => goW m d w := by
  rw [bigSep_tiles]; rfl
theorem dn_eq (d : Dev nD) :
    (bigSep Finset.univ fun c : Fin ((K (F := F)).nCore 0) => (P m).dn 0 d c) = bigSep Finset.univ fun w : Fin 32 => tdW m d w := by
  rw [bigSep_tiles]; rfl

omit [FloatOps F] in
theorem goW_all (d : Dev nD) : (bigSep Finset.univ fun w : Fin 32 => goW m d w)
    = iprop((bigSep Finset.univ fun w : Fin 32 => a0Loc d ↦{tshare w} m (a0Loc d)) ∗ (bigSep Finset.univ fun w : Fin 32 => a1Loc d ↦{tshare w} m (a1Loc d))
        ∗ bigSep Finset.univ fun w : Fin 32 => iprop(∃ f, pLoc d ↦[prowSet w]{fullShare} f)) := by
  unfold goW; rw [bigSep_sep', bigSep_sep']
theorem tdW_all (d : Dev nD) : (bigSep Finset.univ fun w : Fin 32 => tdW m d w)
    = iprop((bigSep Finset.univ fun w : Fin 32 => a0Loc d ↦{tshare w} m (a0Loc d)) ∗ (bigSep Finset.univ fun w : Fin 32 => a1Loc d ↦{tshare w} m (a1Loc d))
        ∗ bigSep Finset.univ fun w : Fin 32 => iprop(∃ f, ⌜RowVal m d w f⌝ ∗ pLoc d ↦[prowSet w]{fullShare} f)) := by
  unfold tdW; rw [bigSep_sep', bigSep_sep']

/-! ## The values at the end of the line of host operations -/

theorem W2_n (d : Dev nD) (g : Buf (Elt F) (pLoc d)) : W2 m d g n' = nVal m d := by
  unfold W2; rw [Function.update_of_ne (by decide), W1_n]
theorem W2_c (d : Dev nD) (g : Buf (Elt F) (pLoc d)) : W2 m d g c' = cVal m d := by
  unfold W2; rw [Function.update_of_ne (by decide), W1_c]
theorem W2_p (d : Dev nD) (g : Buf (Elt F) (pLoc d)) : W2 m d g p' = g := by
  unfold W2; rw [Function.update_self]
theorem W2_a0 (d : Dev nD) (g : Buf (Elt F) (pLoc d)) : W2 m d g a0' = m (a0Loc d) := by
  unfold W2; rw [Function.update_of_ne (by decide), W1_a0]
theorem W2_a1 (d : Dev nD) (g : Buf (Elt F) (pLoc d)) : W2 m d g a1' = m (a1Loc d) := by
  unfold W2; rw [Function.update_of_ne (by decide), W1_a1]

/-- The result buffer after the host operations holds the loss of the two scalars and the array of lane sums. -/
theorem after_r (d : Dev nD) (g : Buf (Elt F) (pLoc d)) :
    StableHlo.after (tailOps (F := F)) (W2 m d g) r' = lossOf (nVal m d) (cVal m d) g := by
  unfold tailOps lossOf
  after_results
  rw [W2_n, W2_c, W2_p]
  rfl

/-- No host operation writes an argument. -/
theorem after_a0 (d : Dev nD) (g : Buf (Elt F) (pLoc d)) : StableHlo.after (tailOps (F := F)) (W2 m d g) a0' = m (a0Loc d) := by
  unfold tailOps
  after_results
  exact W2_a0 m d g
theorem after_a1 (d : Dev nD) (g : Buf (Elt F) (pLoc d)) : StableHlo.after (tailOps (F := F)) (W2 m d g) a1' = m (a1Loc d) := by
  unfold tailOps
  after_results
  exact W2_a1 m d g

/-! ## @main on the TensorCore -/

/-- The three buffers read off the final memory. -/
abbrev S3r : Finset (DevRef τ sig) := {a0', a1', r'}
omit [FloatOps F] in
theorem held_S3r (d : Dev nD) (W : Valuation τ sig (Elt F)) :
    (held (T d) S3r W : sProp 𝕄) = iprop((a0Loc d ↦{fullShare} W a0') ∗ (a1Loc d ↦{fullShare} W a1') ∗ rLoc d ↦{fullShare} W r') := by
  unfold held S3r
  rw [SparseCore.bigSep_insert' (by decide), SparseCore.bigSep_insert' (by decide), bigSep_singleton]
theorem S3r_sub : S3r ⊆ ucRefs τ sig := by decide

/-- Outside the call's three arrays nothing changed over the call. -/
theorem held_rest_W2 (d : Dev nD) (g : Buf (Elt F) (pLoc d)) :
    (held (T d) (ucRefs τ sig \ S3) (W2 m d g) : sProp 𝕄) = held (T d) (ucRefs τ sig \ S3) (W1 m d) :=
  held_congr (T d) fun b hb => Function.update_of_ne (fun e => (Finset.mem_sdiff.mp hb).2 (by subst e; decide)) _ _

/-- What @main leaves: the arguments at their launch contents, the result at the loss of the two scalars and an array
    whose every row is its tile's block. -/
def FIN (d : Dev nD) : sProp 𝕄 :=
  iprop(∃ g, ⌜PHolds m d g⌝ ∗ (a0Loc d ↦{fullShare} m (a0Loc d)) ∗ (a1Loc d ↦{fullShare} m (a1Loc d))
    ∗ rLoc d ↦{fullShare} (lossOf (nVal m d) (cVal m d) g : Buf (Elt F) (rLoc d)))

omit [FloatOps F] in
/-- Rows at known contents are rows at some contents. -/
theorem rows_any (d : Dev nD) (f : Buf (Elt F) (pLoc d)) :
    (bigSep Finset.univ fun w : Fin 32 => pLoc d ↦[prowSet w]{fullShare} f)
      ⊢ (bigSep Finset.univ fun w : Fin 32 => iprop(∃ f, pLoc d ↦[prowSet w]{fullShare} f) : sProp 𝕄) :=
  bigSep_mono fun w _ => (show (pLoc d ↦[prowSet w]{fullShare} f : sProp 𝕄) ⊢ iprop(∃ f, pLoc d ↦[prowSet w]{fullShare} f) from by
    iintro H; iexists _; iexact H)

set_option maxHeartbeats 1600000 in
set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ Region.G (F := F) d)
      ⊢ wp frame (wpE ((K (F := F)).defs (D (F := F))) 𝒱 (SparseCore.T d) none) Set.univ (main d)
          fun _ => iprop((K (F := F)).tcSt EH d 1 ∗ FIN m d) := by
  rw [main_eq, wp_bind]
  iintro ⟨#Hctx, Hst, Hres, HG⟩
  iapply (Region.region_wp m ρ (P m) κ d _) $$ [Hst Hres HG]
  isplitr; · iexact Hctx
  isplitl [Hst]; · iexact Hst
  isplitl [Hres]; · iexact Hres
  isplitl [HG]; · iexact HG
  unfold Region.post
  iintro ⟨Hst, Hb, Hub, -, -⟩
  -- the unscoped buffers as a held set, the call's three arrays out of it
  ihave Hheld := (Entails.of_eq (show (unscopedBufs d (Region.Vp m d) : sProp 𝕄) = held (T d) (ucRefs τ sig) (W1 m d) from by
    rw [← W1_Vp m d]; exact unscopedBufs_held d (W1 m d))) $$ Hub
  ihave Hh := (Entails.of_eq (held_sub_split (T d) S3_sub (W1 m d))) $$ Hheld
  icases Hh with ⟨H3, Hrest⟩
  ihave H3' := (Entails.of_eq (held_S3 (F := F) d (W1 m d))) $$ H3
  rw [W1_a0, W1_a1]
  icases H3' with ⟨Ha0, Ha1, Hp⟩
  ihave Ha0' := (arg_split (F := F) (a0Loc d) (m (a0Loc d))).1 $$ Ha0
  icases Ha0' with ⟨Hd0, Ht0⟩
  ihave Ha1' := (arg_split (F := F) (a1Loc d) (m (a1Loc d))).1 $$ Ha1
  icases Ha1' with ⟨Hd1, Ht1⟩
  ihave Hp' := (Entails.of_eq (pPts_rows (F := F) d (W1 m d p'))) $$ Hp
  -- the SparseCore call
  rw [wp_bind]
  iapply ((K (F := F)).wp_run (D (F := F)) 𝒱 (EH := EH) (P := P m) κ d 0) $$ [Hst Ht0 Ht1 Hp' Hb Hrest Hd0 Hd1]
  isplitr; · iexact Hctx
  isplitl [Hst]; · iexact Hst
  isplitl [Ht0 Ht1 Hp']
  · rw [st_eq, goW_all]
    isplitl [Ht0]; · iexact Ht0
    isplitl [Ht1]; · iexact Ht1
    iapply (rows_any (F := F) d (W1 m d p'))
    iexact Hp'
  iintro ⟨Hst, Hdn⟩
  ihave Hdn' := (Entails.of_eq ((dn_eq m d).trans (tdW_all m d))) $$ Hdn
  icases Hdn' with ⟨Ht0, Ht1, Hrows⟩
  ihave Hj := (rows_join m d) $$ Hrows
  icases Hj with ⟨%g, %hg, Hp⟩
  ihave Ha0 := (arg_split (F := F) (a0Loc d) (m (a0Loc d))).2 $$ [Hd0 Ht0]
  · isplitl [Hd0] <;> iassumption
  ihave Ha1 := (arg_split (F := F) (a1Loc d) (m (a1Loc d))).2 $$ [Hd1 Ht1]
  · isplitl [Hd1] <;> iassumption
  -- the buffers held again, the array of lane sums at `g`
  ihave Hheld := (Entails.of_eq (show iprop(held (T d) S3 (W2 m d g) ∗ held (T d) (ucRefs τ sig \ S3) (W1 m d)) = (held (T d) (ucRefs τ sig) (W2 m d g) : sProp 𝕄) from by
    rw [held_sub_split (T d) S3_sub (W2 m d g), held_rest_W2 m d g])) $$ [Ha0 Ha1 Hp Hrest]
  · isplitl [Ha0 Ha1 Hp]
    · rw [held_S3, W2_a0, W2_a1, W2_p]
      isplitl [Ha0]; · iexact Ha0
      isplitl [Ha1]; · iexact Ha1
      iexact Hp
    · iexact Hrest
  -- the host operations
  iapply (wp_seq 𝒱 none Set.univ d (ucRefs τ sig) (fun _ => pure ⟨⟩) (tailOps (F := F)) tail_sub tail_fresh (W2 m d g)) $$ [Hb Hheld]
  · isplitl [Hb] <;> iassumption
  iintro ⟨Hb, Hheld⟩
  ihave Hh := (Entails.of_eq (held_sub_split (T d) S3r_sub (StableHlo.after (tailOps (F := F)) (W2 m d g)))) $$ Hheld
  icases Hh with ⟨H3, -⟩
  ihave H3' := (Entails.of_eq (held_S3r (F := F) d _)) $$ H3
  rw [after_a0, after_a1, after_r]
  icases H3' with ⟨Ha0, Ha1, Hr⟩
  rw [wp_pure]
  imodintro
  isplitl [Hst]; · iexact Hst
  unfold FIN
  iexists g
  isplitr; · ipureintro; exact hg
  isplitl [Ha0]; · iexact Ha0
  isplitl [Ha1]; · iexact Ha1
  iexact Hr

/-! ## The final memory -/

def fq (d : Dev nD) (s' : Phys nD τ sig (Elt F)) : Prop :=
  (∃ g, PHolds m d g ∧ s'.mem.mem (rLoc d) = lossOf (nVal m d) (cVal m d) g) ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  unfold FIN
  iintro ⟨⟨%g, %hg, Ha0, Ha1, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := rLoc d) (I := Finset.univ) (q := fullShare) (f := (lossOf (nVal m d) (cVal m d) g : Buf (Elt F) (rLoc d)))) $$ [HSI Hr]
  · isplitl [HSI] <;> iassumption
  icases H with %h2
  ipureintro
  exact ⟨⟨g, hg, funext fun i => h2 i (Finset.mem_univ i)⟩, funext fun i => h0 i (Finset.mem_univ i), funext fun i => h1 i (Finset.mem_univ i)⟩

/-! ## The program's run -/

/-- Every final memory: the result is the loss of the TensorCore's two scalars and an array whose rows are the tiles' blocks;
    the arguments are unchanged. -/
def QC : PUnit × MemSt nD τ sig (Elt F) → Prop := fun r => ∀ c : Dev nD,
  (∃ g, PHolds m c g ∧ r.2.mem (rLoc c) = lossOf (nVal m c) (cVal m c) g) ∧ r.2.mem (a0Loc c) = m (a0Loc c) ∧ r.2.mem (a1Loc c) = m (a1Loc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (fun d => Region.G (F := F) d) (FIN m) (u₀ (F := F)) (sep_elim_left.trans (hu₀ m)) (hmain m ρ) (fq m) (hfin m) (QC m) (fun _ h => h)

end Cert.Kernel.Hand

end
-- ==== Proof.HostValue.lean ====
/-
  The host operations' result read at the ideal values: the quotient of (the TensorCore's error sum plus the sum over the
  32 x 16 entries of plane 0 of the tiles' array) by (the TensorCore's count plus the sum over plane 1). A slice of one plane
  followed by the reshape to 32 x 16 reads entry (w, l) of that plane; a host sum over every axis is the initial value plus the
  sum of all entries.
-/
import proofs.«207045_g69415261438402_cont_9to1_m_695_13_alg».proof.Proof.Host
import Idealize.ShloMosaic.Lib.ValueIdx
import Idealize.ShloMosaic.Lib.Pipeline.Value
import Idealize.ShloMosaic.PureOps.Ideal.Laws

noncomputable section

namespace Cert.KernelIdeal.Hand

open Cert.KernelIdeal
open Idealize.ShloMosaic Idealize.ShloMosaic.ValueIdx
open Facts₀ Facts

/-- Plane `q` of the tiles' array, sliced out and reshaped to 32 x 16, read at (w, l). -/
theorem plane_apply (q : Fin 2) (off : Fin 3 → Nat) (hoff : off = ![0, q.val, 0]) (h : S32x2x16.Slices off S32x1x16)
    (p : FVec Ideal S32x2x16 .f32) (w : Fin 32) (l : Fin 16) :
    shapeCast S32x16 (extractStridedSlice S32x1x16 off p h) shapeCasts_S32x1x16_S32x16 (ix2 w l) = p (ix3 w q l) := by
  subst hoff
  rw [shapeCast_apply _ shapeCasts_S32x1x16_S32x16 (ix2 w l) (ix3 w (0 : Fin 1) l) (by
    rw [Shape.rowMajor_val_three, Shape.rowMajor_val_two]; simp [ix3, ix2]),
    extractStridedSlice_apply _ p h (ix3 w (0 : Fin 1) l) (ix3 w q l) (by
      intro a; fin_cases a <;> simp [ix3])]

theorem lossOf_ideal (n c : FVec Ideal S1x1 .f32) (p : FVec Ideal S32x2x16 .f32) (i : S_.Idx) :
    lossOf n c p i
      = Ideal.div (n (ix2 0 0) + (0 + ∑ w : Fin 32, ∑ l : Fin 16, p (ix3 w 0 l)))
          (c (ix2 0 0) + (0 + ∑ w : Fin 32, ∑ l : Fin 16, p (ix3 w 1 l))) := by
  unfold lossOf
  show FloatOps.hostDivf _ _ = _
  rw [Ideal.hostDivf_def, addf_apply, addf_apply]
  simp only [Host.reduceAdd, Ideal.hostReduceAdd_def]
  rw [Ideal.hostReduceAdd_total reducesTo_S32x16_S_d0_1 (fun b => b.elim0), Ideal.hostReduceAdd_total reducesTo_S32x16_S_d0_1 (fun b => b.elim0),
    sum_idx2, sum_idx2]
  simp only [plane_apply 0 ![0, 0, 0] rfl, plane_apply 1 ![0, 1, 0] rfl, constant_apply, Ideal.ofBits_zero_f32]
  have hk : (S1x1.rowMajor (ix2 (0 : Fin 1) (0 : Fin 1))).val = (S_.rowMajor i).val := by
    have h1 := (S_.rowMajor i).isLt
    have h2 : S_.numel = 1 := rfl
    rw [Shape.rowMajor_val_two]; simp [ix2]; omega
  rw [shapeCast_apply n shapeCasts_S1x1_S_ i (ix2 0 0) hk, shapeCast_apply c shapeCasts_S1x1_S_ i (ix2 0 0) hk]

end Cert.KernelIdeal.Hand

end
-- ==== Proof.RefSide.lean ====
/-
  The reference side. The reference computes, from the arrays `outputs` (X) and `target` (T), the masked error
  `where (T > 0) |T - X| 0` and the mask as a float, `convert (T > 0)`, sums each over all 8 x 512 x 512 elements, and
  divides. Read on the extended reals, element by element the first is `Spec.e1 (T i) (X i)` and the second is
  `Spec.p1 (T i)` (a one-bit word converted to a float is one where the bit is set and zero elsewhere, which is what
  `where mask 1 0` selects), and a sum over all indices of a rank-3 array is the triple sum over its coordinates.
  So the reference's result is the quotient `G X T` of the two triple sums.
-/
import proofs.«207045_g69415261438402_cont_9to1_m_695_13_alg».proof.Defs
import proofs.«207045_g69415261438402_cont_9to1_m_695_13_alg».proof.Proof.Gen.ReferenceIdeal
import proofs.«207045_g69415261438402_cont_9to1_m_695_13_alg».proof.Proof.Gen.ReferenceIdeal.Read
import proofs.«207045_g69415261438402_cont_9to1_m_695_13_alg».proof.Proof.Gen.Pre_finite_inputs
import proofs.«207045_g69415261438402_cont_9to1_m_695_13_alg».proof.Proof.Spec
import Idealize.ShloMosaic.Lib.ValueIdx
import Idealize.ShloMosaic.Lib.IdealHost

noncomputable section

namespace Cert.RefSide

open Idealize.ShloMosaic Idealize.ShloMosaic.TcCoe Idealize.SL.Sem Idealize.ShloMosaic.ValueIdx
open Cert.ReferenceIdeal Cert.ReferenceIdeal.Gen

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The loss as one function of the two arrays: the sum of the masked errors over the sum of the mask's indicators,
    each a triple sum over batch, row and column, held in a scalar buffer. -/
def G (X T : FVec Ideal ⟨3, ![8, 512, 512]⟩ .f32) : FVec Ideal ⟨0, ![]⟩ .f32 := fun _ =>
  Ideal.div (∑ b : Fin 8, ∑ r : Fin 512, ∑ c : Fin 512, Spec.e1 (F := Ideal) (T (ix3 b r c)) (X (ix3 b r c)))
    (∑ b : Fin 8, ∑ r : Fin 512, ∑ c : Fin 512, Spec.p1 (F := Ideal) (T (ix3 b r c)))

/-- The reference runs, and leaves its arguments as they were: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Element by element, the reference's masked error `where (T > 0) |T - X| 0` is `Spec.e1`: the host's absolute value is
    the kernel's on the extended reals. -/
theorem masked_error_apply (X T : (⟨S8x512x512, .f32⟩ : BufTy).Contents (Elt Ideal)) (j : S8x512x512.Idx) :
    Read.val_main_v4 (F := Ideal) X T j = Spec.e1 (F := Ideal) (T j) (X j) := by
  rw [Read.val_main_v4_apply, Read.val_main_v1_apply, Read.val_main_v3_apply, Read.val_main_v2_apply,
    Read.val_main_v0_apply, Read.val_main_call0_v1_apply, Read.val_main_call0_v0_apply, Read.val_main_cst_apply,
    Read.val_main_cst_0_apply]
  rfl

/-- A one-bit word converted to a float is one where the bit is set and zero elsewhere. -/
theorem uitofp_bit (b : BitVec 1) :
    FloatOps.uitofp (F := Ideal) .f32 b = Scalar.select b (Spec.one (F := Ideal)) (Spec.zero (F := Ideal)) := by
  by_cases hb : b = 1#1
  · subst hb
    rw [select_one]
    show (((1#1 : BitVec 1).toNat : ℝ) : EReal) = Ideal.ofBits .f32 0x3F800000#32
    rw [Ideal.ofBits_one_f32]
    simp
  · have h0 := eq_zero_of_ne_one hb
    subst h0
    rw [select_zero]
    show (((0#1 : BitVec 1).toNat : ℝ) : EReal) = Ideal.ofBits .f32 0x00000000#32
    rw [Ideal.ofBits_zero_f32]
    simp

/-- Element by element, the mask as a float, `convert (T > 0)`, is `Spec.p1`. -/
theorem indicator_apply (T : (⟨S8x512x512, .f32⟩ : BufTy).Contents (Elt Ideal)) (j : S8x512x512.Idx) :
    Read.val_main_v5 (F := Ideal) T j = Spec.p1 (F := Ideal) (T j) := by
  rw [Read.val_main_v5_apply, Read.val_main_v1_apply, Read.val_main_v0_apply, Read.val_main_cst_apply]
  exact uitofp_bit _

/-- The reference's result, as the last stage of its operations, is the quotient of the two triple sums. -/
theorem ref_eq (X T : (⟨S8x512x512, .f32⟩ : BufTy).Contents (Elt Ideal)) :
    Read.val_main_v8 (F := Ideal) X T = G X T := by
  funext i
  rw [Read.val_main_v8_apply, Read.val_main_v7_apply, Read.val_main_v6_apply, Read.val_main_cst_2_apply,
    Read.val_main_cst_1_apply]
  simp only [Ideal.hostDivf_def, Ideal.ofBits_def, Ideal.ofBits_zero_f32, zero_add]
  rw [sum_idx3, sum_idx3]
  simp only [masked_error_apply, indicator_apply]
  rfl

/-- The reference's run, with its result named by `G`: every weakly fair execution terminates with the result buffer at
    `G` of the argument arrays as launched, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8)
          = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((Read.val_main_v8_eq _ _).trans (ref_eq _ _)), (h c).2⟩)
    (Cert.ReferenceIdeal.Value.run (F := Ideal) m ρ)

end Cert.RefSide

end
-- ==== Proof.SumSplit.lean ====
/-
  A re-indexing identity for sums over an 8 x 512 x 512 box.

  The box is cut into the rows 0..383 of every batch, and the rows 384..511. The second part is cut into 32 slabs
  of 32 rows: slab `w` is batch `w / 4`, rows `384 + (w % 4) * 32 .. + 32`. A slab's 32 x 512 = 16384 entries, in
  row-major order, are visited as offsets `32 * k + 16 * u + l` with `k < 512`, `u < 2`, `l < 16`: for each lane `l`
  two interleaved partial sums over `k` (one for `u = 0`, one for `u = 1`). The identity says that the first part plus
  all these partial sums is the sum over the whole box. It holds in any additive commutative monoid.
-/
import Mathlib.Algebra.BigOperators.Fin
import Mathlib.Algebra.BigOperators.Intervals

namespace Cert.SumSplit

open Finset

variable {M : Type*} [AddCommMonoid M]

/-- A sum over `range (m * n)` is a double sum: `j = i * n + k` with `i < m`, `k < n`. -/
theorem sum_range_mul (g : ℕ → M) (m n : ℕ) :
    ∑ j ∈ range (m * n), g j = ∑ i ∈ range m, ∑ k ∈ range n, g (i * n + k) := by
  induction m with
  | zero => simp
  | succ m ih => rw [add_one_mul, sum_range_add, ih, sum_range_succ]

/-- The same, for a summand given through quotient and remainder of the index. -/
theorem sum_range_mul_divmod (H : ℕ → ℕ → M) (m n : ℕ) :
    ∑ j ∈ range (m * n), H (j / n) (j % n) = ∑ i ∈ range m, ∑ k ∈ range n, H i k := by
  rw [sum_range_mul]
  refine sum_congr rfl fun i _ => sum_congr rfl fun k hk => ?_
  have hk := mem_range.mp hk
  have hn : 0 < n := by omega
  rw [Nat.add_comm (i * n) k, Nat.add_mul_div_right _ _ hn, Nat.add_mul_mod_self_right,
    Nat.div_eq_of_lt hk, Nat.mod_eq_of_lt hk, Nat.zero_add]

/-- Sixteen lanes, each with two interleaved partial sums over 512 steps of stride 32, cover `range (512 * 32)`. -/
theorem sum_interleave (g : ℕ → M) :
    ∑ l ∈ range 16, ((∑ k ∈ range 512, g (32 * k + l)) + ∑ k ∈ range 512, g (32 * k + 16 + l))
      = ∑ j ∈ range (512 * 32), g j := by
  simp only [← sum_add_distrib]
  rw [sum_comm, sum_range_mul g 512 32]
  refine sum_congr rfl fun k _ => ?_
  rw [sum_add_distrib]
  have h := sum_range_add (fun m => g (k * 32 + m)) 16 16
  rw [show (16 + 16 : ℕ) = 32 from rfl] at h
  rw [h]
  congr 1 <;> exact sum_congr rfl fun l _ => congrArg g (by omega)

/-- The identity for a summand defined on all natural numbers. -/
theorem sum_split_nat (G : ℕ → ℕ → ℕ → M) :
    (∑ b ∈ range 8, ∑ r ∈ range 384, ∑ c ∈ range 512, G b r c)
      + ∑ w ∈ range 32, ∑ l ∈ range 16,
          ((∑ k ∈ range 512, G (w / 4) (384 + w % 4 * 32 + (32 * k + l) / 512) ((32 * k + l) % 512))
            + ∑ k ∈ range 512,
                G (w / 4) (384 + w % 4 * 32 + (32 * k + 16 + l) / 512) ((32 * k + 16 + l) % 512))
      = ∑ b ∈ range 8, ∑ r ∈ range 512, ∑ c ∈ range 512, G b r c := by
  -- the slabs: lanes and steps to flat offsets, flat offsets to (row, column)
  have slab : ∀ w : ℕ,
      ∑ l ∈ range 16,
          ((∑ k ∈ range 512, G (w / 4) (384 + w % 4 * 32 + (32 * k + l) / 512) ((32 * k + l) % 512))
            + ∑ k ∈ range 512,
                G (w / 4) (384 + w % 4 * 32 + (32 * k + 16 + l) / 512) ((32 * k + 16 + l) % 512))
        = ∑ r ∈ range 32, ∑ c ∈ range 512, G (w / 4) (384 + w % 4 * 32 + r) c := by
    intro w
    rw [sum_interleave (fun j => G (w / 4) (384 + w % 4 * 32 + j / 512) (j % 512)),
      show (512 * 32 : ℕ) = 32 * 512 from rfl,
      sum_range_mul_divmod (fun r c => G (w / 4) (384 + w % 4 * 32 + r) c) 32 512]
  -- the 32 slabs are 8 batches times 4 quarters; the 4 quarters of 32 rows are the rows 384..511
  have tiles : ∑ w ∈ range 32, ∑ r ∈ range 32, ∑ c ∈ range 512, G (w / 4) (384 + w % 4 * 32 + r) c
      = ∑ b ∈ range 8, ∑ r ∈ range 128, ∑ c ∈ range 512, G b (384 + r) c := by
    rw [show (32 : ℕ) = 8 * 4 from rfl,
      sum_range_mul_divmod (fun b q => ∑ r ∈ range (8 * 4), ∑ c ∈ range 512, G b (384 + q * (8 * 4) + r) c) 8 4]
    refine sum_congr rfl fun b _ => ?_
    rw [show (128 : ℕ) = 4 * (8 * 4) from rfl, sum_range_mul (fun r => ∑ c ∈ range 512, G b (384 + r) c) 4 (8 * 4)]
    refine sum_congr rfl fun q _ => sum_congr rfl fun r _ => ?_
    rw [Nat.add_assoc]
  simp only [slab]
  rw [tiles]
  have rows : ∀ b : ℕ, ∑ r ∈ range 512, ∑ c ∈ range 512, G b r c
      = ∑ r ∈ range 384, ∑ c ∈ range 512, G b r c + ∑ r ∈ range 128, ∑ c ∈ range 512, G b (384 + r) c := by
    intro b
    rw [show (512 : ℕ) = 384 + 128 from rfl, sum_range_add]
  simp only [rows, sum_add_distrib]

/-- A function on the box, extended to all natural numbers (indices taken modulo the extents). -/
private def ext3 (f : Fin 8 → Fin 512 → Fin 512 → M) (a b c : ℕ) : M :=
  f ⟨a % 8, Nat.mod_lt _ (by omega)⟩ ⟨b % 512, Nat.mod_lt _ (by omega)⟩ ⟨c % 512, Nat.mod_lt _ (by omega)⟩

private theorem ext3_eq (f : Fin 8 → Fin 512 → Fin 512 → M) (a b c : ℕ) (ha : a < 8) (hb : b < 512) (hc : c < 512) :
    ext3 f a b c = f ⟨a, ha⟩ ⟨b, hb⟩ ⟨c, hc⟩ := by
  simp only [ext3, Nat.mod_eq_of_lt ha, Nat.mod_eq_of_lt hb, Nat.mod_eq_of_lt hc]

/-- **The re-indexing identity.** The rows 0..383 of every batch, plus, over the 32 slabs `w` (batch `w / 4`, rows
    `384 + (w % 4) * 32 ..`) and the 16 lanes `l`, the two interleaved partial sums over the 512 steps `k`
    (flat offsets `32 * k + l` and `32 * k + 16 + l` into the slab's 32 x 512 entries), is the sum over the whole box. -/
theorem sum_split (f : Fin 8 → Fin 512 → Fin 512 → M) :
    (∑ b : Fin 8, ∑ r : Fin 384, ∑ c : Fin 512, f b ⟨r.val, by omega⟩ c)
      + ∑ w : Fin 32, ∑ l : Fin 16,
          ((∑ k : Fin 512, f ⟨w.val / 4, by omega⟩ ⟨384 + w.val % 4 * 32 + (32 * k.val + l.val) / 512, by omega⟩
              ⟨(32 * k.val + l.val) % 512, by omega⟩)
            + ∑ k : Fin 512, f ⟨w.val / 4, by omega⟩ ⟨384 + w.val % 4 * 32 + (32 * k.val + 16 + l.val) / 512, by omega⟩
              ⟨(32 * k.val + 16 + l.val) % 512, by omega⟩)
      = ∑ b : Fin 8, ∑ r : Fin 512, ∑ c : Fin 512, f b r c := by
  have h := sum_split_nat (ext3 f)
  simp only [sum_range] at h
  have e : ∀ (b : Fin 8) (r c : Fin 512), f b r c = ext3 f b.val r.val c.val :=
    fun b r c => (ext3_eq f _ _ _ b.isLt r.isLt c.isLt).symm
  simp only [e]
  exact h

end Cert.SumSplit
-- ==== Proof.Value.lean ====
/-
  The loss the kernel's host operations compute is the reference's. Given that the TensorCore's two scalars are the sums of
  the masked errors and of the mask's indicators over the rows 0..383 of every batch, and that entry (w, q, l) of the tiles'
  array is lane l's two interleaved partial sums over slab w (q = 0: masked errors, q = 1: indicators), the quotient the host
  forms, (scalar + sum of plane 0) / (scalar + sum of plane 1), is the quotient of the two sums over the whole 8 x 512 x 512 box:
  numerator and denominator are each an instance of the re-indexing identity `SumSplit.sum_split`, which uses only
  commutativity and associativity of addition on the extended reals.
-/
import proofs.«207045_g69415261438402_cont_9to1_m_695_13_alg».proof.Proof.HostValue
import proofs.«207045_g69415261438402_cont_9to1_m_695_13_alg».proof.Proof.RefSide
import proofs.«207045_g69415261438402_cont_9to1_m_695_13_alg».proof.Proof.SumSplit
import proofs.«207045_g69415261438402_cont_9to1_m_695_13_alg».proof.Proof.Spec

noncomputable section

namespace Cert.KernelIdeal.Hand

open Cert.KernelIdeal
open Idealize.ShloMosaic Idealize.ShloMosaic.ValueIdx

theorem loss_eq (X T : FVec Ideal S8x512x512 .f32) (n c : FVec Ideal S1x1 .f32) (p : FVec Ideal S32x2x16 .f32)
    (hn : n (ix2 0 0) = ∑ b : Fin 8, ∑ r : Fin 384, ∑ j : Fin 512,
      Spec.e1 (F := Ideal) (T (ix3 b (⟨r.val, by omega⟩ : Fin 512) j)) (X (ix3 b (⟨r.val, by omega⟩ : Fin 512) j)))
    (hc : c (ix2 0 0) = ∑ b : Fin 8, ∑ r : Fin 384, ∑ j : Fin 512,
      Spec.p1 (F := Ideal) (T (ix3 b (⟨r.val, by omega⟩ : Fin 512) j)))
    (hp0 : ∀ (w : Fin 32) (l : Fin 16), p (ix3 w 0 l)
      = (∑ k : Fin 512, Spec.e1 (F := Ideal) (T (ix3 (⟨w.val / 4, by omega⟩ : Fin 8) (⟨384 + w.val % 4 * 32 + (32 * k.val + l.val) / 512, by omega⟩ : Fin 512) (⟨(32 * k.val + l.val) % 512, by omega⟩ : Fin 512))) (X (ix3 (⟨w.val / 4, by omega⟩ : Fin 8) (⟨384 + w.val % 4 * 32 + (32 * k.val + l.val) / 512, by omega⟩ : Fin 512) (⟨(32 * k.val + l.val) % 512, by omega⟩ : Fin 512))))
        + ∑ k : Fin 512, Spec.e1 (F := Ideal) (T (ix3 (⟨w.val / 4, by omega⟩ : Fin 8) (⟨384 + w.val % 4 * 32 + (32 * k.val + 16 + l.val) / 512, by omega⟩ : Fin 512) (⟨(32 * k.val + 16 + l.val) % 512, by omega⟩ : Fin 512))) (X (ix3 (⟨w.val / 4, by omega⟩ : Fin 8) (⟨384 + w.val % 4 * 32 + (32 * k.val + 16 + l.val) / 512, by omega⟩ : Fin 512) (⟨(32 * k.val + 16 + l.val) % 512, by omega⟩ : Fin 512))))
    (hp1 : ∀ (w : Fin 32) (l : Fin 16), p (ix3 w 1 l)
      = (∑ k : Fin 512, Spec.p1 (F := Ideal) (T (ix3 (⟨w.val / 4, by omega⟩ : Fin 8) (⟨384 + w.val % 4 * 32 + (32 * k.val + l.val) / 512, by omega⟩ : Fin 512) (⟨(32 * k.val + l.val) % 512, by omega⟩ : Fin 512))))
        + ∑ k : Fin 512, Spec.p1 (F := Ideal) (T (ix3 (⟨w.val / 4, by omega⟩ : Fin 8) (⟨384 + w.val % 4 * 32 + (32 * k.val + 16 + l.val) / 512, by omega⟩ : Fin 512) (⟨(32 * k.val + 16 + l.val) % 512, by omega⟩ : Fin 512)))) :
    lossOf n c p = Cert.RefSide.G X T := by
  funext i
  rw [lossOf_ideal, hn, hc]
  simp only [zero_add, hp0, hp1]
  exact congrArg₂ Ideal.div
    (Cert.SumSplit.sum_split (M := EReal) fun b r j => Spec.e1 (F := Ideal) (T (ix3 b r j)) (X (ix3 b r j)))
    (Cert.SumSplit.sum_split (M := EReal) fun b r j => Spec.p1 (F := Ideal) (T (ix3 b r j)))

end Cert.KernelIdeal.Hand

end
-- ==== Proof.TileValue.lean ====
/-
  What one tile leaves in its row of the lane sums, read on the extended reals. The tile's two slabs are the 32 x 512 rows
  `384 + (w % 4) * 32 ..` of batch `w / 4` of the two arguments (`w` the tile's number); trip `k` of its loop reads the
  sixteen-lane pieces at flat offsets `32 * k` and `32 * k + 16` of the slabs (row `offset / 512`, column `offset % 512`), and
  adds, lane by lane, the masked error and the mask's indicator of the first piece to the first pair of accumulators, of the
  second piece to the second pair. By induction on the trips, lane `l` of an accumulator before trip `n` is the sum over
  `k < n` of the scalar function at offset `32 * k + l` (or `32 * k + 16 + l`); the block the tile writes adds the pairs.
-/
import proofs.«207045_g69415261438402_cont_9to1_m_695_13_alg».proof.Proof.Tile
import proofs.«207045_g69415261438402_cont_9to1_m_695_13_alg».proof.Proof.Spec
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx
open Finset (range)

variable {F : FTy → Type} [FloatOps F]

/-! ## The offsets in closed form -/

theorem trips_eq : k1_t1_loop.trips = 512 := by decide

/-- A tile's number is below 32. -/
theorem wid_lt_32 (L : grid1.Coords) : wid L < 32 := by
  have h0 : (L 0).val < 2 := (L 0).isLt
  have h1 : (L 1).val < 16 := (L 1).isLt
  show 2 * (L 1).val + (L 0).val < 32
  omega

/-- The slabs' offsets: batch `w / 4`, first row `384 + (w % 4) * 32`, column 0. -/
theorem off1_eq : ∀ L : grid1.Coords, k1_off1 L = ![(2 * (L 1).val + (L 0).val) / 4, 384 + (2 * (L 1).val + (L 0).val) % 4 * 32, 0] := by
  decide +kernel

/-- The pieces' offsets: piece `r` of trip `k` starts at flat offset `32 * k + 16 * r` of the slab. -/
theorem off2_eq : ∀ (k : Fin k1_t1_loop.trips) (r : Fin 2),
    k1_off2 k (BitVec.ofNat 32 (16 * r.val)) = ![(32 * k.val + 16 * r.val) / 512, (32 * k.val + 16 * r.val) % 512] := by
  decide +kernel

/-! ## Reads -/

/-- A slab's entry at a flat offset (row `j / 512`, column `j % 512`). -/
def flat (A : FVec F S32x512 .f32) (j : ℕ) : F .f32 :=
  A (ix2 (⟨j / 512 % 32, Nat.mod_lt _ (by omega)⟩ : Fin 32) (⟨j % 512, Nat.mod_lt _ (by omega)⟩ : Fin 512))

theorem ldT_flat (B : FVec F S32x512 .f32) (k : Fin k1_t1_loop.trips) (r : Fin 2) (x : S1x16.Idx) :
    ldT B k r x = flat B (32 * k.val + 16 * r.val + (x 1).val) := by
  have hk : k.val < 512 := trips_eq ▸ k.isLt
  have hr : r.val < 2 := r.isLt
  have hx0 : (x 0).val < 1 := (x 0).isLt
  have hx1 : (x 1).val < 16 := (x 1).isLt
  show B ((Rect.unit (s := S32x512) (k1_off2 k (BitVec.ofNat 32 (16 * r.val))) S1x16.size (k1_off2_inb k r)).toLoadRect.idx x) = _
  unfold flat
  refine congrArg B (funext fun a => Fin.ext ?_)
  rw [LoadRect.idx_apply]
  show k1_off2 k (BitVec.ofNat 32 (16 * r.val)) a + 1 * (x a).val = _
  rw [off2_eq]
  match a with
  | ⟨0, _⟩ => show (32 * k.val + 16 * r.val) / 512 + 1 * (x 0).val = (32 * k.val + 16 * r.val + (x 1).val) / 512 % 32; omega
  | ⟨1, _⟩ => show (32 * k.val + 16 * r.val) % 512 + 1 * (x 1).val = (32 * k.val + 16 * r.val + (x 1).val) % 512; omega

theorem ldO_flat (A : FVec F S32x512 .f32) (k : Fin k1_t1_loop.trips) (r : Fin 2) (x : S1x16.Idx) :
    ldO A k r x = flat A (32 * k.val + 16 * r.val + (x 1).val) := by
  have hk : k.val < 512 := trips_eq ▸ k.isLt
  have hr : r.val < 2 := r.isLt
  have hx0 : (x 0).val < 1 := (x 0).isLt
  have hx1 : (x 1).val < 16 := (x 1).isLt
  show A ((Rect.unit (s := S32x512) (k1_off2 k (BitVec.ofNat 32 (16 * r.val))) S1x16.size (k1_off2_inb k r)).toLoadRect.idx x) = _
  unfold flat
  refine congrArg A (funext fun a => Fin.ext ?_)
  rw [LoadRect.idx_apply]
  show k1_off2 k (BitVec.ofNat 32 (16 * r.val)) a + 1 * (x a).val = _
  rw [off2_eq]
  match a with
  | ⟨0, _⟩ => show (32 * k.val + 16 * r.val) / 512 + 1 * (x 0).val = (32 * k.val + 16 * r.val + (x 1).val) / 512 % 32; omega
  | ⟨1, _⟩ => show (32 * k.val + 16 * r.val) % 512 + 1 * (x 1).val = (32 * k.val + 16 * r.val + (x 1).val) % 512; omega

/-- A 1 x 16 vector recast to 16 lanes, at a lane. -/
theorem cast16 {α : Type} (v : S1x16.Idx → α) (i : S16.Idx) :
    shapeCast S16 v Facts₀.shapeCasts_S1x16_S16 i = v (ix2 (n0 := 1) (n1 := 16) 0 (i 0)) :=
  shapeCast_apply v _ i _ (by rw [Shape.rowMajor_val_two, Shape.rowMajor_val_one]; simp [ix2])

/-- Sixteen lanes recast to 1 x 16, at a lane. -/
theorem cast1x16 {α : Type} (v : S16.Idx → α) (x : S1x16.Idx) :
    shapeCast S1x16 v Facts₀.shapeCasts_S16_S1x16 x = v (ix1 (n := 16) (x 1)) :=
  shapeCast_apply v _ x _ (by
    have h0 : (x 0).val < 1 := (x 0).isLt
    rw [Shape.rowMajor_val_two, Shape.rowMajor_val_one]; simp [ix1]; omega)

/-- Lane `i` of piece `r` of trip `k`, recast to sixteen lanes, is the slab's entry at flat offset `32 * k + 16 * r + i`. -/
theorem ldT_lane (B : FVec F S32x512 .f32) (k : Fin k1_t1_loop.trips) (r : Fin 2) (i : S16.Idx) :
    shapeCast S16 (ldT B k r) Facts₀.shapeCasts_S1x16_S16 i = flat B (32 * k.val + 16 * r.val + (i 0).val) := by
  rw [cast16, ldT_flat]
theorem ldO_lane (A : FVec F S32x512 .f32) (k : Fin k1_t1_loop.trips) (r : Fin 2) (i : S16.Idx) :
    shapeCast S16 (ldO A k r) Facts₀.shapeCasts_S1x16_S16 i = flat A (32 * k.val + 16 * r.val + (i 0).val) := by
  rw [cast16, ldO_flat]

/-- A slab is the rows `384 + (w % 4) * 32 ..` of batch `w / 4` of its argument: where its entry (row, column) lies. -/
theorem slab0_emb (L : grid1.Coords) (x : S32x512.Idx) :
    (slab0 L).view.emb x
      = ix3 (⟨wid L / 4, by have := wid_lt_32 L; omega⟩ : Fin 8) (⟨384 + wid L % 4 * 32 + (x 0).val, by have : (x 0).val < 32 := (x 0).isLt; omega⟩ : Fin 512)
          (⟨(x 1).val, (x 1).isLt⟩ : Fin 512) := by
  have hre : Shape.reshapeEquiv (s := S1x32x512) (s' := S32x512) Facts₀.squeezes_S1x32x512_S32x512.numel_eq x = ix3 (n0 := 1) (n1 := 32) (n2 := 512) 0 (x 0) (x 1) :=
    Shape.reshapeEquiv_eq_of_rowMajor _ (by rw [Shape.rowMajor_val_three, Shape.rowMajor_val_two]; simp [ix3])
  show (Rect.unit (s := S8x512x512) (k1_off1 L) S1x32x512.size (k1_off1_inb L)).emb
      (Shape.reshapeEquiv (s := S1x32x512) (s' := S32x512) Facts₀.squeezes_S1x32x512_S32x512.numel_eq x) = _
  rw [hre]
  funext a
  apply Fin.ext
  rw [Rect.emb_apply]
  show k1_off1 L a + 1 * (ix3 (n0 := 1) (n1 := 32) (n2 := 512) 0 (x 0) (x 1) a).val = _
  rw [off1_eq]
  match a with
  | ⟨0, _⟩ => show (2 * (L 1).val + (L 0).val) / 4 + 1 * 0 = (2 * (L 1).val + (L 0).val) / 4; omega
  | ⟨1, _⟩ => show 384 + (2 * (L 1).val + (L 0).val) % 4 * 32 + 1 * (x 0).val = 384 + (2 * (L 1).val + (L 0).val) % 4 * 32 + (x 0).val; omega
  | ⟨2, _⟩ => show 0 + 1 * (x 1).val = (x 1).val; omega
theorem slab1_emb (L : grid1.Coords) (x : S32x512.Idx) :
    (slab1 L).view.emb x
      = ix3 (⟨wid L / 4, by have := wid_lt_32 L; omega⟩ : Fin 8) (⟨384 + wid L % 4 * 32 + (x 0).val, by have : (x 0).val < 32 := (x 0).isLt; omega⟩ : Fin 512)
          (⟨(x 1).val, (x 1).isLt⟩ : Fin 512) := by
  have hre : Shape.reshapeEquiv (s := S1x32x512) (s' := S32x512) Facts₀.squeezes_S1x32x512_S32x512.numel_eq x = ix3 (n0 := 1) (n1 := 32) (n2 := 512) 0 (x 0) (x 1) :=
    Shape.reshapeEquiv_eq_of_rowMajor _ (by rw [Shape.rowMajor_val_three, Shape.rowMajor_val_two]; simp [ix3])
  show (Rect.unit (s := S8x512x512) (k1_off1 L) S1x32x512.size (k1_off1_inb L)).emb
      (Shape.reshapeEquiv (s := S1x32x512) (s' := S32x512) Facts₀.squeezes_S1x32x512_S32x512.numel_eq x) = _
  rw [hre]
  funext a
  apply Fin.ext
  rw [Rect.emb_apply]
  show k1_off1 L a + 1 * (ix3 (n0 := 1) (n1 := 32) (n2 := 512) 0 (x 0) (x 1) a).val = _
  rw [off1_eq]
  match a with
  | ⟨0, _⟩ => show (2 * (L 1).val + (L 0).val) / 4 + 1 * 0 = (2 * (L 1).val + (L 0).val) / 4; omega
  | ⟨1, _⟩ => show 384 + (2 * (L 1).val + (L 0).val) % 4 * 32 + 1 * (x 0).val = 384 + (2 * (L 1).val + (L 0).val) % 4 * 32 + (x 0).val; omega
  | ⟨2, _⟩ => show 0 + 1 * (x 1).val = (x 1).val; omega

theorem slab0_read (X : FVec F S8x512x512 .f32) (L : grid1.Coords) (x : S32x512.Idx) :
    (slab0 L).view.read (Elt F) X x = X (ix3 (⟨wid L / 4, by have := wid_lt_32 L; omega⟩ : Fin 8) (⟨384 + wid L % 4 * 32 + (x 0).val, by have : (x 0).val < 32 := (x 0).isLt; omega⟩ : Fin 512)
          (⟨(x 1).val, (x 1).isLt⟩ : Fin 512)) :=
  (View.read_apply _ _).trans ((cast_eq _ _).trans (congrArg X (slab0_emb L x)))
theorem slab1_read (X : FVec F S8x512x512 .f32) (L : grid1.Coords) (x : S32x512.Idx) :
    (slab1 L).view.read (Elt F) X x = X (ix3 (⟨wid L / 4, by have := wid_lt_32 L; omega⟩ : Fin 8) (⟨384 + wid L % 4 * 32 + (x 0).val, by have : (x 0).val < 32 := (x 0).isLt; omega⟩ : Fin 512)
          (⟨(x 1).val, (x 1).isLt⟩ : Fin 512)) :=
  (View.read_apply _ _).trans ((cast_eq _ _).trans (congrArg X (slab1_emb L x)))

/-- The slab's entry at a flat offset below 32 * 512, as an entry of the argument. -/
theorem flat_slab0 (X : FVec F S8x512x512 .f32) (L : grid1.Coords) (j : ℕ) (hj : j < 16384) :
    flat ((slab0 L).view.read (Elt F) X) j
      = X (ix3 (⟨wid L / 4, by have := wid_lt_32 L; omega⟩ : Fin 8) (⟨384 + wid L % 4 * 32 + j / 512, by omega⟩ : Fin 512) (⟨j % 512, by omega⟩ : Fin 512)) := by
  unfold flat
  rw [slab0_read]
  refine congrArg X (funext fun a => Fin.ext ?_)
  match a with
  | ⟨0, _⟩ => rfl
  | ⟨1, _⟩ => show 384 + wid L % 4 * 32 + j / 512 % 32 = 384 + wid L % 4 * 32 + j / 512; omega
  | ⟨2, _⟩ => rfl
theorem flat_slab1 (X : FVec F S8x512x512 .f32) (L : grid1.Coords) (j : ℕ) (hj : j < 16384) :
    flat ((slab1 L).view.read (Elt F) X) j
      = X (ix3 (⟨wid L / 4, by have := wid_lt_32 L; omega⟩ : Fin 8) (⟨384 + wid L % 4 * 32 + j / 512, by omega⟩ : Fin 512) (⟨j % 512, by omega⟩ : Fin 512)) := by
  unfold flat
  rw [slab1_read]
  refine congrArg X (funext fun a => Fin.ext ?_)
  match a with
  | ⟨0, _⟩ => rfl
  | ⟨1, _⟩ => show 384 + wid L % 4 * 32 + j / 512 % 32 = 384 + wid L % 4 * 32 + j / 512; omega
  | ⟨2, _⟩ => rfl

/-! ## One trip, lane by lane -/

theorem tStep_lane (A B : FVec Ideal S32x512 .f32) (k : Fin k1_t1_loop.trips) (acc : Acc Ideal) (i : S16.Idx) :
    (tStep A B k acc).1 i = acc.1 i + Spec.e1 (F := Ideal) (flat B (32 * k.val + (i 0).val)) (flat A (32 * k.val + (i 0).val))
    ∧ (tStep A B k acc).2.1 i
        = acc.2.1 i + Spec.e1 (F := Ideal) (flat B (32 * k.val + 16 + (i 0).val)) (flat A (32 * k.val + 16 + (i 0).val))
    ∧ (tStep A B k acc).2.2.1 i = acc.2.2.1 i + Spec.p1 (F := Ideal) (flat B (32 * k.val + (i 0).val))
    ∧ (tStep A B k acc).2.2.2 i = acc.2.2.2 i + Spec.p1 (F := Ideal) (flat B (32 * k.val + 16 + (i 0).val)) := by
  have t0 : shapeCast S16 (ldT B k 0) Facts₀.shapeCasts_S1x16_S16 i = flat B (32 * k.val + (i 0).val) := ldT_lane B k 0 i
  have t1 : shapeCast S16 (ldT B k 1) Facts₀.shapeCasts_S1x16_S16 i = flat B (32 * k.val + 16 + (i 0).val) := ldT_lane B k 1 i
  have o0 : shapeCast S16 (ldO A k 0) Facts₀.shapeCasts_S1x16_S16 i = flat A (32 * k.val + (i 0).val) := ldO_lane A k 0 i
  have o1 : shapeCast S16 (ldO A k 1) Facts₀.shapeCasts_S1x16_S16 i = flat A (32 * k.val + 16 + (i 0).val) := ldO_lane A k 1 i
  refine ⟨?_, ?_, ?_, ?_⟩
  · show acc.1 i + Spec.e1 (F := Ideal) (shapeCast S16 (ldT B k 0) Facts₀.shapeCasts_S1x16_S16 i)
        (shapeCast S16 (ldO A k 0) Facts₀.shapeCasts_S1x16_S16 i) = _
    rw [t0, o0]
  · show acc.2.1 i + Spec.e1 (F := Ideal) (shapeCast S16 (ldT B k 1) Facts₀.shapeCasts_S1x16_S16 i)
        (shapeCast S16 (ldO A k 1) Facts₀.shapeCasts_S1x16_S16 i) = _
    rw [t1, o1]
  · show acc.2.2.1 i + Spec.p1 (F := Ideal) (shapeCast S16 (ldT B k 0) Facts₀.shapeCasts_S1x16_S16 i) = _
    rw [t0]
  · show acc.2.2.2 i + Spec.p1 (F := Ideal) (shapeCast S16 (ldT B k 1) Facts₀.shapeCasts_S1x16_S16 i) = _
    rw [t1]

/-- Lane `i` of the four accumulators before trip `n`: the sums over the trips `k < n`. -/
theorem tAcc_lane (A B : FVec Ideal S32x512 .f32) (i : S16.Idx) : ∀ n, n ≤ 512 →
    (tAcc A B n).1 i = ∑ k ∈ range n, Spec.e1 (F := Ideal) (flat B (32 * k + (i 0).val)) (flat A (32 * k + (i 0).val))
    ∧ (tAcc A B n).2.1 i
        = ∑ k ∈ range n, Spec.e1 (F := Ideal) (flat B (32 * k + 16 + (i 0).val)) (flat A (32 * k + 16 + (i 0).val))
    ∧ (tAcc A B n).2.2.1 i = ∑ k ∈ range n, Spec.p1 (F := Ideal) (flat B (32 * k + (i 0).val))
    ∧ (tAcc A B n).2.2.2 i = ∑ k ∈ range n, Spec.p1 (F := Ideal) (flat B (32 * k + 16 + (i 0).val)) := by
  intro n
  induction n with
  | zero =>
    intro _
    have z : (k1_pay10 (F := Ideal)) i = 0 := Ideal.ofBits_zero_f32
    simp only [Finset.sum_range_zero]
    exact ⟨z, z, z, z⟩
  | succ n ih =>
    intro hn
    have h : n < k1_t1_loop.trips := by rw [trips_eq]; omega
    obtain ⟨h1, h2, h3, h4⟩ := ih (by omega)
    obtain ⟨s1, s2, s3, s4⟩ := tStep_lane A B ⟨n, h⟩ (tAcc A B n) i
    have e : tAcc A B (n + 1) = tStep A B ⟨n, h⟩ (tAcc A B n) := by rw [tAcc, dif_pos h]
    rw [e]
    refine ⟨?_, ?_, ?_, ?_⟩
    · rw [s1, h1, Finset.sum_range_succ]
    · rw [s2, h2, Finset.sum_range_succ]
    · rw [s3, h3, Finset.sum_range_succ]
    · rw [s4, h4, Finset.sum_range_succ]

/-! ## The block a tile writes -/

theorem laneOf_ix2 (q : Fin 2) (l : Fin 16) : laneOf (ix2 q l) = ix2 (n0 := 1) (n1 := 16) 0 l := by
  funext a
  match a with
  | ⟨0, _⟩ => rfl
  | ⟨1, _⟩ => rfl

/-- Row 0 of the block, lane `l`: the tile's sum of the masked errors over the offsets `32 * k + l` and `32 * k + 16 + l` of
    its slab. `w` is the tile's number. -/
theorem tileOut_err (X T : FVec Ideal S8x512x512 .f32) (L : grid1.Coords) (w : Fin 32) (hw : w.val = wid L) (l : Fin 16) :
    tileOut (F := Ideal) X T L (ix2 (0 : Fin 2) l)
      = (∑ k : Fin 512, Spec.e1 (F := Ideal) (T (ix3 (⟨w.val / 4, by omega⟩ : Fin 8) (⟨384 + w.val % 4 * 32 + (32 * k.val + l.val) / 512, by omega⟩ : Fin 512) (⟨(32 * k.val + l.val) % 512, by omega⟩ : Fin 512))) (X (ix3 (⟨w.val / 4, by omega⟩ : Fin 8) (⟨384 + w.val % 4 * 32 + (32 * k.val + l.val) / 512, by omega⟩ : Fin 512) (⟨(32 * k.val + l.val) % 512, by omega⟩ : Fin 512))))
        + ∑ k : Fin 512, Spec.e1 (F := Ideal) (T (ix3 (⟨w.val / 4, by omega⟩ : Fin 8) (⟨384 + w.val % 4 * 32 + (32 * k.val + 16 + l.val) / 512, by omega⟩ : Fin 512) (⟨(32 * k.val + 16 + l.val) % 512, by omega⟩ : Fin 512))) (X (ix3 (⟨w.val / 4, by omega⟩ : Fin 8) (⟨384 + w.val % 4 * 32 + (32 * k.val + 16 + l.val) / 512, by omega⟩ : Fin 512) (⟨(32 * k.val + 16 + l.val) % 512, by omega⟩ : Fin 512))) := by
  obtain rfl : w = ⟨wid L, wid_lt_32 L⟩ := Fin.ext hw
  obtain ⟨h1, h2, -, -⟩ := tAcc_lane ((slab0 L).view.read (Elt Ideal) X) ((slab1 L).view.read (Elt Ideal) T) (ix1 l) 512 le_rfl
  unfold tileOut
  rw [if_pos (show ((ix2 (0 : Fin 2) l : S2x16.Idx) 0).val = 0 from rfl), trips_eq]
  show shapeCast S1x16 (addf _ _) Facts₀.shapeCasts_S16_S1x16 (laneOf (ix2 (0 : Fin 2) l)) = _
  rw [cast1x16, laneOf_ix2]
  show (tAcc _ _ 512).1 (ix1 l) + (tAcc _ _ 512).2.1 (ix1 l) = _
  rw [h1, h2, Finset.sum_range, Finset.sum_range]
  congr 1 <;> refine Finset.sum_congr rfl fun k _ => ?_
  · have hj : 32 * k.val + l.val < 16384 := by have := k.isLt; have := l.isLt; omega
    show Spec.e1 (F := Ideal) (flat _ (32 * k.val + l.val)) (flat _ (32 * k.val + l.val)) = _
    rw [flat_slab1 T L _ hj, flat_slab0 X L _ hj]
  · have hj : 32 * k.val + 16 + l.val < 16384 := by have := k.isLt; have := l.isLt; omega
    show Spec.e1 (F := Ideal) (flat _ (32 * k.val + 16 + l.val)) (flat _ (32 * k.val + 16 + l.val)) = _
    rw [flat_slab1 T L _ hj, flat_slab0 X L _ hj]

/-- Row 1 of the block, lane `l`: the same sums of the mask's indicator. -/
theorem tileOut_cnt (X T : FVec Ideal S8x512x512 .f32) (L : grid1.Coords) (w : Fin 32) (hw : w.val = wid L) (l : Fin 16) :
    tileOut (F := Ideal) X T L (ix2 (1 : Fin 2) l)
      = (∑ k : Fin 512, Spec.p1 (F := Ideal) (T (ix3 (⟨w.val / 4, by omega⟩ : Fin 8) (⟨384 + w.val % 4 * 32 + (32 * k.val + l.val) / 512, by omega⟩ : Fin 512) (⟨(32 * k.val + l.val) % 512, by omega⟩ : Fin 512))))
        + ∑ k : Fin 512, Spec.p1 (F := Ideal) (T (ix3 (⟨w.val / 4, by omega⟩ : Fin 8) (⟨384 + w.val % 4 * 32 + (32 * k.val + 16 + l.val) / 512, by omega⟩ : Fin 512) (⟨(32 * k.val + 16 + l.val) % 512, by omega⟩ : Fin 512))) := by
  obtain rfl : w = ⟨wid L, wid_lt_32 L⟩ := Fin.ext hw
  obtain ⟨-, -, h3, h4⟩ := tAcc_lane ((slab0 L).view.read (Elt Ideal) X) ((slab1 L).view.read (Elt Ideal) T) (ix1 l) 512 le_rfl
  unfold tileOut
  rw [if_neg (show ¬ ((ix2 (1 : Fin 2) l : S2x16.Idx) 0).val = 0 from Nat.one_ne_zero), trips_eq]
  show shapeCast S1x16 (addf _ _) Facts₀.shapeCasts_S16_S1x16 (laneOf (ix2 (1 : Fin 2) l)) = _
  rw [cast1x16, laneOf_ix2]
  show (tAcc _ _ 512).2.2.1 (ix1 l) + (tAcc _ _ 512).2.2.2 (ix1 l) = _
  rw [h3, h4, Finset.sum_range, Finset.sum_range]
  congr 1 <;> refine Finset.sum_congr rfl fun k _ => ?_
  · have hj : 32 * k.val + l.val < 16384 := by have := k.isLt; have := l.isLt; omega
    show Spec.p1 (F := Ideal) (flat _ (32 * k.val + l.val)) = _
    rw [flat_slab1 T L _ hj]
  · have hj : 32 * k.val + 16 + l.val < 16384 := by have := k.isLt; have := l.isLt; omega
    show Spec.p1 (F := Ideal) (flat _ (32 * k.val + 16 + l.val)) = _
    rw [flat_slab1 T L _ hj]

end Cert.KernelIdeal.Hand

end
-- ==== Proof.RegionValue.lean ====
/-
  The TensorCore call's two scalars, read on the extended reals. The call adds to each scalar, batch after batch, the total
  over the 384 x 512 block of the batch's first 384 rows of the masked absolute error (of the mask's indicator). A total over
  a block is the double sum over its rows and columns, an entry of the block is the array's entry at (batch, row, column), and
  the eight batches in order give the sum over the batches: the first scalar is the triple sum of the masked errors over
  batches, rows 0 to 383 and columns, the second that of the indicators.
-/
import proofs.«207045_g69415261438402_cont_9to1_m_695_13_alg».proof.Proof.Region
import proofs.«207045_g69415261438402_cont_9to1_m_695_13_alg».proof.Proof.RefSide
import proofs.«207045_g69415261438402_cont_9to1_m_695_13_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

theorem S1_unit : ∀ b : Fin S1.rank, S1.size b = 1 := fun b => match b with | ⟨0, _⟩ => rfl

/-- The scalar the body extracts from a block's reduction is the total of the block. -/
theorem red_total (src : FVec Ideal S1x384x512 .f32) (hφ : FKind.Formats .f32) (hacc : (0x00000000#32 : BitVec 32) = FKind.add.neutral .f32 hφ) :
    extractAt ![0, 0, 0] (shapeCast S1x1x1 (multiReduction .add [1, 2] S1 src 0x00000000#32 reduces_S1x384x512_S1 hφ hacc) shapeCasts_S1_S1x1x1)
      inpos_S1x1x1_p0_0_0 = ∑ i, src i :=
  Ideal.multiReduction_add_total src _ reduces_S1x384x512_S1 S1_unit hφ hacc _

/-- A block's masked errors added to an accumulator: the accumulator plus the double sum over the block's rows and columns. -/
theorem pay3_ideal (v0 v2 : Vec Ideal S1x384x512 .f32) (a : Ideal .f32) :
    k0_pay3 (F := Ideal) v0 v2 a
      = a + ∑ r : Fin 384, ∑ j : Fin 512, Spec.e1 (F := Ideal) (v0 (ix3 (0 : Fin 1) r j)) (v2 (ix3 (0 : Fin 1) r j)) := by
  unfold k0_pay3
  simp only [Ideal.scalar_addf_def]
  congr 1
  refine (red_total _ _ _).trans ?_
  rw [Cert.RefSide.sum_idx3, Fin.sum_univ_one]
  refine Finset.sum_congr rfl fun r _ => Finset.sum_congr rfl fun j _ => ?_
  rw [shapeCast_ab_1ab_apply]
  refine (Spec.e_lane (F := Ideal) (k0_pay1 v0) (shapeCast S384x512 v2 shapeCasts_S1x384x512_S384x512) (ix2 r j)).trans ?_
  unfold k0_pay1
  rw [shapeCast_1ab_ab_apply, shapeCast_1ab_ab_apply]

/-- A block's indicators added to an accumulator likewise. -/
theorem pay4_ideal (v0 : Vec Ideal S1x384x512 .f32) (a : Ideal .f32) :
    k0_pay4 (F := Ideal) v0 a = a + ∑ r : Fin 384, ∑ j : Fin 512, Spec.p1 (F := Ideal) (v0 (ix3 (0 : Fin 1) r j)) := by
  unfold k0_pay4
  simp only [Ideal.scalar_addf_def]
  congr 1
  refine (red_total _ _ _).trans ?_
  rw [Cert.RefSide.sum_idx3, Fin.sum_univ_one]
  refine Finset.sum_congr rfl fun r _ => Finset.sum_congr rfl fun j _ => ?_
  rw [shapeCast_ab_1ab_apply]
  refine (Spec.p_lane (F := Ideal) (k0_pay1 v0) (ix2 r j)).trans ?_
  unfold k0_pay1
  rw [shapeCast_1ab_ab_apply]

section Blocks

variable {F : FTy → Type} [FloatOps F]

/-- The index map of the two arguments' windows: the batch on the first axis, zero on the others. -/
theorem index0_0 : ∀ (t : Fin grid0.N) (a : Fin 3), win0_0.index t a * win0_0.size a = (![t.val, 0, 0] : Fin 3 → ℕ) a := by decide +kernel
theorem index0_1 : ∀ (t : Fin grid0.N) (a : Fin 3), win0_1.index t a * win0_1.size a = (![t.val, 0, 0] : Fin 3 → ℕ) a := by decide +kernel

/-- An entry of the block of the first array staged at point `t` is the array's entry in batch `t`. -/
theorem oblk_apply (X : Region.Arr F) (t : Fin grid0.N) (r : Fin 384) (j : Fin 512) :
    Region.oblk X t (ix3 (0 : Fin 1) r j) = X (ix3 (⟨t.val, t.isLt⟩ : Fin 8) (⟨r.val, by omega⟩ : Fin 512) j) := by
  have hm : win0_0.moved (grid0.coords t) (ix3 (0 : Fin 1) r j) = true :=
    (win0_0.moved_iff _ _).mpr fun a => by rw [Region.xsize0_0]; exact (ix3 (0 : Fin 1) r j a).isLt
  unfold Region.oblk Pipeline.Window.fill
  rw [dif_pos hm, View.read_apply]
  refine (cast_eq _ _).trans (congrArg X (funext fun a => Fin.ext ?_))
  show ((win0_0.rect t).emb (fun a => ⟨(ix3 (0 : Fin 1) r j a).val, _⟩) a : ℕ) = _
  rw [Pipeline.Window.rect_emb_val, index0_0]
  match a with
  | ⟨0, _⟩ => show t.val + 0 = t.val; rfl
  | ⟨1, _⟩ => show 0 + r.val = r.val; omega
  | ⟨2, _⟩ => show 0 + j.val = j.val; omega

/-- The second array's likewise. -/
theorem tblk_apply (Y : Region.Arr F) (t : Fin grid0.N) (r : Fin 384) (j : Fin 512) :
    Region.tblk Y t (ix3 (0 : Fin 1) r j) = Y (ix3 (⟨t.val, t.isLt⟩ : Fin 8) (⟨r.val, by omega⟩ : Fin 512) j) := by
  have hm : win0_1.moved (grid0.coords t) (ix3 (0 : Fin 1) r j) = true :=
    (win0_1.moved_iff _ _).mpr fun a => by rw [Region.xsize0_1]; exact (ix3 (0 : Fin 1) r j a).isLt
  unfold Region.tblk Pipeline.Window.fill
  rw [dif_pos hm, View.read_apply]
  refine (cast_eq _ _).trans (congrArg Y (funext fun a => Fin.ext ?_))
  show ((win0_1.rect t).emb (fun a => ⟨(ix3 (0 : Fin 1) r j a).val, _⟩) a : ℕ) = _
  rw [Pipeline.Window.rect_emb_val, index0_1]
  match a with
  | ⟨0, _⟩ => show t.val + 0 = t.val; rfl
  | ⟨1, _⟩ => show 0 + r.val = r.val; omega
  | ⟨2, _⟩ => show 0 + j.val = j.val; omega

end Blocks

/-- The masked errors of the first 384 rows of batch `b`; -/
def blockE (X T : FVec Ideal S8x512x512 .f32) (b : Fin 8) : EReal :=
  ∑ r : Fin 384, ∑ j : Fin 512,
    Spec.e1 (F := Ideal) (T (ix3 b (⟨r.val, by omega⟩ : Fin 512) j)) (X (ix3 b (⟨r.val, by omega⟩ : Fin 512) j))
/-- the indicators. -/
def blockP (T : FVec Ideal S8x512x512 .f32) (b : Fin 8) : EReal :=
  ∑ r : Fin 384, ∑ j : Fin 512, Spec.p1 (F := Ideal) (T (ix3 b (⟨r.val, by omega⟩ : Fin 512) j))

theorem pay3_block (X T : FVec Ideal S8x512x512 .f32) (t : Fin grid0.N) (a : Ideal .f32) :
    k0_pay3 (F := Ideal) (Region.tblk T t) (Region.oblk X t) a = a + blockE X T ⟨t.val, t.isLt⟩ := by
  rw [pay3_ideal]; unfold blockE; simp only [oblk_apply, tblk_apply]
theorem pay4_block (T : FVec Ideal S8x512x512 .f32) (t : Fin grid0.N) (a : Ideal .f32) :
    k0_pay4 (F := Ideal) (Region.tblk T t) a = a + blockP T ⟨t.val, t.isLt⟩ := by
  rw [pay4_ideal]; unfold blockP; simp only [tblk_apply]

/-- The first scalar after the point of batch `n`: the sum of the batches' masked errors up to `n`. -/
theorem accN_ideal (X T : FVec Ideal S8x512x512 .f32) (n : ℕ) : ∀ (hn : n < grid0.N),
    Region.accN (F := Ideal) X T n = ∑ b : Fin (n + 1), blockE X T ⟨b.val, Nat.lt_of_lt_of_le b.isLt hn⟩ := by
  induction n with
  | zero =>
    intro hn
    have h := Region.accN_zero (F := Ideal) X T (⟨0, hn⟩ : Fin grid0.N) rfl
    rw [pay3_block] at h
    rw [Fin.sum_univ_one]
    refine h.trans ?_
    show Ideal.ofBits .f32 0x00000000#32 + _ = _
    rw [Ideal.ofBits_zero_f32, zero_add]
    rfl
  | succ n ih =>
    intro hn
    have h := Region.accN_succ (F := Ideal) X T (⟨n + 1, hn⟩ : Fin grid0.N) (Nat.succ_ne_zero n)
    rw [pay3_block] at h
    rw [Fin.sum_univ_castSucc]
    refine h.trans (congrArg₂ (· + ·) ?_ rfl)
    exact (ih (Nat.lt_of_succ_lt hn)).trans rfl

/-- The second scalar likewise. -/
theorem accD_ideal (T : FVec Ideal S8x512x512 .f32) (n : ℕ) : ∀ (hn : n < grid0.N),
    Region.accD (F := Ideal) T n = ∑ b : Fin (n + 1), blockP T ⟨b.val, Nat.lt_of_lt_of_le b.isLt hn⟩ := by
  induction n with
  | zero =>
    intro hn
    have h := Region.accD_zero (F := Ideal) T (⟨0, hn⟩ : Fin grid0.N) rfl
    rw [pay4_block] at h
    rw [Fin.sum_univ_one]
    refine h.trans ?_
    show Ideal.ofBits .f32 0x00000000#32 + _ = _
    rw [Ideal.ofBits_zero_f32, zero_add]
    rfl
  | succ n ih =>
    intro hn
    have h := Region.accD_succ (F := Ideal) T (⟨n + 1, hn⟩ : Fin grid0.N) (Nat.succ_ne_zero n)
    rw [pay4_block] at h
    rw [Fin.sum_univ_castSucc]
    refine h.trans (congrArg₂ (· + ·) ?_ rfl)
    exact (ih (Nat.lt_of_succ_lt hn)).trans rfl

/-- The TensorCore call's first scalar: the masked errors summed over every batch's rows 0 to 383. -/
theorem tcNum_ideal (X T : FVec Ideal S8x512x512 .f32) :
    Region.tcNum (F := Ideal) X T (ix2 0 0) = ∑ b : Fin 8, ∑ r : Fin 384, ∑ j : Fin 512,
      Spec.e1 (F := Ideal) (T (ix3 b (⟨r.val, by omega⟩ : Fin 512) j)) (X (ix3 b (⟨r.val, by omega⟩ : Fin 512) j)) :=
  (accN_ideal X T 7 (by decide)).trans rfl

/-- Its second scalar: the indicators summed over the same. -/
theorem tcDen_ideal (T : FVec Ideal S8x512x512 .f32) :
    Region.tcDen (F := Ideal) T (ix2 0 0) = ∑ b : Fin 8, ∑ r : Fin 384, ∑ j : Fin 512,
      Spec.p1 (F := Ideal) (T (ix3 b (⟨r.val, by omega⟩ : Fin 512) j)) :=
  (accD_ideal T 7 (by decide)).trans rfl

end Cert.KernelIdeal.Hand

end
-- ==== Proof.Final.lean ====
/-
  The value the kernel's host operations end with, from the launch contents of the two arguments: the two scalars the
  TensorCore call leaves are the sums of the masked errors and of the mask's indicators over the rows 0..383 of every batch;
  row `w` of the array of lane sums holds the block tile `w` computes, whose entry (q, l) is lane `l`'s two interleaved partial
  sums over the tile's slab; so the quotient the host forms is the quotient of the two sums over all 8 x 512 x 512 elements —
  the reference's value.
-/
import proofs.«207045_g69415261438402_cont_9to1_m_695_13_alg».proof.Proof.Pay
import proofs.«207045_g69415261438402_cont_9to1_m_695_13_alg».proof.Proof.Value
import proofs.«207045_g69415261438402_cont_9to1_m_695_13_alg».proof.Proof.TileValue
import proofs.«207045_g69415261438402_cont_9to1_m_695_13_alg».proof.Proof.RegionValue

noncomputable section

namespace Cert.KernelIdeal.Hand

open Cert.KernelIdeal Cert.KernelIdeal.Gen
open Idealize.ShloMosaic Idealize.ShloMosaic.ValueIdx

variable {F : FTy → Type}

/-- A tile's row of the array of lane sums is row `wid L` of it: where the row's entry (q, l) lies. -/
theorem pRow_emb (L : grid1.Coords) (x : S2x16.Idx) :
    (pRow L).view.emb x = ix3 (widF L) (⟨(x 0).val, (x 0).isLt⟩ : Fin 2) (⟨(x 1).val, (x 1).isLt⟩ : Fin 16) := by
  have hre : Shape.reshapeEquiv (s := S1x2x16) (s' := S2x16) Facts₀.squeezes_S1x2x16_S2x16.numel_eq x
      = ix3 (n0 := 1) (n1 := 2) (n2 := 16) 0 (x 0) (x 1) :=
    Shape.reshapeEquiv_eq_of_rowMajor _ (by rw [Shape.rowMajor_val_three, Shape.rowMajor_val_two]; simp [ix3])
  show (Rect.unit (s := S32x2x16) (k1_off3 L) S1x2x16.size (k1_off3_inb L)).emb
      (Shape.reshapeEquiv (s := S1x2x16) (s' := S2x16) Facts₀.squeezes_S1x2x16_S2x16.numel_eq x) = _
  rw [hre]
  funext a
  apply Fin.ext
  rw [Rect.emb_apply]
  show k1_off3 L a + 1 * (ix3 (n0 := 1) (n1 := 2) (n2 := 16) 0 (x 0) (x 1) a).val = _
  rw [k1_off3_eq]
  match a with
  | ⟨0, _⟩ => show 2 * (L 1).val + (L 0).val + 1 * 0 = 2 * (L 1).val + (L 0).val; omega
  | ⟨1, _⟩ => show 0 + 1 * (x 0).val = (x 0).val; omega
  | ⟨2, _⟩ => show 0 + 1 * (x 1).val = (x 1).val; omega

/-- The row read through the tile's memref, entry by entry. -/
theorem pRow_read (g : FVec F S32x2x16 .f32) (L : grid1.Coords) (q : Fin 2) (l : Fin 16) :
    (pRow L).view.read (Elt F) g (ix2 q l) = g (ix3 (widF L) q l) :=
  (View.read_apply _ _).trans ((cast_eq _ _).trans (congrArg g (pRow_emb L (ix2 q l))))

/-- The host's result is the reference's value, given what the TensorCore's two scalars are (`hN`, `hD`: the sums over the rows
    0..383) and that every row of the array of lane sums holds its tile's block (`hg`). -/
theorem final_value_of (m : (ℓ : Loc nD τ sig) → Buf (Elt Ideal) ℓ) (d : Dev nD) (g : Buf (Elt Ideal) (pLoc d)) (hg : PHolds m d g)
    (hN : ∀ X T : FVec Ideal S8x512x512 .f32, Region.tcNum (F := Ideal) X T (ix2 0 0) = ∑ b : Fin 8, ∑ r : Fin 384, ∑ j : Fin 512,
      Spec.e1 (F := Ideal) (T (ix3 b (⟨r.val, by omega⟩ : Fin 512) j)) (X (ix3 b (⟨r.val, by omega⟩ : Fin 512) j)))
    (hD : ∀ T : FVec Ideal S8x512x512 .f32, Region.tcDen (F := Ideal) T (ix2 0 0) = ∑ b : Fin 8, ∑ r : Fin 384, ∑ j : Fin 512,
      Spec.p1 (F := Ideal) (T (ix3 b (⟨r.val, by omega⟩ : Fin 512) j))) :
    lossOf (Region.tcNum (m (a0Loc d)) (m (a1Loc d))) (Region.tcDen (m (a1Loc d))) g = Cert.RefSide.G (m (a0Loc d)) (m (a1Loc d)) := by
  refine loss_eq (m (a0Loc d)) (m (a1Loc d)) _ _ g (hN _ _) (hD _) (fun w l => ?_) (fun w l => ?_)
  · have h : (pRow (Lof w)).view.read (Elt Ideal) g = tileOut (F := Ideal) (m (a0Loc d)) (m (a1Loc d)) (Lof w) := hg w
    have h' := congrFun h (ix2 (0 : Fin 2) l)
    rw [pRow_read, widF_Lof] at h'
    exact h'.trans (tileOut_err _ _ (Lof w) w (wid_Lof w).symm l)
  · have h : (pRow (Lof w)).view.read (Elt Ideal) g = tileOut (F := Ideal) (m (a0Loc d)) (m (a1Loc d)) (Lof w) := hg w
    have h' := congrFun h (ix2 (1 : Fin 2) l)
    rw [pRow_read, widF_Lof] at h'
    exact h'.trans (tileOut_cnt _ _ (Lof w) w (wid_Lof w).symm l)

/-- The host's result is the reference's value, whenever every row of the array of lane sums holds its tile's block. -/
theorem final_value (m : (ℓ : Loc nD τ sig) → Buf (Elt Ideal) ℓ) (d : Dev nD) (g : Buf (Elt Ideal) (pLoc d)) (hg : PHolds m d g) :
    lossOf (Region.tcNum (m (a0Loc d)) (m (a1Loc d))) (Region.tcDen (m (a1Loc d))) g = Cert.RefSide.G (m (a0Loc d)) (m (a1Loc d)) :=
  final_value_of m d g hg tcNum_ideal tcDen_ideal

end Cert.KernelIdeal.Hand

end
-- ==== Proof.lean ====
/- The masked mean absolute error of two f32[8, 512, 512] arrays: the sum over the entries where the target is positive of the
   distance between target and output, divided by the number of such entries. The kernel takes rows 0 to 383 of every batch on
   the TensorCore and rows 384 to 511 on the SparseCores' 32 tiles, adds the partial sums and divides; on the extended reals
   this is the reference's quotient of the two sums over all entries, and both programs leave their arguments as they were. -/
import proofs.«207045_g69415261438402_cont_9to1_m_695_13_alg».proof.Defs
import proofs.«207045_g69415261438402_cont_9to1_m_695_13_alg».proof.Proof.Gen.Kernel
import proofs.«207045_g69415261438402_cont_9to1_m_695_13_alg».proof.Proof.Gen.Kernel.Skeleton
import proofs.«207045_g69415261438402_cont_9to1_m_695_13_alg».proof.Proof.Gen.Kernel.Launch
import proofs.«207045_g69415261438402_cont_9to1_m_695_13_alg».proof.Proof.Gen.Kernel.Points
import proofs.«207045_g69415261438402_cont_9to1_m_695_13_alg».proof.Proof.Gen.KernelIdeal
import proofs.«207045_g69415261438402_cont_9to1_m_695_13_alg».proof.Proof.Gen.KernelIdeal.Skeleton
import proofs.«207045_g69415261438402_cont_9to1_m_695_13_alg».proof.Proof.Gen.KernelIdeal.Launch
import proofs.«207045_g69415261438402_cont_9to1_m_695_13_alg».proof.Proof.Gen.KernelIdeal.Points
import proofs.«207045_g69415261438402_cont_9to1_m_695_13_alg».proof.Proof.Gen.ReferenceIdeal
import proofs.«207045_g69415261438402_cont_9to1_m_695_13_alg».proof.Proof.Gen.Pre_finite_inputs
import Idealize.ShloMosaic.Adequacy
import Idealize.ShloMosaic.Init
import proofs.«207045_g69415261438402_cont_9to1_m_695_13_alg».proof.Proof.Launch
import proofs.«207045_g69415261438402_cont_9to1_m_695_13_alg».proof.Proof.LaunchK
import proofs.«207045_g69415261438402_cont_9to1_m_695_13_alg».proof.Proof.Final
import proofs.«207045_g69415261438402_cont_9to1_m_695_13_alg».proof.Proof.RefSide

noncomputable section

namespace Cert.Proof

open Idealize.ShloMosaic Idealize.SL.Sem

/-- The kernel at the bit-exact instance runs and leaves its two arguments as they were: its run with the result dropped. -/
theorem frame_p : Cert.frame_Kernel := fun m ρ _ =>
  (θ_run Cert.Kernel.defs _ _).mono (fun _ h c => ⟨(h c).2.1, (h c).2.2⟩) (Cert.Kernel.Hand.run_main (F := Bits) m ρ)

/-- The same program read on the extended reals, likewise. -/
theorem frame_pi : Cert.frame_KernelIdeal := fun m ρ _ =>
  (θ_run Cert.KernelIdeal.defs _ _).mono (fun _ h c => ⟨(h c).2.1, (h c).2.2⟩) (Cert.KernelIdeal.Hand.run_main (F := Ideal) m ρ)

/-- The idealization rewrote no operation. -/
theorem preserves : Cert.preserves_Kernel_KernelIdeal := trivial

/-- On the extended reals the kernel's result — the quotient of the two sums, each the TensorCore's scalar plus the sum of
    the tiles' lane sums — and the reference's are one function of the two arrays: the quotient of the sum of the masked
    errors by the sum of the mask's indicators over all 8 x 512 x 512 elements. -/
theorem algebraic : Cert.algebraic_KernelIdeal_ReferenceIdeal := by
  intro m ρ m' ρ' _ hagree
  refine ⟨fun c => Cert.RefSide.G (m (Cert.KernelIdeal.Hand.a0Loc c)) (m (Cert.KernelIdeal.Hand.a1Loc c)), ?_, ?_⟩
  · exact (θ_run Cert.KernelIdeal.defs _ _).mono
      (fun r h c => ⟨by obtain ⟨g, hg, hr⟩ := (h c).1; rw [hr]; exact Cert.KernelIdeal.Hand.final_value m c g hg, (h c).2.1, (h c).2.2⟩)
      (Cert.KernelIdeal.Hand.run_main (F := Ideal) m ρ)
  · exact (θ_run Cert.ReferenceIdeal.defs _ _).mono
      (fun _ h c => ⟨by rw [(h c).1, (hagree c).1, (hagree c).2], (h c).2⟩) (Cert.RefSide.ref_run m' ρ')

theorem claim : Cert.Claim :=
  ⟨Cert.Kernel.Gen.facts, Cert.KernelIdeal.Gen.facts, Cert.ReferenceIdeal.Gen.facts, Cert.Pre_finite_inputs.Gen.facts,
    frame_p, frame_pi, Cert.RefSide.frame_ref, preserves, algebraic⟩

end Cert.Proof

end
